-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S128x128 : Shape := ⟨2, ![128, 128]⟩
abbrev S128 : Shape := ⟨1, ![128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x2048x128 .f32) (main_arg1 : FVec F S8x2048x128 .f32) (main_arg2 : FVec F S128x128 .f32) (main_arg3 : FVec F S128x128 .f32) (main_arg4 : FVec F S128x128 .f32) (main_arg5 : FVec F S128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S8x2048x128 : Shape := ⟨3, ![8, 2048, 128]⟩
abbrev S128x128 : Shape := ⟨2, ![128, 128]⟩
abbrev S128 : Shape := ⟨1, ![128]⟩
abbrev S1x2048x128 : Shape := ⟨3, ![1, 2048, 128]⟩
abbrev S2048x2048 : Shape := ⟨2, ![2048, 2048]⟩
abbrev S2048x128 : Shape := ⟨2, ![2048, 128]⟩
abbrev S1x2048 : Shape := ⟨2, ![1, 2048]⟩
abbrev S1x128 : Shape := ⟨2, ![1, 128]⟩
abbrev S512x128 : Shape := ⟨2, ![512, 128]⟩
abbrev S512x2048 : Shape := ⟨2, ![512, 2048]⟩
abbrev S2048 : Shape := ⟨1, ![2048]⟩
abbrev S512 : Shape := ⟨1, ![512]⟩
abbrev S512x1 : Shape := ⟨2, ![512, 1]⟩
abbrev S1x512x128 : Shape := ⟨3, ![1, 512, 128]⟩

abbrev nBuf : Space → Nat
  | .hbm => 8
  | .vmem => 20
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S8x2048x128, .f32⟩
  | .hbm, ⟨7, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S2048x2048, .f32⟩
  | .local _ .vmem, ⟨13, _⟩ => ⟨S2048x128, .bf16⟩
  | .local _ .vmem, ⟨14, _⟩ => ⟨S2048x128, .bf16⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S1x2048, .f32⟩
  | .local _ .vmem, ⟨19, _⟩ => ⟨S1x2048, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v45 : BitVec 32 := Scalar.addi c0_i32 c4_i32
  let c1_i32 : BitVec 32 := 1#32
  ⟨c0_i32, v45, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c512_i32 : BitVec 32 := 512#32
  let v72 : BitVec 32 := Scalar.muli arg17 c512_i32
  v72
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c512_i32 : BitVec 32 := 512#32
  let v72 : BitVec 32 := Scalar.muli arg17 c512_i32
  let v73 : BitVec 32 := v72
  let v74 : Index := Scalar.indexCast v73
  let c0_58 : Index := 0#32
  ![v74.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c512_i32 : BitVec 32 := 512#32
  let v72 : BitVec 32 := Scalar.muli arg17 c512_i32
  let v73 : BitVec 32 := v72
  let v77 : Index := Scalar.indexCast v73
  let c0_60 : Index := 0#32
  ![v77.toNat, 0]
@[reducible] def k0_t2_loop : Scf.Loop 32 :=
  let c0_i32_45 : BitVec 32 := 0#32
  let c4_i32_46 : BitVec 32 := 4#32
  let v65 : BitVec 32 := Scalar.addi c0_i32_45 c4_i32_46
  let c1_i32_47 : BitVec 32 := 1#32
  ⟨c0_i32_45, v65, c1_i32_47⟩
def k0_mult2 (k0_t2 : Fin k0_t2_loop.trips) : BitVec 32 :=
  let c0_i32_45 : BitVec 32 := 0#32
  let c1_i32_47 : BitVec 32 := 1#32
  let arg17 : BitVec 32 := Scf.iv c0_i32_45 c1_i32_47 k0_t2
  let c512_i32 : BitVec 32 := 512#32
  let v72 : BitVec 32 := Scalar.muli arg17 c512_i32
  v72
def k0_off3 (k0_t2 : Fin k0_t2_loop.trips) : Fin 2 → Nat :=
  let c0_i32_45 : BitVec 32 := 0#32
  let c1_i32_47 : BitVec 32 := 1#32
  let arg17 : BitVec 32 := Scf.iv c0_i32_45 c1_i32_47 k0_t2
  let c512_i32 : BitVec 32 := 512#32
  let v72 : BitVec 32 := Scalar.muli arg17 c512_i32
  let v73 : BitVec 32 := v72
  let v74 : Index := Scalar.indexCast v73
  let c0_58 : Index := 0#32
  ![v74.toNat, 0]
@[reducible] def k0_t3_loop : Scf.Loop 32 :=
  let c0_i32_54 : BitVec 32 := 0#32
  let c4_i32_55 : BitVec 32 := 4#32
  let v71 : BitVec 32 := Scalar.addi c0_i32_54 c4_i32_55
  let c1_i32_56 : BitVec 32 := 1#32
  ⟨c0_i32_54, v71, c1_i32_56⟩
def k0_mult3 (k0_t3 : Fin k0_t3_loop.trips) : BitVec 32 :=
  let c0_i32_54 : BitVec 32 := 0#32
  let c1_i32_56 : BitVec 32 := 1#32
  let arg17 : BitVec 32 := Scf.iv c0_i32_54 c1_i32_56 k0_t3
  let c512_i32 : BitVec 32 := 512#32
  let v72 : BitVec 32 := Scalar.muli arg17 c512_i32
  v72
def k0_off4 (k0_t3 : Fin k0_t3_loop.trips) : Fin 2 → Nat :=
  let c0_i32_54 : BitVec 32 := 0#32
  let c1_i32_56 : BitVec 32 := 1#32
  let arg17 : BitVec 32 := Scf.iv c0_i32_54 c1_i32_56 k0_t3
  let c512_i32 : BitVec 32 := 512#32
  let v72 : BitVec 32 := Scalar.muli arg17 c512_i32
  let v73 : BitVec 32 := v72
  let v74 : Index := Scalar.indexCast v73
  let c0_58 : Index := 0#32
  ![v74.toNat, 0]
def k0_off5 (k0_t3 : Fin k0_t3_loop.trips) : Fin 3 → Nat :=
  let c0_63 : Index := 0#32
  let c0_i32_54 : BitVec 32 := 0#32
  let c1_i32_56 : BitVec 32 := 1#32
  let arg17 : BitVec 32 := Scf.iv c0_i32_54 c1_i32_56 k0_t3
  let c512_i32 : BitVec 32 := 512#32
  let v72 : BitVec 32 := Scalar.muli arg17 c512_i32
  let v73 : BitVec 32 := v72
  let v90 : Index := Scalar.indexCast v73
  let c0_64 : Index := 0#32
  ![0, v90.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  transposes_S128x128_p1_0_S128x128 : S128x128.Transposes [1, 0] S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S512x128 : 0 < S512x128.numel
  h_S512x2048 : 0 < S512x2048.numel
  shapeCasts_S512x2048_S512x2048 : S512x2048.ShapeCasts S512x2048
  reduces_S512x2048_S2048 : S512x2048.Reduces [0] S2048
  shapeCasts_S2048_S1x2048 : S2048.ShapeCasts S1x2048
  reduces_S512x2048_S512 : S512x2048.Reduces [1] S512
  shapeCasts_S512_S512x1 : S512.ShapeCasts S512x1
  broadcasts_S512x1_S512x2048 : S512x1.Broadcasts S512x2048
  broadcasts_S1x128_S2048x128 : S1x128.Broadcasts S2048x128
  shapeCasts_S2048x128_S1x2048x128 : S2048x128.ShapeCasts S1x2048x128
  broadcasts_S1x2048_S512x2048 : S1x2048.Broadcasts S512x2048
  broadcasts_S1x128_S512x128 : S1x128.Broadcasts S512x128
  h_S1x512x128 : 0 < S1x512x128.numel
  shapeCasts_S1x512x128_S512x128 : S1x512x128.ShapeCasts S512x128
  shapeCasts_S512x128_S1x512x128 : S512x128.ShapeCasts S1x512x128
  dot_S2048x128_S128x128_S2048x128_1_0_0_1_n_n_wf : DotDims.WF S2048x128 S128x128 S2048x128 [1] [0] [0] [1] [] []
  dot_S512x128_S2048x128_S512x2048_1_1_0_0_n_n_wf : DotDims.WF S512x128 S2048x128 S512x2048 [1] [1] [0] [0] [] []
  dot_S512x2048_S512x128_S2048x128_0_0_1_1_n_n_wf : DotDims.WF S512x2048 S512x128 S2048x128 [0] [0] [1] [1] [] []
  dot_S512x2048_S2048x128_S512x128_1_0_0_1_n_n_wf : DotDims.WF S512x2048 S2048x128 S512x128 [1] [0] [0] [1] [] []
  dot_S512x128_S128x128_S512x128_1_0_0_1_n_n_wf : DotDims.WF S512x128 S128x128 S512x128 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S2048x128.size a
  k0_off2_inb : ∀ k0_t1 : Fin k0_t1_loop.trips, ∀ a, (k0_off2 k0_t1) a + S512x2048.size a ≤ S2048x2048.size a
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S512x2048.size a ≤ S2048x2048.size a
  k0_t3_ok : k0_t3_loop.OK
  k0_mult3_dvd : ∀ k0_t3 : Fin k0_t3_loop.trips, 512 ∣ (k0_mult3 k0_t3).toNat
  k0_off4_inb : ∀ k0_t3 : Fin k0_t3_loop.trips, ∀ a, (k0_off4 k0_t3) a + S512x2048.size a ≤ S2048x2048.size a
  k0_off5_inb : ∀ k0_t3 : Fin k0_t3_loop.trips, ∀ a, (k0_off5 k0_t3) a + S1x512x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x128.size a ≤ S8x2048x128.size a
  hwx0_6 : ∀ i : grid0.Coords, EltTy.bits .f32 = 32 ∨ (Rect.block (s := S8x2048x128) S1x2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x128.size a ≤ S8x2048x128.size a
  hwx0_7 : ∀ i : grid0.Coords, EltTy.bits .f32 = 32 ∨ (Rect.block (s := S8x2048x128) S1x2048x128.size (cc0_transform_7 i) (hinb0_7 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S512x128_S2048x128_0_0_1_1_n_n : DotDims S512x2048 S512x128 S2048x128 where
  lhsContracting := [0]
  rhsContracting := [0]
  lhsNonContracting := [1]
  rhsNonContracting := [1]
  lhsBatch := []
  rhsBatch := []
  wf := dot_S512x2048_S512x128_S2048x128_0_0_1_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S128x128 : Shape := ⟨2, ![128, 128]⟩
abbrev S128 : Shape := ⟨1, ![128]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S1x1x128 : Shape := ⟨3, ![1, 1, 128]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S8x2048x128, .f32⟩
  | .hbm, ⟨7, _⟩ => ⟨S8x2048x128, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8x2048, .f32⟩
  | .hbm, ⟨14, _⟩ => ⟨S8x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S8x2048x128, .f32⟩
  | .hbm, ⟨39, _⟩ => ⟨S8x2048x128, .f32⟩
  | .hbm, ⟨40, _⟩ => ⟨S8x2048x128, .f32⟩
  | .hbm, ⟨41, _⟩ => ⟨S8x2048x128, .f32⟩
  | .hbm, ⟨42, _⟩ => ⟨S8x2048x128, .f32⟩
  | .hbm, ⟨43, _⟩ => ⟨S1x1x128, .f32⟩
  | .hbm, ⟨44, _⟩ => ⟨S8x2048x128, .f32⟩
  | .hbm, ⟨45, _⟩ => ⟨S8x2048x128, .f32⟩
  | .hbm, ⟨46, _⟩ => ⟨S_, .f32⟩
  | .hbm, ⟨47, _⟩ => ⟨S_, .f32⟩
  | .hbm, ⟨48, _⟩ => ⟨S8x2048x128, .f32⟩
  | .hbm, ⟨49, _⟩ => ⟨S8x2048x128, .i1⟩
  | .hbm, ⟨50, _⟩ => ⟨S_, .f32⟩
  | .hbm, ⟨51, _⟩ => ⟨S8x2048x128, .f32⟩
  | .hbm, ⟨52, _⟩ => ⟨S8x2048x128, .f32⟩
  | .hbm, ⟨53, _⟩ => ⟨S8x2048x128, .f32⟩
  | .hbm, ⟨54, _⟩ => ⟨S8x2048x128, .f32⟩
  | .hbm, ⟨55, _⟩ => ⟨S1x1x128, .f32⟩
  | .hbm, ⟨56, _⟩ => ⟨S8x2048x128, .f32⟩
  | .hbm, ⟨57, _⟩ => ⟨S8x2048x128, .f32⟩
  | .hbm, ⟨58, _⟩ => ⟨S_, .f32⟩
  | .hbm, ⟨59, _⟩ => ⟨S_, .f32⟩
  | .hbm, ⟨60, _⟩ => ⟨S8x2048x128, .f32⟩
  | .hbm, ⟨61, _⟩ => ⟨S8x2048x128, .i1⟩
  | .hbm, ⟨62, _⟩ => ⟨S_, .f32⟩
  | .hbm, ⟨63, _⟩ => ⟨S8x2048x128, .f32⟩
  | .hbm, ⟨64, _⟩ => ⟨S8x2048x128, .f32⟩
  | .hbm, ⟨65, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v39 : Ref sig .tc := ⟨.hbm, 65, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  bcast_S_S8x2048x128 : S_.BroadcastsInDim S8x2048x128 (![] : Fin 0 → Fin S8x2048x128.rank)
  dot_S8x2048x128_S128x128_S8x2048x128_2_1_01_0_n_n_wf : DotDims.WF S8x2048x128 S128x128 S8x2048x128 [2] [1] [0, 1] [0] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S128x128_S8x2048x128_2_1_01_0_n_n : DotDims S8x2048x128 S128x128 S8x2048x128 where
  lhsContracting := [2]
  rhsContracting := [1]
  lhsNonContracting := [0, 1]
  rhsNonContracting := [0]
  lhsBatch := []
  rhsBatch := []
  wf := dot_S8x2048x128_S128x128_S8x2048x128_2_1_01_0_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.KerLoopsK.lean ====
/-
  The body's three loops, trip by trip.

  Each loop walks the 2048 rows of the score matrix in four tiles of 512. One trip stores, at its tile's offset, a
  function of what it loads at that offset, and for a running quantity (the column maximum, the aggregate, the column
  sum) it overwrites the whole buffer by a function of the buffer's previous contents. Here every trip's stores are
  written out, and the contents of each buffer after the four trips are obtained by composing the trips in order.
-/
import proofs.«140224_j47897475285202_2_alg».proof.Proof.Gen.Kernel.Loops
import Idealize.ShloMosaic.Lib.Pipeline.Value
import Idealize.ShloMosaic.Lib.Pipeline.FrameBody
import Idealize.ShloMosaic.Lib.Writes
import Idealize.ShloMosaic.Lib.ValueIdx

set_option maxRecDepth 16384

noncomputable section

namespace Cert.Kernel.KerLoops

open Cert.Kernel Cert.Kernel.Gen Idealize.ShloMosaic Idealize.ShloMosaic.ValueIdx

/-! ## Whole-buffer stores and loads -/

section Whole
variable {sig : RefSig} {κ : Kind} {sp : Space} {S : Shape} {e : EltTy} {Val : EltTy → Type}

/-- After a store through the whole-shape rectangle at zero offsets, LAST, the buffer reads the stored value. -/
theorem read_writes_whole (v : View sig κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hz
  funext y
  have h := View.read_writes_cons_emb v f (Rect.whole S) w L y
  rw [Rect.emb_whole_apply] at h
  exact h

/-- A load through the whole-shape rectangle at zero offsets reads the buffer's contents. -/
theorem readAt_whole (v : View sig κ sp S e) (f : v.ty.Contents Val) {off : Fin S.rank → Nat} (hz : off = fun _ => 0)
    (inb : ∀ a, off a + S.size a ≤ S.size a) :
    v.readAt Val (Rect.unit off S.size inb).toLoadRect f = v.read Val f := by
  rw [View.readAt_eq_ld]; exact View.ld_unit_zero hz inb _

end Whole

/-! ## A buffer filled tile by tile -/

section Tiles
variable {sig : RefSig} {κ : Kind} {sp : Space} {S : Shape} {e : EltTy} {Val : EltTy → Type}

/-- Stores through pairwise disjoint rectangles, one per trip: after the first `k` trips the buffer reads, inside
    rectangle `j`, trip `j`'s value if `j < k` and the contents at loop entry otherwise. -/
theorem tiles_read (v : View sig κ sp S e) (G : v.ty.Contents Val) (n : Nat) (size : Fin S.rank → Nat)
    (off : Fin n → Fin S.rank → Nat) (inb : ∀ j a, off j a + size a ≤ S.size a)
    (hdisj : ∀ j j' : Fin n, j ≠ j' → Disjoint (Rect.unit (s := S) (off j) size (inb j)).set (Rect.unit (s := S) (off j') size (inb j')).set)
    (pb : Nat → List (View.Piece Val S e)) (w : Fin n → (⟨S.rank, size⟩ : Shape).Idx → Val e)
    (h0 : pb 0 = []) (hs : ∀ k : Fin n, pb (k.val + 1) = (⟨Rect.unit (s := S) (off k) size (inb k), w k⟩ : View.Piece Val S e) :: pb k.val) :
    ∀ k, k ≤ n → ∀ (j : Fin n) (x : (⟨S.rank, size⟩ : Shape).Idx),
      v.read Val (v.writes Val G (pb k)) ((Rect.unit (s := S) (off j) size (inb j)).emb x)
        = if j.val < k then w j x else v.read Val G ((Rect.unit (s := S) (off j) size (inb j)).emb x)
  | 0, _, j, x => by rw [h0, View.writes_nil, if_neg (Nat.not_lt_zero _)]
  | k + 1, hk, j, x => by
    have hs' := hs ⟨k, hk⟩
    simp only at hs'
    rw [hs']
    by_cases hj : j = ⟨k, hk⟩
    · subst hj
      rw [View.read_writes_cons_emb, if_pos (Nat.lt_succ_self _)]
    · have hmem : (Rect.unit (s := S) (off j) size (inb j)).emb x ∈ (Rect.unit (s := S) (off j) size (inb j)).set := by
        rw [← Rect.map_emb_univ]; exact Finset.mem_map_of_mem _ (Finset.mem_univ x)
      have hnot : (Rect.unit (s := S) (off j) size (inb j)).emb x ∉ (Rect.unit (s := S) (off ⟨k, hk⟩) size (inb ⟨k, hk⟩)).set :=
        fun h => (Finset.disjoint_left.mp (hdisj j ⟨k, hk⟩ hj)) hmem h
      rw [View.writes_cons, View.read_slice_write_of_not_mem _ _ _ _ (by rw [Rect.map_emb_univ]; exact hnot),
        tiles_read v G n size off inb hdisj pb w h0 hs k (Nat.le_of_succ_le hk) j x]
      have hne : j.val ≠ k := fun h => hj (Fin.ext h)
      by_cases hlt : j.val < k
      · rw [if_pos hlt, if_pos (Nat.lt_succ_of_lt hlt)]
      · rw [if_neg hlt, if_neg (by omega)]

end Tiles

variable {F : FTy → Type} [FloatOps F]

theorem hz2 : (![0, 0] : Fin 2 → Nat) = fun _ => 0 := by
  funext a; match a with | ⟨0, _⟩ => rfl | ⟨1, _⟩ => rfl

theorem trips1 : k0_t1_loop.trips = 4 := by decide
theorem trips2 : k0_t2_loop.trips = 4 := by decide
theorem trips3 : k0_t3_loop.trips = 4 := by decide

/-- Tile `j` as a trip of each loop. -/
def k1 (j : Fin 4) : Fin k0_t1_loop.trips := Fin.cast trips1.symm j
def k2 (j : Fin 4) : Fin k0_t2_loop.trips := Fin.cast trips2.symm j
def k3 (j : Fin 4) : Fin k0_t3_loop.trips := Fin.cast trips3.symm j

variable (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)

/-! ## The first loop: scores, running column maximum, accumulated aggregate -/

section T1
variable (v11 : FVec F S128x128 .bf16) (v13 : FVec F S1x128 .f32) (v32 : FVec F S2048x128 .f32) (v44 : Vec F S2048x128 .bf16)
  (X10 : BufTy.Contents (Elt F) arg10.view.ty) (X12 : BufTy.Contents (Elt F) arg12.view.ty)

/-- The tile of keys trip `k` loads. -/
abbrev keys1 (k : Fin k0_t1_loop.trips) : Vec F S512x128 .bf16 :=
  View.readAt (Elt F) arg10.view (Rect.unit (s := S2048x128) (k0_off1 k) S512x128.size (k0_off1_inb k)).toLoadRect X10
/-- The tile of values trip `k` loads. -/
abbrev vals1 (k : Fin k0_t1_loop.trips) : Vec F S512x128 .f32 :=
  View.readAt (Elt F) arg12.view (Rect.unit (s := S2048x128) (k0_off1 k) S512x128.size (k0_off1_inb k)).toLoadRect X12

/-- One trip's stores: the tile of scores at the tile's rows; the aggregate and the running column maximum over the
    whole of their buffers, each from the buffer's previous contents. -/
theorem tripL1_eq (k : Fin k0_t1_loop.trips) (f9 : BufTy.Contents (Elt F) arg9.view.ty)
    (f14 : BufTy.Contents (Elt F) arg14.view.ty) (f15 : BufTy.Contents (Elt F) arg15.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 k f9 f14 f15
      = ([⟨Rect.unit (s := S2048x2048) (k0_off2 k) S512x2048.size (k0_off2_inb k), k0_pay20 v44 (keys1 arg10 X10 k)⟩],
         [⟨Rect.unit (s := S2048x128) ![0, 0] S2048x128.size inb_S2048x128_S2048x128_0_0,
            k0_pay22 v44 (keys1 arg10 X10 k) (vals1 arg12 X12 k)
              (View.readAt (Elt F) arg14.view (Rect.unit (s := S2048x128) ![0, 0] S2048x128.size inb_S2048x128_S2048x128_0_0).toLoadRect f14)⟩],
         [⟨Rect.unit (s := S1x2048) ![0, 0] S1x2048.size inb_S1x2048_S1x2048_0_0,
            k0_pay21 v44 (keys1 arg10 X10 k)
              (View.readAt (Elt F) arg15.view (Rect.unit (s := S1x2048) ![0, 0] S1x2048.size inb_S1x2048_S1x2048_0_0).toLoadRect f15)⟩]) := by
  unfold tripL_k0_t1 trip_k0_t1
  rfl

variable (G9 : BufTy.Contents (Elt F) arg9.view.ty) (G14 : BufTy.Contents (Elt F) arg14.view.ty)
  (G15 : BufTy.Contents (Elt F) arg15.view.ty)

/-- The stores of the trips before `k`, per buffer, last first. -/
abbrev pb1 (k : Nat) : List (View.Piece (Elt F) S2048x2048 .f32) × List (View.Piece (Elt F) S2048x128 .f32) × List (View.Piece (Elt F) S1x2048 .f32) :=
  pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k

/-- The aggregate's buffer before trip `k`. -/
def aggAt (k : Nat) : Vec F S2048x128 .f32 :=
  arg14.view.read (Elt F) (arg14.view.writes (Elt F) G14 (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k).2.1)
/-- The running column maximum before trip `k`. -/
def cmaxAt (k : Nat) : Vec F S1x2048 .f32 :=
  arg15.view.read (Elt F) (arg15.view.writes (Elt F) G15 (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k).2.2)

theorem pb1_succ (k : Fin k0_t1_loop.trips) :
    pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k.val + 1)
      = ((⟨Rect.unit (s := S2048x2048) (k0_off2 k) S512x2048.size (k0_off2_inb k), k0_pay20 v44 (keys1 arg10 X10 k)⟩ : View.Piece (Elt F) S2048x2048 .f32)
            :: (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val).1,
         (⟨Rect.unit (s := S2048x128) ![0, 0] S2048x128.size inb_S2048x128_S2048x128_0_0,
            k0_pay22 v44 (keys1 arg10 X10 k) (vals1 arg12 X12 k) (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val)⟩ : View.Piece (Elt F) S2048x128 .f32)
            :: (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val).2.1,
         (⟨Rect.unit (s := S1x2048) ![0, 0] S1x2048.size inb_S1x2048_S1x2048_0_0,
            k0_pay21 v44 (keys1 arg10 X10 k) (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val)⟩ : View.Piece (Elt F) S1x2048 .f32)
            :: (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val).2.2) := by
  unfold pb1 aggAt cmaxAt pb1
  rw [pb_k0_t1_succ, tripL1_eq, readAt_whole _ _ hz2, readAt_whole _ _ hz2]
  rfl

theorem aggAt_zero : aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 0 = arg14.view.read (Elt F) G14 := rfl
theorem cmaxAt_zero : cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 0 = arg15.view.read (Elt F) G15 := rfl

/-- One trip adds its tile's contribution to the aggregate. -/
theorem aggAt_succ (k : Fin k0_t1_loop.trips) :
    aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k.val + 1)
      = k0_pay22 v44 (keys1 arg10 X10 k) (vals1 arg12 X12 k) (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val) := by
  conv_lhs => unfold aggAt
  rw [pb1_succ]
  exact read_writes_whole _ _ hz2 _ _ _

/-- One trip folds its tile's column maxima into the running maximum. -/
theorem cmaxAt_succ (k : Fin k0_t1_loop.trips) :
    cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k.val + 1)
      = k0_pay21 v44 (keys1 arg10 X10 k) (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val) := by
  conv_lhs => unfold cmaxAt
  rw [pb1_succ]
  exact read_writes_whole _ _ hz2 _ _ _

/-- The four tiles of rows are pairwise disjoint. -/
theorem disj2 (j j' : Fin k0_t1_loop.trips) (h : j ≠ j') :
    Disjoint (Rect.unit (s := S2048x2048) (k0_off2 j) S512x2048.size (k0_off2_inb j)).set
      (Rect.unit (s := S2048x2048) (k0_off2 j') S512x2048.size (k0_off2_inb j')).set := by
  refine Rect.unit_disjoint (0 : Fin 2) ?_
  rw [k0_off2_eq, k0_off2_eq]
  have hne : j.val ≠ j'.val := fun e => h (Fin.ext e)
  show 512 * j.val + 512 ≤ 512 * j'.val ∨ 512 * j'.val + 512 ≤ 512 * j.val
  omega

/-- After the loop the score buffer holds, in tile `j`'s rows, tile `j`'s scores. -/
theorem scores_read (j : Fin k0_t1_loop.trips) (x : S512x2048.Idx) :
    arg9.view.read (Elt F) (arg9.view.writes (Elt F) G9 (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 4).1)
        ((Rect.unit (s := S2048x2048) (k0_off2 j) S512x2048.size (k0_off2_inb j)).emb x)
      = k0_pay20 v44 (keys1 arg10 X10 j) x := by
  have h := tiles_read arg9.view G9 k0_t1_loop.trips S512x2048.size (fun j => k0_off2 j) (fun j => k0_off2_inb j)
    disj2 (fun k => (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k).1)
    (fun j => k0_pay20 v44 (keys1 arg10 X10 j)) rfl
    (fun k => by rw [pb1_succ]) 4 (by rw [trips1]) j x
  rw [h, if_pos (lt_of_lt_of_le j.isLt (le_of_eq trips1))]

/-- The aggregate after the four trips, as the four tiles' steps from the contents at loop entry: the score buffer's
    entry contents do not enter. -/
theorem aggAt_four :
    aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 4
      = k0_pay22 v44 (keys1 arg10 X10 (k1 3)) (vals1 arg12 X12 (k1 3))
          (k0_pay22 v44 (keys1 arg10 X10 (k1 2)) (vals1 arg12 X12 (k1 2))
            (k0_pay22 v44 (keys1 arg10 X10 (k1 1)) (vals1 arg12 X12 (k1 1))
              (k0_pay22 v44 (keys1 arg10 X10 (k1 0)) (vals1 arg12 X12 (k1 0)) (arg14.view.read (Elt F) G14)))) := by
  show aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 3).val + 1) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 3)]
  show k0_pay22 _ _ _ (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 2).val + 1)) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 2)]
  show k0_pay22 _ _ _ (k0_pay22 _ _ _ (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 1).val + 1))) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 1)]
  show k0_pay22 _ _ _ (k0_pay22 _ _ _ (k0_pay22 _ _ _ (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 0).val + 1)))) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 0)]
  rfl

/-- The running column maximum after the four trips, likewise. -/
theorem cmaxAt_four :
    cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 4
      = k0_pay21 v44 (keys1 arg10 X10 (k1 3))
          (k0_pay21 v44 (keys1 arg10 X10 (k1 2))
            (k0_pay21 v44 (keys1 arg10 X10 (k1 1))
              (k0_pay21 v44 (keys1 arg10 X10 (k1 0)) (arg15.view.read (Elt F) G15)))) := by
  show cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 3).val + 1) = _
  rw [cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 3)]
  show k0_pay21 _ _ (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 2).val + 1)) = _
  rw [cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 2)]
  show k0_pay21 _ _ (k0_pay21 _ _ (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 1).val + 1))) = _
  rw [cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 1)]
  show k0_pay21 _ _ (k0_pay21 _ _ (k0_pay21 _ _ (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 0).val + 1)))) = _
  rw [cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 0)]
  rfl

end T1

/-! ## The second loop: exponentials in place, running column sum -/

section T2
variable (v64 : Vec F S1x2048 .f32)
  (G9 : BufTy.Contents (Elt F) arg9.view.ty) (G16 : BufTy.Contents (Elt F) arg16.view.ty)

theorem tripL2_eq (k : Fin k0_t2_loop.trips) (f9 : BufTy.Contents (Elt F) arg9.view.ty) (f16 : BufTy.Contents (Elt F) arg16.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 k f9 f16
      = ([⟨Rect.unit (s := S2048x2048) (k0_off3 k) S512x2048.size (k0_off3_inb k),
            k0_pay3 v64 (View.readAt (Elt F) arg9.view (Rect.unit (s := S2048x2048) (k0_off3 k) S512x2048.size (k0_off3_inb k)).toLoadRect f9)⟩],
         [⟨Rect.unit (s := S1x2048) ![0, 0] S1x2048.size inb_S1x2048_S1x2048_0_0,
            k0_pay4 v64 (View.readAt (Elt F) arg9.view (Rect.unit (s := S2048x2048) (k0_off3 k) S512x2048.size (k0_off3_inb k)).toLoadRect f9)
              (View.readAt (Elt F) arg16.view (Rect.unit (s := S1x2048) ![0, 0] S1x2048.size inb_S1x2048_S1x2048_0_0).toLoadRect f16)⟩]) := by
  unfold tripL_k0_t2 trip_k0_t2
  rfl

abbrev pb2 (k : Nat) : List (View.Piece (Elt F) S2048x2048 .f32) × List (View.Piece (Elt F) S1x2048 .f32) :=
  pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k

/-- The tile of the score buffer trip `k` finds. -/
def tile2At (k : Fin k0_t2_loop.trips) : Vec F S512x2048 .f32 :=
  View.readAt (Elt F) arg9.view (Rect.unit (s := S2048x2048) (k0_off3 k) S512x2048.size (k0_off3_inb k)).toLoadRect
    (arg9.view.writes (Elt F) G9 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val).1)
/-- The same tile of the buffer as the loop found it. -/
abbrev tile2 (k : Fin k0_t2_loop.trips) : Vec F S512x2048 .f32 :=
  View.readAt (Elt F) arg9.view (Rect.unit (s := S2048x2048) (k0_off3 k) S512x2048.size (k0_off3_inb k)).toLoadRect G9
/-- The running column sum before trip `k`. -/
def csumAt (k : Nat) : Vec F S1x2048 .f32 :=
  arg16.view.read (Elt F) (arg16.view.writes (Elt F) G16 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k).2)

theorem pb2_succ (k : Fin k0_t2_loop.trips) :
    pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k.val + 1)
      = ((⟨Rect.unit (s := S2048x2048) (k0_off3 k) S512x2048.size (k0_off3_inb k), k0_pay3 v64 (tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k)⟩ : View.Piece (Elt F) S2048x2048 .f32)
            :: (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val).1,
         (⟨Rect.unit (s := S1x2048) ![0, 0] S1x2048.size inb_S1x2048_S1x2048_0_0,
            k0_pay4 v64 (tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k) (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val)⟩ : View.Piece (Elt F) S1x2048 .f32)
            :: (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val).2) := by
  unfold pb2 tile2At csumAt pb2
  rw [pb_k0_t2_succ, tripL2_eq, readAt_whole _ _ hz2]
  rfl

theorem disj3 (j j' : Fin k0_t2_loop.trips) (h : j ≠ j') :
    Disjoint (Rect.unit (s := S2048x2048) (k0_off3 j) S512x2048.size (k0_off3_inb j)).set
      (Rect.unit (s := S2048x2048) (k0_off3 j') S512x2048.size (k0_off3_inb j')).set := by
  refine Rect.unit_disjoint (0 : Fin 2) ?_
  rw [k0_off3_eq, k0_off3_eq]
  have hne : j.val ≠ j'.val := fun e => h (Fin.ext e)
  show 512 * j.val + 512 ≤ 512 * j'.val ∨ 512 * j'.val + 512 ≤ 512 * j.val
  omega

theorem tiles2 (k : Nat) (hk : k ≤ k0_t2_loop.trips) (j : Fin k0_t2_loop.trips) (x : S512x2048.Idx) :
    arg9.view.read (Elt F) (arg9.view.writes (Elt F) G9 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k).1)
        ((Rect.unit (s := S2048x2048) (k0_off3 j) S512x2048.size (k0_off3_inb j)).emb x)
      = if j.val < k then k0_pay3 v64 (tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 j) x
        else arg9.view.read (Elt F) G9 ((Rect.unit (s := S2048x2048) (k0_off3 j) S512x2048.size (k0_off3_inb j)).emb x) :=
  tiles_read arg9.view G9 k0_t2_loop.trips S512x2048.size (fun j => k0_off3 j) (fun j => k0_off3_inb j)
    disj3 (fun k => (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k).1)
    (fun j => k0_pay3 v64 (tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 j)) rfl
    (fun k => by rw [pb2_succ]) k hk j x

/-- The tile a trip finds is the tile the loop found: the earlier trips wrote other tiles. -/
theorem tile2At_eq (k : Fin k0_t2_loop.trips) : tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k = tile2 arg9 G9 k := by
  funext x
  unfold tile2At
  rw [View.readAt_eq_ld]
  show arg9.view.read (Elt F) _ ((Rect.unit (s := S2048x2048) (k0_off3 k) S512x2048.size (k0_off3_inb k)).emb x) = _
  rw [tiles2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val (le_of_lt k.isLt) k x, if_neg (lt_irrefl _)]
  rfl

theorem csumAt_zero : csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 0 = arg16.view.read (Elt F) G16 := rfl

/-- One trip adds its tile's column sums of exponentials to the running sum. -/
theorem csumAt_succ (k : Fin k0_t2_loop.trips) :
    csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k.val + 1) = k0_pay4 v64 (tile2 arg9 G9 k) (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val) := by
  conv_lhs => unfold csumAt
  rw [pb2_succ, tile2At_eq]
  exact read_writes_whole _ _ hz2 _ _ _

/-- After the loop the score buffer holds, in tile `j`'s rows, the exponentials of tile `j`'s scores. -/
theorem exps_read (j : Fin k0_t2_loop.trips) (x : S512x2048.Idx) :
    arg9.view.read (Elt F) (arg9.view.writes (Elt F) G9 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4).1)
        ((Rect.unit (s := S2048x2048) (k0_off3 j) S512x2048.size (k0_off3_inb j)).emb x)
      = k0_pay3 v64 (tile2 arg9 G9 j) x := by
  rw [tiles2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4 (by rw [trips2]) j x, if_pos (lt_of_lt_of_le j.isLt (le_of_eq trips2)), tile2At_eq]

/-- The running column sum after the four trips, as the four tiles' steps from the contents at loop entry. -/
theorem csumAt_four :
    csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4
      = k0_pay4 v64 (tile2 arg9 G9 (k2 3))
          (k0_pay4 v64 (tile2 arg9 G9 (k2 2))
            (k0_pay4 v64 (tile2 arg9 G9 (k2 1))
              (k0_pay4 v64 (tile2 arg9 G9 (k2 0)) (arg16.view.read (Elt F) G16)))) := by
  show csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 ((k2 3).val + 1) = _
  rw [csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 3)]
  show k0_pay4 _ _ (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 ((k2 2).val + 1)) = _
  rw [csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 2)]
  show k0_pay4 _ _ (k0_pay4 _ _ (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 ((k2 1).val + 1))) = _
  rw [csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 1)]
  show k0_pay4 _ _ (k0_pay4 _ _ (k0_pay4 _ _ (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 ((k2 0).val + 1)))) = _
  rw [csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 0)]
  rfl

end T2

/-! ## The third loop: the first output, tile by tile -/

section T3
variable (v11 : FVec F S128x128 .bf16) (v13 : FVec F S1x128 .f32) (v66 : Vec F S1x2048 .f32) (v69 : Vec F S2048x128 .f32)
  (X9 : BufTy.Contents (Elt F) arg9.view.ty)

/-- The tile of normalised-to-be exponentials trip `k` loads. -/
abbrev tile3 (k : Fin k0_t3_loop.trips) : Vec F S512x2048 .f32 :=
  View.readAt (Elt F) arg9.view (Rect.unit (s := S2048x2048) (k0_off4 k) S512x2048.size (k0_off4_inb k)).toLoadRect X9

theorem tripL3_eq (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 k
      = [⟨Rect.unit (s := S1x2048x128) (k0_off5 k) S1x512x128.size (k0_off5_inb k), k0_pay5 v11 v13 v66 v69 (tile3 arg9 X9 k)⟩] := by
  unfold tripL_k0_t3 trip_k0_t3
  rfl

abbrev pb3 (k : Nat) : List (View.Piece (Elt F) S1x2048x128 .f32) :=
  pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 k

theorem pb3_succ (k : Fin k0_t3_loop.trips) :
    pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k.val + 1)
      = (⟨Rect.unit (s := S1x2048x128) (k0_off5 k) S1x512x128.size (k0_off5_inb k), k0_pay5 v11 v13 v66 v69 (tile3 arg9 X9 k)⟩ : View.Piece (Elt F) S1x2048x128 .f32)
          :: pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 k.val := by
  unfold pb3
  rw [pb_k0_t3_succ, tripL3_eq]
  rfl

theorem disj5 (j j' : Fin k0_t3_loop.trips) (h : j ≠ j') :
    Disjoint (Rect.unit (s := S1x2048x128) (k0_off5 j) S1x512x128.size (k0_off5_inb j)).set
      (Rect.unit (s := S1x2048x128) (k0_off5 j') S1x512x128.size (k0_off5_inb j')).set := by
  refine Rect.unit_disjoint (1 : Fin 3) ?_
  rw [k0_off5_eq, k0_off5_eq]
  have hne : j.val ≠ j'.val := fun e => h (Fin.ext e)
  show 512 * j.val + 512 ≤ 512 * j'.val ∨ 512 * j'.val + 512 ≤ 512 * j.val
  omega

/-- Through any view of the output block and over any prior contents, after the loop tile `j`'s rows hold tile `j`'s output. -/
theorem out_read {sig' : RefSig} {κ' : Kind} {sp' : Space} (v : View sig' κ' sp' S1x2048x128 .f32) (G : v.ty.Contents (Elt F))
    (j : Fin k0_t3_loop.trips) (x : S1x512x128.Idx) :
    v.read (Elt F) (v.writes (Elt F) G (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 4))
        ((Rect.unit (s := S1x2048x128) (k0_off5 j) S1x512x128.size (k0_off5_inb j)).emb x)
      = k0_pay5 v11 v13 v66 v69 (tile3 arg9 X9 j) x := by
  have h := tiles_read v G k0_t3_loop.trips S1x512x128.size (fun j => k0_off5 j) (fun j => k0_off5_inb j)
    disj5 (fun k => pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 k)
    (fun j => k0_pay5 v11 v13 v66 v69 (tile3 arg9 X9 j)) rfl
    (fun k => by rw [pb3_succ]) 4 (by rw [trips3]) j x
  rw [h, if_pos (lt_of_lt_of_le j.isLt (le_of_eq trips3))]

/-- The third loop's stores, written out: one tile of the first output per trip, last first. -/
theorem pb3_four :
    pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 4
      = [⟨Rect.unit (s := S1x2048x128) (k0_off5 (k3 3)) S1x512x128.size (k0_off5_inb (k3 3)), k0_pay5 v11 v13 v66 v69 (tile3 arg9 X9 (k3 3))⟩,
         ⟨Rect.unit (s := S1x2048x128) (k0_off5 (k3 2)) S1x512x128.size (k0_off5_inb (k3 2)), k0_pay5 v11 v13 v66 v69 (tile3 arg9 X9 (k3 2))⟩,
         ⟨Rect.unit (s := S1x2048x128) (k0_off5 (k3 1)) S1x512x128.size (k0_off5_inb (k3 1)), k0_pay5 v11 v13 v66 v69 (tile3 arg9 X9 (k3 1))⟩,
         ⟨Rect.unit (s := S1x2048x128) (k0_off5 (k3 0)) S1x512x128.size (k0_off5_inb (k3 0)), k0_pay5 v11 v13 v66 v69 (tile3 arg9 X9 (k3 0))⟩] := by
  show pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 ((k3 3).val + 1) = _
  rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k3 3)]
  show _ :: pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 ((k3 2).val + 1) = _
  rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k3 2)]
  show _ :: _ :: pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 ((k3 1).val + 1) = _
  rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k3 1)]
  show _ :: _ :: _ :: pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 ((k3 0).val + 1) = _
  rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k3 0)]
  rfl

end T3

end Cert.Kernel.KerLoops

end
-- ==== Proof.KerRunK.lean ====
/-
  The body's two outputs as lists of stores, with the score buffer's contents on entry as a parameter — and the
  fact that they do not depend on it.

  The score buffer is first written inside the first loop, tile by tile; until all four tiles are written it still
  holds, elsewhere, whatever it held on entry. Every later quantity reads only rows that have been written (a trip of
  the second loop reads the tile it is about to overwrite, the third loop reads tiles the second loop wrote), and the
  running maximum, the running sums and the aggregate never read it at all. So the stores of both outputs are the
  same whatever the buffer held on entry.
-/
import proofs.«140224_j47897475285202_2_alg».proof.Proof.KerLoopsK

set_option maxRecDepth 16384

noncomputable section

namespace Cert.Kernel.KerRun

open Cert.Kernel Cert.Kernel.Gen Cert.Kernel.KerLoops Idealize.ShloMosaic Idealize.ShloMosaic.ValueIdx

variable {F : FTy → Type} [FloatOps F]

section Defs

variable (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
  (x0 x1 : Vec F S1x2048x128 .f32) (x2 x3 x4 : Vec F S128x128 .f32) (x5 : Vec F S128 .f32)

/-! ## The values the body computes before its loops, as the run spells them -/

abbrev W3 : Rect S1x2048x128 := Rect.unit (s := S1x2048x128) ![0, 0, 0] S1x2048x128.size inb_S1x2048x128_S1x2048x128_0_0_0
abbrev W2 : Rect S2048x128 := Rect.unit (s := S2048x128) ![0, 0] S2048x128.size inb_S2048x128_S2048x128_0_0
abbrev Ww : Rect S128x128 := Rect.unit (s := S128x128) ![0, 0] S128x128.size inb_S128x128_S128x128_0_0
abbrev Wb : Rect S128 := Rect.unit (s := S128) ![0] S128.size inb_S128_S128_0
abbrev W1 : Rect S1x2048 := Rect.unit (s := S1x2048) ![0, 0] S1x2048.size inb_S1x2048_S1x2048_0_0

abbrev X0 : Vec F S1x2048x128 .f32 := View.readAt (Elt F) arg1.view W3.toLoadRect (harg1.unread x0)
abbrev X1 : Vec F S1x2048x128 .f32 := View.readAt (Elt F) arg2.view W3.toLoadRect (harg2.unread x1)
abbrev X2 : Vec F S128x128 .f32 := View.readAt (Elt F) arg3.view Ww.toLoadRect (harg3.unread x2)
abbrev X3 : Vec F S128x128 .f32 := View.readAt (Elt F) arg4.view Ww.toLoadRect (harg4.unread x3)
abbrev R4 : FVec F S128x128 .bf16 := k0_pay10 (View.readAt (Elt F) arg5.view Ww.toLoadRect (harg5.unread x4))
abbrev R5 : FVec F S1x128 .f32 := k0_pay11 (View.readAt (Elt F) arg6.view Wb.toLoadRect (harg6.unread x5))
abbrev V32 : FVec F S2048x128 .f32 := k0_pay15 (X1 arg2 harg2 x1) (X3 arg4 harg4 x3)
abbrev V44 : Vec F S2048x128 .bf16 :=
  View.readCov arg11.view [⟨W2, k0_pay13 (X1 arg2 harg2 x1) (X2 arg3 harg3 x2)⟩] W2.toLoadRect
abbrev V69 : Vec F S2048x128 .f32 :=
  View.readCov arg13.view [⟨W2, k0_pay16 (V32 arg2 harg2 arg4 harg4 x1 x3)⟩] W2.toLoadRect
abbrev C10 : BufTy.Contents (Elt F) arg10.view.ty :=
  arg10.view.writes (Elt F) arg10.view.junk [⟨W2, k0_pay12 (X0 arg1 harg1 x0) (X2 arg3 harg3 x2)⟩]
abbrev C12 : BufTy.Contents (Elt F) arg12.view.ty :=
  arg12.view.writes (Elt F) arg12.view.junk [⟨W2, k0_pay14 (X0 arg1 harg1 x0) (X3 arg4 harg4 x3)⟩]
abbrev C14 : BufTy.Contents (Elt F) arg14.view.ty := arg14.view.writes (Elt F) arg14.view.junk [⟨W2, k0_pay18⟩]
abbrev C15 : BufTy.Contents (Elt F) arg15.view.ty := arg15.view.writes (Elt F) arg15.view.junk [⟨W1, k0_pay17⟩]
abbrev C16 : BufTy.Contents (Elt F) arg16.view.ty := arg16.view.writes (Elt F) arg16.view.junk [⟨W1, k0_pay1 k0_pay24⟩]

/-! ## The loops' stores, from entry contents `g9` of the score buffer -/

variable (g9 : BufTy.Contents (Elt F) arg9.view.ty)

/-- The first loop's stores. -/
abbrev P1 : List (View.Piece (Elt F) S2048x2048 .f32) × List (View.Piece (Elt F) S2048x128 .f32) × List (View.Piece (Elt F) S1x2048 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2)
    (C10 arg1 harg1 arg3 harg3 arg10 x0 x2) (C12 arg1 harg1 arg4 harg4 arg12 x0 x3) g9 (C14 arg14) (C15 arg15) k0_t1_loop.trips

/-- The column maxima the second loop subtracts: the running maximum's buffer after the first loop. -/
abbrev v64r : Vec F S1x2048 .f32 :=
  View.readAt (Elt F) arg15.view W1.toLoadRect
    (arg15.view.writes (Elt F) arg15.view.junk ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).2.2 ++ [⟨W1, k0_pay17⟩]))

/-- The score buffer after the first loop. -/
abbrev G9r : BufTy.Contents (Elt F) arg9.view.ty := arg9.view.writes (Elt F) g9 (P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).1

/-- The second loop's stores. -/
abbrev P2 : List (View.Piece (Elt F) S2048x2048 .f32) × List (View.Piece (Elt F) S1x2048 .f32) :=
  pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16) k0_t2_loop.trips

/-- The column sums the third loop divides by: the running sum's buffer after the second loop. -/
abbrev v66r : Vec F S1x2048 .f32 :=
  View.readAt (Elt F) arg16.view W1.toLoadRect
    (arg16.view.writes (Elt F) arg16.view.junk ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).2 ++ [⟨W1, k0_pay1 k0_pay24⟩]))

/-- The score buffer after the second loop. -/
abbrev X9r : BufTy.Contents (Elt F) arg9.view.ty :=
  arg9.view.writes (Elt F) g9 ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).1 ++ (P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).1)

/-- The stores of the first output: the third loop's. -/
def runL6 : List (View.Piece (Elt F) S1x2048x128 .f32) :=
  pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9)
    (V69 arg2 harg2 arg4 harg4 arg13 x1 x3) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) k0_t3_loop.trips

/-- The store of the second output: one whole-block store of the projected aggregate. -/
def runL7 : List (View.Piece (Elt F) S1x2048x128 .f32) :=
  [⟨W3, k0_pay23 (R4 arg5 harg5 x4) (R5 arg6 harg6 x5)
      (View.readAt (Elt F) arg14.view W2.toLoadRect
        (arg14.view.writes (Elt F) arg14.view.junk ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).2.1 ++ [⟨W2, k0_pay18⟩])))⟩]

end Defs

/-! ## The closed forms -/

/-- The column maxima after the first loop: four steps from the bottom-filled buffer. -/
def cmC (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : Vec F S1x2048 .f32 :=
  k0_pay21 (V44 arg2 harg2 arg3 harg3 arg11 x1 x2) (keys1 arg10 (C10 arg1 harg1 arg3 harg3 arg10 x0 x2) (k1 3)) (k0_pay21 (V44 arg2 harg2 arg3 harg3 arg11 x1 x2) (keys1 arg10 (C10 arg1 harg1 arg3 harg3 arg10 x0 x2) (k1 2)) (k0_pay21 (V44 arg2 harg2 arg3 harg3 arg11 x1 x2) (keys1 arg10 (C10 arg1 harg1 arg3 harg3 arg10 x0 x2) (k1 1)) (k0_pay21 (V44 arg2 harg2 arg3 harg3 arg11 x1 x2) (keys1 arg10 (C10 arg1 harg1 arg3 harg3 arg10 x0 x2) (k1 0))
    (arg15.view.read (Elt F) (C15 arg15)))))

/-- The aggregate after the first loop: four steps from the zero-filled buffer. -/
def agC (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : Vec F S2048x128 .f32 :=
  k0_pay22 (V44 arg2 harg2 arg3 harg3 arg11 x1 x2) (keys1 arg10 (C10 arg1 harg1 arg3 harg3 arg10 x0 x2) (k1 3)) (vals1 arg12 (C12 arg1 harg1 arg4 harg4 arg12 x0 x3) (k1 3)) (k0_pay22 (V44 arg2 harg2 arg3 harg3 arg11 x1 x2) (keys1 arg10 (C10 arg1 harg1 arg3 harg3 arg10 x0 x2) (k1 2)) (vals1 arg12 (C12 arg1 harg1 arg4 harg4 arg12 x0 x3) (k1 2)) (k0_pay22 (V44 arg2 harg2 arg3 harg3 arg11 x1 x2) (keys1 arg10 (C10 arg1 harg1 arg3 harg3 arg10 x0 x2) (k1 1)) (vals1 arg12 (C12 arg1 harg1 arg4 harg4 arg12 x0 x3) (k1 1))
    (k0_pay22 (V44 arg2 harg2 arg3 harg3 arg11 x1 x2) (keys1 arg10 (C10 arg1 harg1 arg3 harg3 arg10 x0 x2) (k1 0)) (vals1 arg12 (C12 arg1 harg1 arg4 harg4 arg12 x0 x3) (k1 0)) (arg14.view.read (Elt F) (C14 arg14)))))

/-- Tile `j` of the scores. -/
def scC (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) (j : Fin 4) : Vec F S512x2048 .f32 := k0_pay20 (V44 arg2 harg2 arg3 harg3 arg11 x1 x2) (keys1 arg10 (C10 arg1 harg1 arg3 harg3 arg10 x0 x2) (k1 j))

/-- The column sums after the second loop: four steps from the zero-filled buffer. -/
def csC (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : Vec F S1x2048 .f32 :=
  k0_pay4 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 3) (k0_pay4 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 2) (k0_pay4 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 1)
    (k0_pay4 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 0) (arg16.view.read (Elt F) (C16 arg16)))))

/-- The stores of the first output in closed form. -/
def L6C (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : List (View.Piece (Elt F) S1x2048x128 .f32) :=
  [⟨Rect.unit (s := S1x2048x128) (k0_off5 (k3 3)) S1x512x128.size (k0_off5_inb (k3 3)),
      k0_pay5 (R4 arg5 harg5 x4) (R5 arg6 harg6 x5) (csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (V69 arg2 harg2 arg4 harg4 arg13 x1 x3) (k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 3))⟩,
   ⟨Rect.unit (s := S1x2048x128) (k0_off5 (k3 2)) S1x512x128.size (k0_off5_inb (k3 2)),
      k0_pay5 (R4 arg5 harg5 x4) (R5 arg6 harg6 x5) (csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (V69 arg2 harg2 arg4 harg4 arg13 x1 x3) (k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 2))⟩,
   ⟨Rect.unit (s := S1x2048x128) (k0_off5 (k3 1)) S1x512x128.size (k0_off5_inb (k3 1)),
      k0_pay5 (R4 arg5 harg5 x4) (R5 arg6 harg6 x5) (csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (V69 arg2 harg2 arg4 harg4 arg13 x1 x3) (k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 1))⟩,
   ⟨Rect.unit (s := S1x2048x128) (k0_off5 (k3 0)) S1x512x128.size (k0_off5_inb (k3 0)),
      k0_pay5 (R4 arg5 harg5 x4) (R5 arg6 harg6 x5) (csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (V69 arg2 harg2 arg4 harg4 arg13 x1 x3) (k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 0))⟩]

/-- The store of the second output in closed form. -/
def L7C (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : List (View.Piece (Elt F) S1x2048x128 .f32) :=
  [⟨W3, k0_pay23 (R4 arg5 harg5 x4) (R5 arg6 harg6 x5) (agC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5)⟩]

section Proofs

variable (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
  (x0 x1 : Vec F S1x2048x128 .f32) (x2 x3 x4 : Vec F S128x128 .f32) (x5 : Vec F S128 .f32)
  (g9 : BufTy.Contents (Elt F) arg9.view.ty)

/-! ## The run's stores are the closed forms, whatever the score buffer held on entry -/

theorem P1_eq : P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4 :=
  congrArg (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15)) trips1

theorem v64r_eq : v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  unfold v64r
  rw [View.writes_append, readAt_whole _ _ hz2, P1_eq]
  exact cmaxAt_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15)

theorem agg_eq :
    View.readAt (Elt F) arg14.view W2.toLoadRect
        (arg14.view.writes (Elt F) arg14.view.junk ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).2.1 ++ [⟨W2, k0_pay18⟩]))
      = agC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  rw [View.writes_append, readAt_whole _ _ hz2, P1_eq]
  exact aggAt_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15)

theorem runL7_eq : runL7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = L7C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  unfold runL7 L7C
  rw [agg_eq]

theorem emb32 (j : Fin 4) (x : S512x2048.Idx) :
    (Rect.unit (s := S2048x2048) (k0_off3 (k2 j)) S512x2048.size (k0_off3_inb (k2 j))).emb x
      = (Rect.unit (s := S2048x2048) (k0_off2 (k1 j)) S512x2048.size (k0_off2_inb (k1 j))).emb x := by
  funext a
  refine Fin.ext ?_
  show k0_off3 (k2 j) a + 1 * (x a).val = k0_off2 (k1 j) a + 1 * (x a).val
  rw [k0_off3_eq, k0_off2_eq]
  rfl

theorem emb43 (j : Fin 4) (x : S512x2048.Idx) :
    (Rect.unit (s := S2048x2048) (k0_off4 (k3 j)) S512x2048.size (k0_off4_inb (k3 j))).emb x
      = (Rect.unit (s := S2048x2048) (k0_off3 (k2 j)) S512x2048.size (k0_off3_inb (k2 j))).emb x := by
  funext a
  refine Fin.ext ?_
  show k0_off4 (k3 j) a + 1 * (x a).val = k0_off3 (k2 j) a + 1 * (x a).val
  rw [k0_off4_eq, k0_off3_eq]
  rfl

/-- The tile of scores a trip of the second loop finds is the tile the first loop stored. -/
theorem tile2_G9r (j : Fin 4) : tile2 arg9 (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (k2 j) = scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 j := by
  funext x
  show arg9.view.read (Elt F) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) ((Rect.unit (s := S2048x2048) (k0_off3 (k2 j)) S512x2048.size (k0_off3_inb (k2 j))).emb x) = _
  rw [emb32]
  unfold G9r
  rw [P1_eq]
  exact scores_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) (k1 j) x

theorem P2_eq :
    P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = pb2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16) 4 :=
  congrArg (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16)) trips2

theorem v66r_eq : v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  unfold v66r
  rw [View.writes_append, readAt_whole _ _ hz2, P2_eq]
  refine (csumAt_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16)).trans ?_
  rw [tile2_G9r, tile2_G9r, tile2_G9r, tile2_G9r, v64r_eq]
  rfl

/-- The tile of exponentials a trip of the third loop loads is the tile the second loop stored. -/
theorem tile3_X9r (j : Fin 4) :
    tile3 arg9 (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (k3 j) = k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 j) := by
  funext x
  show arg9.view.read (Elt F) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) ((Rect.unit (s := S2048x2048) (k0_off4 (k3 j)) S512x2048.size (k0_off4_inb (k3 j))).emb x) = _
  rw [emb43]
  unfold X9r
  rw [View.writes_append, P2_eq]
  refine (exps_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16) (k2 j) x).trans ?_
  rw [tile2_G9r, v64r_eq]

theorem runL6_eq : runL6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = L6C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  unfold runL6
  refine (congrArg (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (V69 arg2 harg2 arg4 harg4 arg13 x1 x3) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9)) trips3).trans ?_
  refine (pb3_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (V69 arg2 harg2 arg4 harg4 arg13 x1 x3) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9)).trans ?_
  rw [tile3_X9r, tile3_X9r, tile3_X9r, tile3_X9r, v66r_eq]
  rfl

/-- The run's stores do not depend on what the score buffer held on entry. -/
theorem runL6_indep (g g' : BufTy.Contents (Elt F) arg9.view.ty) : runL6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g = runL6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g' :=
  (runL6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g).trans (runL6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g').symm

theorem runL7_indep (g g' : BufTy.Contents (Elt F) arg9.view.ty) : runL7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g = runL7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g' :=
  (runL7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g).trans (runL7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g').symm

end Proofs

end Cert.Kernel.KerRun

end
-- ==== Proof.KerLoops.lean ====
/-
  The body's three loops, trip by trip.

  Each loop walks the 2048 rows of the score matrix in four tiles of 512. One trip stores, at its tile's offset, a
  function of what it loads at that offset, and for a running quantity (the column maximum, the aggregate, the column
  sum) it overwrites the whole buffer by a function of the buffer's previous contents. Here every trip's stores are
  written out, and the contents of each buffer after the four trips are obtained by composing the trips in order.
-/
import proofs.«140224_j47897475285202_2_alg».proof.Proof.Gen.KernelIdeal.Loops
import Idealize.ShloMosaic.Lib.Pipeline.Value
import Idealize.ShloMosaic.Lib.Pipeline.FrameBody
import Idealize.ShloMosaic.Lib.Writes
import Idealize.ShloMosaic.Lib.ValueIdx

set_option maxRecDepth 16384

noncomputable section

namespace Cert.KernelIdeal.KerLoops

open Cert.KernelIdeal Cert.KernelIdeal.Gen Idealize.ShloMosaic Idealize.ShloMosaic.ValueIdx

/-! ## Whole-buffer stores and loads -/

section Whole
variable {sig : RefSig} {κ : Kind} {sp : Space} {S : Shape} {e : EltTy} {Val : EltTy → Type}

/-- After a store through the whole-shape rectangle at zero offsets, LAST, the buffer reads the stored value. -/
theorem read_writes_whole (v : View sig κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hz
  funext y
  have h := View.read_writes_cons_emb v f (Rect.whole S) w L y
  rw [Rect.emb_whole_apply] at h
  exact h

/-- A load through the whole-shape rectangle at zero offsets reads the buffer's contents. -/
theorem readAt_whole (v : View sig κ sp S e) (f : v.ty.Contents Val) {off : Fin S.rank → Nat} (hz : off = fun _ => 0)
    (inb : ∀ a, off a + S.size a ≤ S.size a) :
    v.readAt Val (Rect.unit off S.size inb).toLoadRect f = v.read Val f := by
  rw [View.readAt_eq_ld]; exact View.ld_unit_zero hz inb _

end Whole

/-! ## A buffer filled tile by tile -/

section Tiles
variable {sig : RefSig} {κ : Kind} {sp : Space} {S : Shape} {e : EltTy} {Val : EltTy → Type}

/-- Stores through pairwise disjoint rectangles, one per trip: after the first `k` trips the buffer reads, inside
    rectangle `j`, trip `j`'s value if `j < k` and the contents at loop entry otherwise. -/
theorem tiles_read (v : View sig κ sp S e) (G : v.ty.Contents Val) (n : Nat) (size : Fin S.rank → Nat)
    (off : Fin n → Fin S.rank → Nat) (inb : ∀ j a, off j a + size a ≤ S.size a)
    (hdisj : ∀ j j' : Fin n, j ≠ j' → Disjoint (Rect.unit (s := S) (off j) size (inb j)).set (Rect.unit (s := S) (off j') size (inb j')).set)
    (pb : Nat → List (View.Piece Val S e)) (w : Fin n → (⟨S.rank, size⟩ : Shape).Idx → Val e)
    (h0 : pb 0 = []) (hs : ∀ k : Fin n, pb (k.val + 1) = (⟨Rect.unit (s := S) (off k) size (inb k), w k⟩ : View.Piece Val S e) :: pb k.val) :
    ∀ k, k ≤ n → ∀ (j : Fin n) (x : (⟨S.rank, size⟩ : Shape).Idx),
      v.read Val (v.writes Val G (pb k)) ((Rect.unit (s := S) (off j) size (inb j)).emb x)
        = if j.val < k then w j x else v.read Val G ((Rect.unit (s := S) (off j) size (inb j)).emb x)
  | 0, _, j, x => by rw [h0, View.writes_nil, if_neg (Nat.not_lt_zero _)]
  | k + 1, hk, j, x => by
    have hs' := hs ⟨k, hk⟩
    simp only at hs'
    rw [hs']
    by_cases hj : j = ⟨k, hk⟩
    · subst hj
      rw [View.read_writes_cons_emb, if_pos (Nat.lt_succ_self _)]
    · have hmem : (Rect.unit (s := S) (off j) size (inb j)).emb x ∈ (Rect.unit (s := S) (off j) size (inb j)).set := by
        rw [← Rect.map_emb_univ]; exact Finset.mem_map_of_mem _ (Finset.mem_univ x)
      have hnot : (Rect.unit (s := S) (off j) size (inb j)).emb x ∉ (Rect.unit (s := S) (off ⟨k, hk⟩) size (inb ⟨k, hk⟩)).set :=
        fun h => (Finset.disjoint_left.mp (hdisj j ⟨k, hk⟩ hj)) hmem h
      rw [View.writes_cons, View.read_slice_write_of_not_mem _ _ _ _ (by rw [Rect.map_emb_univ]; exact hnot),
        tiles_read v G n size off inb hdisj pb w h0 hs k (Nat.le_of_succ_le hk) j x]
      have hne : j.val ≠ k := fun h => hj (Fin.ext h)
      by_cases hlt : j.val < k
      · rw [if_pos hlt, if_pos (Nat.lt_succ_of_lt hlt)]
      · rw [if_neg hlt, if_neg (by omega)]

end Tiles

variable {F : FTy → Type} [FloatOps F]

theorem hz2 : (![0, 0] : Fin 2 → Nat) = fun _ => 0 := by
  funext a; match a with | ⟨0, _⟩ => rfl | ⟨1, _⟩ => rfl

theorem trips1 : k0_t1_loop.trips = 4 := by decide
theorem trips2 : k0_t2_loop.trips = 4 := by decide
theorem trips3 : k0_t3_loop.trips = 4 := by decide

/-- Tile `j` as a trip of each loop. -/
def k1 (j : Fin 4) : Fin k0_t1_loop.trips := Fin.cast trips1.symm j
def k2 (j : Fin 4) : Fin k0_t2_loop.trips := Fin.cast trips2.symm j
def k3 (j : Fin 4) : Fin k0_t3_loop.trips := Fin.cast trips3.symm j

variable (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)

/-! ## The first loop: scores, running column maximum, accumulated aggregate -/

section T1
variable (v11 : FVec F S128x128 .bf16) (v13 : FVec F S1x128 .f32) (v32 : FVec F S2048x128 .f32) (v44 : Vec F S2048x128 .bf16)
  (X10 : BufTy.Contents (Elt F) arg10.view.ty) (X12 : BufTy.Contents (Elt F) arg12.view.ty)

/-- The tile of keys trip `k` loads. -/
abbrev keys1 (k : Fin k0_t1_loop.trips) : Vec F S512x128 .bf16 :=
  View.readAt (Elt F) arg10.view (Rect.unit (s := S2048x128) (k0_off1 k) S512x128.size (k0_off1_inb k)).toLoadRect X10
/-- The tile of values trip `k` loads. -/
abbrev vals1 (k : Fin k0_t1_loop.trips) : Vec F S512x128 .f32 :=
  View.readAt (Elt F) arg12.view (Rect.unit (s := S2048x128) (k0_off1 k) S512x128.size (k0_off1_inb k)).toLoadRect X12

/-- One trip's stores: the tile of scores at the tile's rows; the aggregate and the running column maximum over the
    whole of their buffers, each from the buffer's previous contents. -/
theorem tripL1_eq (k : Fin k0_t1_loop.trips) (f9 : BufTy.Contents (Elt F) arg9.view.ty)
    (f14 : BufTy.Contents (Elt F) arg14.view.ty) (f15 : BufTy.Contents (Elt F) arg15.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 k f9 f14 f15
      = ([⟨Rect.unit (s := S2048x2048) (k0_off2 k) S512x2048.size (k0_off2_inb k), k0_pay20 v44 (keys1 arg10 X10 k)⟩],
         [⟨Rect.unit (s := S2048x128) ![0, 0] S2048x128.size inb_S2048x128_S2048x128_0_0,
            k0_pay22 v44 (keys1 arg10 X10 k) (vals1 arg12 X12 k)
              (View.readAt (Elt F) arg14.view (Rect.unit (s := S2048x128) ![0, 0] S2048x128.size inb_S2048x128_S2048x128_0_0).toLoadRect f14)⟩],
         [⟨Rect.unit (s := S1x2048) ![0, 0] S1x2048.size inb_S1x2048_S1x2048_0_0,
            k0_pay21 v44 (keys1 arg10 X10 k)
              (View.readAt (Elt F) arg15.view (Rect.unit (s := S1x2048) ![0, 0] S1x2048.size inb_S1x2048_S1x2048_0_0).toLoadRect f15)⟩]) := by
  unfold tripL_k0_t1 trip_k0_t1
  rfl

variable (G9 : BufTy.Contents (Elt F) arg9.view.ty) (G14 : BufTy.Contents (Elt F) arg14.view.ty)
  (G15 : BufTy.Contents (Elt F) arg15.view.ty)

/-- The stores of the trips before `k`, per buffer, last first. -/
abbrev pb1 (k : Nat) : List (View.Piece (Elt F) S2048x2048 .f32) × List (View.Piece (Elt F) S2048x128 .f32) × List (View.Piece (Elt F) S1x2048 .f32) :=
  pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k

/-- The aggregate's buffer before trip `k`. -/
def aggAt (k : Nat) : Vec F S2048x128 .f32 :=
  arg14.view.read (Elt F) (arg14.view.writes (Elt F) G14 (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k).2.1)
/-- The running column maximum before trip `k`. -/
def cmaxAt (k : Nat) : Vec F S1x2048 .f32 :=
  arg15.view.read (Elt F) (arg15.view.writes (Elt F) G15 (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k).2.2)

theorem pb1_succ (k : Fin k0_t1_loop.trips) :
    pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k.val + 1)
      = ((⟨Rect.unit (s := S2048x2048) (k0_off2 k) S512x2048.size (k0_off2_inb k), k0_pay20 v44 (keys1 arg10 X10 k)⟩ : View.Piece (Elt F) S2048x2048 .f32)
            :: (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val).1,
         (⟨Rect.unit (s := S2048x128) ![0, 0] S2048x128.size inb_S2048x128_S2048x128_0_0,
            k0_pay22 v44 (keys1 arg10 X10 k) (vals1 arg12 X12 k) (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val)⟩ : View.Piece (Elt F) S2048x128 .f32)
            :: (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val).2.1,
         (⟨Rect.unit (s := S1x2048) ![0, 0] S1x2048.size inb_S1x2048_S1x2048_0_0,
            k0_pay21 v44 (keys1 arg10 X10 k) (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val)⟩ : View.Piece (Elt F) S1x2048 .f32)
            :: (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val).2.2) := by
  unfold pb1 aggAt cmaxAt pb1
  rw [pb_k0_t1_succ, tripL1_eq, readAt_whole _ _ hz2, readAt_whole _ _ hz2]
  rfl

theorem aggAt_zero : aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 0 = arg14.view.read (Elt F) G14 := rfl
theorem cmaxAt_zero : cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 0 = arg15.view.read (Elt F) G15 := rfl

/-- One trip adds its tile's contribution to the aggregate. -/
theorem aggAt_succ (k : Fin k0_t1_loop.trips) :
    aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k.val + 1)
      = k0_pay22 v44 (keys1 arg10 X10 k) (vals1 arg12 X12 k) (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val) := by
  conv_lhs => unfold aggAt
  rw [pb1_succ]
  exact read_writes_whole _ _ hz2 _ _ _

/-- One trip folds its tile's column maxima into the running maximum. -/
theorem cmaxAt_succ (k : Fin k0_t1_loop.trips) :
    cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k.val + 1)
      = k0_pay21 v44 (keys1 arg10 X10 k) (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k.val) := by
  conv_lhs => unfold cmaxAt
  rw [pb1_succ]
  exact read_writes_whole _ _ hz2 _ _ _

/-- The four tiles of rows are pairwise disjoint. -/
theorem disj2 (j j' : Fin k0_t1_loop.trips) (h : j ≠ j') :
    Disjoint (Rect.unit (s := S2048x2048) (k0_off2 j) S512x2048.size (k0_off2_inb j)).set
      (Rect.unit (s := S2048x2048) (k0_off2 j') S512x2048.size (k0_off2_inb j')).set := by
  refine Rect.unit_disjoint (0 : Fin 2) ?_
  rw [k0_off2_eq, k0_off2_eq]
  have hne : j.val ≠ j'.val := fun e => h (Fin.ext e)
  show 512 * j.val + 512 ≤ 512 * j'.val ∨ 512 * j'.val + 512 ≤ 512 * j.val
  omega

/-- After the loop the score buffer holds, in tile `j`'s rows, tile `j`'s scores. -/
theorem scores_read (j : Fin k0_t1_loop.trips) (x : S512x2048.Idx) :
    arg9.view.read (Elt F) (arg9.view.writes (Elt F) G9 (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 4).1)
        ((Rect.unit (s := S2048x2048) (k0_off2 j) S512x2048.size (k0_off2_inb j)).emb x)
      = k0_pay20 v44 (keys1 arg10 X10 j) x := by
  have h := tiles_read arg9.view G9 k0_t1_loop.trips S512x2048.size (fun j => k0_off2 j) (fun j => k0_off2_inb j)
    disj2 (fun k => (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 k).1)
    (fun j => k0_pay20 v44 (keys1 arg10 X10 j)) rfl
    (fun k => by rw [pb1_succ]) 4 (by rw [trips1]) j x
  rw [h, if_pos (lt_of_lt_of_le j.isLt (le_of_eq trips1))]

/-- The aggregate after the four trips, as the four tiles' steps from the contents at loop entry: the score buffer's
    entry contents do not enter. -/
theorem aggAt_four :
    aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 4
      = k0_pay22 v44 (keys1 arg10 X10 (k1 3)) (vals1 arg12 X12 (k1 3))
          (k0_pay22 v44 (keys1 arg10 X10 (k1 2)) (vals1 arg12 X12 (k1 2))
            (k0_pay22 v44 (keys1 arg10 X10 (k1 1)) (vals1 arg12 X12 (k1 1))
              (k0_pay22 v44 (keys1 arg10 X10 (k1 0)) (vals1 arg12 X12 (k1 0)) (arg14.view.read (Elt F) G14)))) := by
  show aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 3).val + 1) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 3)]
  show k0_pay22 _ _ _ (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 2).val + 1)) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 2)]
  show k0_pay22 _ _ _ (k0_pay22 _ _ _ (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 1).val + 1))) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 1)]
  show k0_pay22 _ _ _ (k0_pay22 _ _ _ (k0_pay22 _ _ _ (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 0).val + 1)))) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 0)]
  rfl

/-- The running column maximum after the four trips, likewise. -/
theorem cmaxAt_four :
    cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 4
      = k0_pay21 v44 (keys1 arg10 X10 (k1 3))
          (k0_pay21 v44 (keys1 arg10 X10 (k1 2))
            (k0_pay21 v44 (keys1 arg10 X10 (k1 1))
              (k0_pay21 v44 (keys1 arg10 X10 (k1 0)) (arg15.view.read (Elt F) G15)))) := by
  show cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 3).val + 1) = _
  rw [cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 3)]
  show k0_pay21 _ _ (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 2).val + 1)) = _
  rw [cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 2)]
  show k0_pay21 _ _ (k0_pay21 _ _ (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 1).val + 1))) = _
  rw [cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 1)]
  show k0_pay21 _ _ (k0_pay21 _ _ (k0_pay21 _ _ (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 ((k1 0).val + 1)))) = _
  rw [cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 v44 X10 X12 G9 G14 G15 (k1 0)]
  rfl

end T1

/-! ## The second loop: exponentials in place, running column sum -/

section T2
variable (v64 : Vec F S1x2048 .f32)
  (G9 : BufTy.Contents (Elt F) arg9.view.ty) (G16 : BufTy.Contents (Elt F) arg16.view.ty)

theorem tripL2_eq (k : Fin k0_t2_loop.trips) (f9 : BufTy.Contents (Elt F) arg9.view.ty) (f16 : BufTy.Contents (Elt F) arg16.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 k f9 f16
      = ([⟨Rect.unit (s := S2048x2048) (k0_off3 k) S512x2048.size (k0_off3_inb k),
            k0_pay3 v64 (View.readAt (Elt F) arg9.view (Rect.unit (s := S2048x2048) (k0_off3 k) S512x2048.size (k0_off3_inb k)).toLoadRect f9)⟩],
         [⟨Rect.unit (s := S1x2048) ![0, 0] S1x2048.size inb_S1x2048_S1x2048_0_0,
            k0_pay4 v64 (View.readAt (Elt F) arg9.view (Rect.unit (s := S2048x2048) (k0_off3 k) S512x2048.size (k0_off3_inb k)).toLoadRect f9)
              (View.readAt (Elt F) arg16.view (Rect.unit (s := S1x2048) ![0, 0] S1x2048.size inb_S1x2048_S1x2048_0_0).toLoadRect f16)⟩]) := by
  unfold tripL_k0_t2 trip_k0_t2
  rfl

abbrev pb2 (k : Nat) : List (View.Piece (Elt F) S2048x2048 .f32) × List (View.Piece (Elt F) S1x2048 .f32) :=
  pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k

/-- The tile of the score buffer trip `k` finds. -/
def tile2At (k : Fin k0_t2_loop.trips) : Vec F S512x2048 .f32 :=
  View.readAt (Elt F) arg9.view (Rect.unit (s := S2048x2048) (k0_off3 k) S512x2048.size (k0_off3_inb k)).toLoadRect
    (arg9.view.writes (Elt F) G9 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val).1)
/-- The same tile of the buffer as the loop found it. -/
abbrev tile2 (k : Fin k0_t2_loop.trips) : Vec F S512x2048 .f32 :=
  View.readAt (Elt F) arg9.view (Rect.unit (s := S2048x2048) (k0_off3 k) S512x2048.size (k0_off3_inb k)).toLoadRect G9
/-- The running column sum before trip `k`. -/
def csumAt (k : Nat) : Vec F S1x2048 .f32 :=
  arg16.view.read (Elt F) (arg16.view.writes (Elt F) G16 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k).2)

theorem pb2_succ (k : Fin k0_t2_loop.trips) :
    pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k.val + 1)
      = ((⟨Rect.unit (s := S2048x2048) (k0_off3 k) S512x2048.size (k0_off3_inb k), k0_pay3 v64 (tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k)⟩ : View.Piece (Elt F) S2048x2048 .f32)
            :: (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val).1,
         (⟨Rect.unit (s := S1x2048) ![0, 0] S1x2048.size inb_S1x2048_S1x2048_0_0,
            k0_pay4 v64 (tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k) (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val)⟩ : View.Piece (Elt F) S1x2048 .f32)
            :: (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val).2) := by
  unfold pb2 tile2At csumAt pb2
  rw [pb_k0_t2_succ, tripL2_eq, readAt_whole _ _ hz2]
  rfl

theorem disj3 (j j' : Fin k0_t2_loop.trips) (h : j ≠ j') :
    Disjoint (Rect.unit (s := S2048x2048) (k0_off3 j) S512x2048.size (k0_off3_inb j)).set
      (Rect.unit (s := S2048x2048) (k0_off3 j') S512x2048.size (k0_off3_inb j')).set := by
  refine Rect.unit_disjoint (0 : Fin 2) ?_
  rw [k0_off3_eq, k0_off3_eq]
  have hne : j.val ≠ j'.val := fun e => h (Fin.ext e)
  show 512 * j.val + 512 ≤ 512 * j'.val ∨ 512 * j'.val + 512 ≤ 512 * j.val
  omega

theorem tiles2 (k : Nat) (hk : k ≤ k0_t2_loop.trips) (j : Fin k0_t2_loop.trips) (x : S512x2048.Idx) :
    arg9.view.read (Elt F) (arg9.view.writes (Elt F) G9 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k).1)
        ((Rect.unit (s := S2048x2048) (k0_off3 j) S512x2048.size (k0_off3_inb j)).emb x)
      = if j.val < k then k0_pay3 v64 (tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 j) x
        else arg9.view.read (Elt F) G9 ((Rect.unit (s := S2048x2048) (k0_off3 j) S512x2048.size (k0_off3_inb j)).emb x) :=
  tiles_read arg9.view G9 k0_t2_loop.trips S512x2048.size (fun j => k0_off3 j) (fun j => k0_off3_inb j)
    disj3 (fun k => (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k).1)
    (fun j => k0_pay3 v64 (tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 j)) rfl
    (fun k => by rw [pb2_succ]) k hk j x

/-- The tile a trip finds is the tile the loop found: the earlier trips wrote other tiles. -/
theorem tile2At_eq (k : Fin k0_t2_loop.trips) : tile2At 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k = tile2 arg9 G9 k := by
  funext x
  unfold tile2At
  rw [View.readAt_eq_ld]
  show arg9.view.read (Elt F) _ ((Rect.unit (s := S2048x2048) (k0_off3 k) S512x2048.size (k0_off3_inb k)).emb x) = _
  rw [tiles2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val (le_of_lt k.isLt) k x, if_neg (lt_irrefl _)]
  rfl

theorem csumAt_zero : csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 0 = arg16.view.read (Elt F) G16 := rfl

/-- One trip adds its tile's column sums of exponentials to the running sum. -/
theorem csumAt_succ (k : Fin k0_t2_loop.trips) :
    csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k.val + 1) = k0_pay4 v64 (tile2 arg9 G9 k) (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 k.val) := by
  conv_lhs => unfold csumAt
  rw [pb2_succ, tile2At_eq]
  exact read_writes_whole _ _ hz2 _ _ _

/-- After the loop the score buffer holds, in tile `j`'s rows, the exponentials of tile `j`'s scores. -/
theorem exps_read (j : Fin k0_t2_loop.trips) (x : S512x2048.Idx) :
    arg9.view.read (Elt F) (arg9.view.writes (Elt F) G9 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4).1)
        ((Rect.unit (s := S2048x2048) (k0_off3 j) S512x2048.size (k0_off3_inb j)).emb x)
      = k0_pay3 v64 (tile2 arg9 G9 j) x := by
  rw [tiles2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4 (by rw [trips2]) j x, if_pos (lt_of_lt_of_le j.isLt (le_of_eq trips2)), tile2At_eq]

/-- The running column sum after the four trips, as the four tiles' steps from the contents at loop entry. -/
theorem csumAt_four :
    csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4
      = k0_pay4 v64 (tile2 arg9 G9 (k2 3))
          (k0_pay4 v64 (tile2 arg9 G9 (k2 2))
            (k0_pay4 v64 (tile2 arg9 G9 (k2 1))
              (k0_pay4 v64 (tile2 arg9 G9 (k2 0)) (arg16.view.read (Elt F) G16)))) := by
  show csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 ((k2 3).val + 1) = _
  rw [csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 3)]
  show k0_pay4 _ _ (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 ((k2 2).val + 1)) = _
  rw [csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 2)]
  show k0_pay4 _ _ (k0_pay4 _ _ (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 ((k2 1).val + 1))) = _
  rw [csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 1)]
  show k0_pay4 _ _ (k0_pay4 _ _ (k0_pay4 _ _ (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 ((k2 0).val + 1)))) = _
  rw [csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 0)]
  rfl

end T2

/-! ## The third loop: the first output, tile by tile -/

section T3
variable (v11 : FVec F S128x128 .bf16) (v13 : FVec F S1x128 .f32) (v66 : Vec F S1x2048 .f32) (v69 : Vec F S2048x128 .f32)
  (X9 : BufTy.Contents (Elt F) arg9.view.ty)

/-- The tile of normalised-to-be exponentials trip `k` loads. -/
abbrev tile3 (k : Fin k0_t3_loop.trips) : Vec F S512x2048 .f32 :=
  View.readAt (Elt F) arg9.view (Rect.unit (s := S2048x2048) (k0_off4 k) S512x2048.size (k0_off4_inb k)).toLoadRect X9

theorem tripL3_eq (k : Fin k0_t3_loop.trips) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 k
      = [⟨Rect.unit (s := S1x2048x128) (k0_off5 k) S1x512x128.size (k0_off5_inb k), k0_pay5 v11 v13 v66 v69 (tile3 arg9 X9 k)⟩] := by
  unfold tripL_k0_t3 trip_k0_t3
  rfl

abbrev pb3 (k : Nat) : List (View.Piece (Elt F) S1x2048x128 .f32) :=
  pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 k

theorem pb3_succ (k : Fin k0_t3_loop.trips) :
    pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k.val + 1)
      = (⟨Rect.unit (s := S1x2048x128) (k0_off5 k) S1x512x128.size (k0_off5_inb k), k0_pay5 v11 v13 v66 v69 (tile3 arg9 X9 k)⟩ : View.Piece (Elt F) S1x2048x128 .f32)
          :: pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 k.val := by
  unfold pb3
  rw [pb_k0_t3_succ, tripL3_eq]
  rfl

theorem disj5 (j j' : Fin k0_t3_loop.trips) (h : j ≠ j') :
    Disjoint (Rect.unit (s := S1x2048x128) (k0_off5 j) S1x512x128.size (k0_off5_inb j)).set
      (Rect.unit (s := S1x2048x128) (k0_off5 j') S1x512x128.size (k0_off5_inb j')).set := by
  refine Rect.unit_disjoint (1 : Fin 3) ?_
  rw [k0_off5_eq, k0_off5_eq]
  have hne : j.val ≠ j'.val := fun e => h (Fin.ext e)
  show 512 * j.val + 512 ≤ 512 * j'.val ∨ 512 * j'.val + 512 ≤ 512 * j.val
  omega

/-- Through any view of the output block and over any prior contents, after the loop tile `j`'s rows hold tile `j`'s output. -/
theorem out_read {sig' : RefSig} {κ' : Kind} {sp' : Space} (v : View sig' κ' sp' S1x2048x128 .f32) (G : v.ty.Contents (Elt F))
    (j : Fin k0_t3_loop.trips) (x : S1x512x128.Idx) :
    v.read (Elt F) (v.writes (Elt F) G (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 4))
        ((Rect.unit (s := S1x2048x128) (k0_off5 j) S1x512x128.size (k0_off5_inb j)).emb x)
      = k0_pay5 v11 v13 v66 v69 (tile3 arg9 X9 j) x := by
  have h := tiles_read v G k0_t3_loop.trips S1x512x128.size (fun j => k0_off5 j) (fun j => k0_off5_inb j)
    disj5 (fun k => pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 k)
    (fun j => k0_pay5 v11 v13 v66 v69 (tile3 arg9 X9 j)) rfl
    (fun k => by rw [pb3_succ]) 4 (by rw [trips3]) j x
  rw [h, if_pos (lt_of_lt_of_le j.isLt (le_of_eq trips3))]

/-- The third loop's stores, written out: one tile of the first output per trip, last first. -/
theorem pb3_four :
    pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 4
      = [⟨Rect.unit (s := S1x2048x128) (k0_off5 (k3 3)) S1x512x128.size (k0_off5_inb (k3 3)), k0_pay5 v11 v13 v66 v69 (tile3 arg9 X9 (k3 3))⟩,
         ⟨Rect.unit (s := S1x2048x128) (k0_off5 (k3 2)) S1x512x128.size (k0_off5_inb (k3 2)), k0_pay5 v11 v13 v66 v69 (tile3 arg9 X9 (k3 2))⟩,
         ⟨Rect.unit (s := S1x2048x128) (k0_off5 (k3 1)) S1x512x128.size (k0_off5_inb (k3 1)), k0_pay5 v11 v13 v66 v69 (tile3 arg9 X9 (k3 1))⟩,
         ⟨Rect.unit (s := S1x2048x128) (k0_off5 (k3 0)) S1x512x128.size (k0_off5_inb (k3 0)), k0_pay5 v11 v13 v66 v69 (tile3 arg9 X9 (k3 0))⟩] := by
  show pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 ((k3 3).val + 1) = _
  rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k3 3)]
  show _ :: pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 ((k3 2).val + 1) = _
  rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k3 2)]
  show _ :: _ :: pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 ((k3 1).val + 1) = _
  rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k3 1)]
  show _ :: _ :: _ :: pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 ((k3 0).val + 1) = _
  rw [pb3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 (k3 0)]
  rfl

end T3

end Cert.KernelIdeal.KerLoops

end
-- ==== Proof.KerRun.lean ====
/-
  The body's two outputs as lists of stores, with the score buffer's contents on entry as a parameter — and the
  fact that they do not depend on it.

  The score buffer is first written inside the first loop, tile by tile; until all four tiles are written it still
  holds, elsewhere, whatever it held on entry. Every later quantity reads only rows that have been written (a trip of
  the second loop reads the tile it is about to overwrite, the third loop reads tiles the second loop wrote), and the
  running maximum, the running sums and the aggregate never read it at all. So the stores of both outputs are the
  same whatever the buffer held on entry.
-/
import proofs.«140224_j47897475285202_2_alg».proof.Proof.KerLoops

set_option maxRecDepth 16384

noncomputable section

namespace Cert.KernelIdeal.KerRun

open Cert.KernelIdeal Cert.KernelIdeal.Gen Cert.KernelIdeal.KerLoops Idealize.ShloMosaic Idealize.ShloMosaic.ValueIdx

variable {F : FTy → Type} [FloatOps F]

section Defs

variable (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
  (x0 x1 : Vec F S1x2048x128 .f32) (x2 x3 x4 : Vec F S128x128 .f32) (x5 : Vec F S128 .f32)

/-! ## The values the body computes before its loops, as the run spells them -/

abbrev W3 : Rect S1x2048x128 := Rect.unit (s := S1x2048x128) ![0, 0, 0] S1x2048x128.size inb_S1x2048x128_S1x2048x128_0_0_0
abbrev W2 : Rect S2048x128 := Rect.unit (s := S2048x128) ![0, 0] S2048x128.size inb_S2048x128_S2048x128_0_0
abbrev Ww : Rect S128x128 := Rect.unit (s := S128x128) ![0, 0] S128x128.size inb_S128x128_S128x128_0_0
abbrev Wb : Rect S128 := Rect.unit (s := S128) ![0] S128.size inb_S128_S128_0
abbrev W1 : Rect S1x2048 := Rect.unit (s := S1x2048) ![0, 0] S1x2048.size inb_S1x2048_S1x2048_0_0

abbrev X0 : Vec F S1x2048x128 .f32 := View.readAt (Elt F) arg1.view W3.toLoadRect (harg1.unread x0)
abbrev X1 : Vec F S1x2048x128 .f32 := View.readAt (Elt F) arg2.view W3.toLoadRect (harg2.unread x1)
abbrev X2 : Vec F S128x128 .f32 := View.readAt (Elt F) arg3.view Ww.toLoadRect (harg3.unread x2)
abbrev X3 : Vec F S128x128 .f32 := View.readAt (Elt F) arg4.view Ww.toLoadRect (harg4.unread x3)
abbrev R4 : FVec F S128x128 .bf16 := k0_pay10 (View.readAt (Elt F) arg5.view Ww.toLoadRect (harg5.unread x4))
abbrev R5 : FVec F S1x128 .f32 := k0_pay11 (View.readAt (Elt F) arg6.view Wb.toLoadRect (harg6.unread x5))
abbrev V32 : FVec F S2048x128 .f32 := k0_pay15 (X1 arg2 harg2 x1) (X3 arg4 harg4 x3)
abbrev V44 : Vec F S2048x128 .bf16 :=
  View.readCov arg11.view [⟨W2, k0_pay13 (X1 arg2 harg2 x1) (X2 arg3 harg3 x2)⟩] W2.toLoadRect
abbrev V69 : Vec F S2048x128 .f32 :=
  View.readCov arg13.view [⟨W2, k0_pay16 (V32 arg2 harg2 arg4 harg4 x1 x3)⟩] W2.toLoadRect
abbrev C10 : BufTy.Contents (Elt F) arg10.view.ty :=
  arg10.view.writes (Elt F) arg10.view.junk [⟨W2, k0_pay12 (X0 arg1 harg1 x0) (X2 arg3 harg3 x2)⟩]
abbrev C12 : BufTy.Contents (Elt F) arg12.view.ty :=
  arg12.view.writes (Elt F) arg12.view.junk [⟨W2, k0_pay14 (X0 arg1 harg1 x0) (X3 arg4 harg4 x3)⟩]
abbrev C14 : BufTy.Contents (Elt F) arg14.view.ty := arg14.view.writes (Elt F) arg14.view.junk [⟨W2, k0_pay18⟩]
abbrev C15 : BufTy.Contents (Elt F) arg15.view.ty := arg15.view.writes (Elt F) arg15.view.junk [⟨W1, k0_pay17⟩]
abbrev C16 : BufTy.Contents (Elt F) arg16.view.ty := arg16.view.writes (Elt F) arg16.view.junk [⟨W1, k0_pay1 k0_pay24⟩]

/-! ## The loops' stores, from entry contents `g9` of the score buffer -/

variable (g9 : BufTy.Contents (Elt F) arg9.view.ty)

/-- The first loop's stores. -/
abbrev P1 : List (View.Piece (Elt F) S2048x2048 .f32) × List (View.Piece (Elt F) S2048x128 .f32) × List (View.Piece (Elt F) S1x2048 .f32) :=
  pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2)
    (C10 arg1 harg1 arg3 harg3 arg10 x0 x2) (C12 arg1 harg1 arg4 harg4 arg12 x0 x3) g9 (C14 arg14) (C15 arg15) k0_t1_loop.trips

/-- The column maxima the second loop subtracts: the running maximum's buffer after the first loop. -/
abbrev v64r : Vec F S1x2048 .f32 :=
  View.readAt (Elt F) arg15.view W1.toLoadRect
    (arg15.view.writes (Elt F) arg15.view.junk ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).2.2 ++ [⟨W1, k0_pay17⟩]))

/-- The score buffer after the first loop. -/
abbrev G9r : BufTy.Contents (Elt F) arg9.view.ty := arg9.view.writes (Elt F) g9 (P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).1

/-- The second loop's stores. -/
abbrev P2 : List (View.Piece (Elt F) S2048x2048 .f32) × List (View.Piece (Elt F) S1x2048 .f32) :=
  pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16) k0_t2_loop.trips

/-- The column sums the third loop divides by: the running sum's buffer after the second loop. -/
abbrev v66r : Vec F S1x2048 .f32 :=
  View.readAt (Elt F) arg16.view W1.toLoadRect
    (arg16.view.writes (Elt F) arg16.view.junk ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).2 ++ [⟨W1, k0_pay1 k0_pay24⟩]))

/-- The score buffer after the second loop. -/
abbrev X9r : BufTy.Contents (Elt F) arg9.view.ty :=
  arg9.view.writes (Elt F) g9 ((P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).1 ++ (P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).1)

/-- The stores of the first output: the third loop's. -/
def runL6 : List (View.Piece (Elt F) S1x2048x128 .f32) :=
  pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9)
    (V69 arg2 harg2 arg4 harg4 arg13 x1 x3) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) k0_t3_loop.trips

/-- The store of the second output: one whole-block store of the projected aggregate. -/
def runL7 : List (View.Piece (Elt F) S1x2048x128 .f32) :=
  [⟨W3, k0_pay23 (R4 arg5 harg5 x4) (R5 arg6 harg6 x5)
      (View.readAt (Elt F) arg14.view W2.toLoadRect
        (arg14.view.writes (Elt F) arg14.view.junk ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).2.1 ++ [⟨W2, k0_pay18⟩])))⟩]

end Defs

/-! ## The closed forms -/

/-- The column maxima after the first loop: four steps from the bottom-filled buffer. -/
def cmC (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : Vec F S1x2048 .f32 :=
  k0_pay21 (V44 arg2 harg2 arg3 harg3 arg11 x1 x2) (keys1 arg10 (C10 arg1 harg1 arg3 harg3 arg10 x0 x2) (k1 3)) (k0_pay21 (V44 arg2 harg2 arg3 harg3 arg11 x1 x2) (keys1 arg10 (C10 arg1 harg1 arg3 harg3 arg10 x0 x2) (k1 2)) (k0_pay21 (V44 arg2 harg2 arg3 harg3 arg11 x1 x2) (keys1 arg10 (C10 arg1 harg1 arg3 harg3 arg10 x0 x2) (k1 1)) (k0_pay21 (V44 arg2 harg2 arg3 harg3 arg11 x1 x2) (keys1 arg10 (C10 arg1 harg1 arg3 harg3 arg10 x0 x2) (k1 0))
    (arg15.view.read (Elt F) (C15 arg15)))))

/-- The aggregate after the first loop: four steps from the zero-filled buffer. -/
def agC (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : Vec F S2048x128 .f32 :=
  k0_pay22 (V44 arg2 harg2 arg3 harg3 arg11 x1 x2) (keys1 arg10 (C10 arg1 harg1 arg3 harg3 arg10 x0 x2) (k1 3)) (vals1 arg12 (C12 arg1 harg1 arg4 harg4 arg12 x0 x3) (k1 3)) (k0_pay22 (V44 arg2 harg2 arg3 harg3 arg11 x1 x2) (keys1 arg10 (C10 arg1 harg1 arg3 harg3 arg10 x0 x2) (k1 2)) (vals1 arg12 (C12 arg1 harg1 arg4 harg4 arg12 x0 x3) (k1 2)) (k0_pay22 (V44 arg2 harg2 arg3 harg3 arg11 x1 x2) (keys1 arg10 (C10 arg1 harg1 arg3 harg3 arg10 x0 x2) (k1 1)) (vals1 arg12 (C12 arg1 harg1 arg4 harg4 arg12 x0 x3) (k1 1))
    (k0_pay22 (V44 arg2 harg2 arg3 harg3 arg11 x1 x2) (keys1 arg10 (C10 arg1 harg1 arg3 harg3 arg10 x0 x2) (k1 0)) (vals1 arg12 (C12 arg1 harg1 arg4 harg4 arg12 x0 x3) (k1 0)) (arg14.view.read (Elt F) (C14 arg14)))))

/-- Tile `j` of the scores. -/
def scC (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) (j : Fin 4) : Vec F S512x2048 .f32 := k0_pay20 (V44 arg2 harg2 arg3 harg3 arg11 x1 x2) (keys1 arg10 (C10 arg1 harg1 arg3 harg3 arg10 x0 x2) (k1 j))

/-- The column sums after the second loop: four steps from the zero-filled buffer. -/
def csC (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : Vec F S1x2048 .f32 :=
  k0_pay4 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 3) (k0_pay4 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 2) (k0_pay4 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 1)
    (k0_pay4 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 0) (arg16.view.read (Elt F) (C16 arg16)))))

/-- The stores of the first output in closed form. -/
def L6C (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : List (View.Piece (Elt F) S1x2048x128 .f32) :=
  [⟨Rect.unit (s := S1x2048x128) (k0_off5 (k3 3)) S1x512x128.size (k0_off5_inb (k3 3)),
      k0_pay5 (R4 arg5 harg5 x4) (R5 arg6 harg6 x5) (csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (V69 arg2 harg2 arg4 harg4 arg13 x1 x3) (k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 3))⟩,
   ⟨Rect.unit (s := S1x2048x128) (k0_off5 (k3 2)) S1x512x128.size (k0_off5_inb (k3 2)),
      k0_pay5 (R4 arg5 harg5 x4) (R5 arg6 harg6 x5) (csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (V69 arg2 harg2 arg4 harg4 arg13 x1 x3) (k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 2))⟩,
   ⟨Rect.unit (s := S1x2048x128) (k0_off5 (k3 1)) S1x512x128.size (k0_off5_inb (k3 1)),
      k0_pay5 (R4 arg5 harg5 x4) (R5 arg6 harg6 x5) (csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (V69 arg2 harg2 arg4 harg4 arg13 x1 x3) (k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 1))⟩,
   ⟨Rect.unit (s := S1x2048x128) (k0_off5 (k3 0)) S1x512x128.size (k0_off5_inb (k3 0)),
      k0_pay5 (R4 arg5 harg5 x4) (R5 arg6 harg6 x5) (csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (V69 arg2 harg2 arg4 harg4 arg13 x1 x3) (k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 0))⟩]

/-- The store of the second output in closed form. -/
def L7C (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
    (x0 x1 : Vec F S1x2048x128 .f32) (x2 x3 x4 : Vec F S128x128 .f32) (x5 : Vec F S128 .f32) : List (View.Piece (Elt F) S1x2048x128 .f32) :=
  [⟨W3, k0_pay23 (R4 arg5 harg5 x4) (R5 arg6 harg6 x5) (agC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5)⟩]

section Proofs

variable (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
  (x0 x1 : Vec F S1x2048x128 .f32) (x2 x3 x4 : Vec F S128x128 .f32) (x5 : Vec F S128 .f32)
  (g9 : BufTy.Contents (Elt F) arg9.view.ty)

/-! ## The run's stores are the closed forms, whatever the score buffer held on entry -/

theorem P1_eq : P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4 :=
  congrArg (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15)) trips1

theorem v64r_eq : v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  unfold v64r
  rw [View.writes_append, readAt_whole _ _ hz2, P1_eq]
  exact cmaxAt_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15)

theorem agg_eq :
    View.readAt (Elt F) arg14.view W2.toLoadRect
        (arg14.view.writes (Elt F) arg14.view.junk ((P1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9).2.1 ++ [⟨W2, k0_pay18⟩]))
      = agC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  rw [View.writes_append, readAt_whole _ _ hz2, P1_eq]
  exact aggAt_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15)

theorem runL7_eq : runL7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = L7C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  unfold runL7 L7C
  rw [agg_eq]

theorem emb32 (j : Fin 4) (x : S512x2048.Idx) :
    (Rect.unit (s := S2048x2048) (k0_off3 (k2 j)) S512x2048.size (k0_off3_inb (k2 j))).emb x
      = (Rect.unit (s := S2048x2048) (k0_off2 (k1 j)) S512x2048.size (k0_off2_inb (k1 j))).emb x := by
  funext a
  refine Fin.ext ?_
  show k0_off3 (k2 j) a + 1 * (x a).val = k0_off2 (k1 j) a + 1 * (x a).val
  rw [k0_off3_eq, k0_off2_eq]
  rfl

theorem emb43 (j : Fin 4) (x : S512x2048.Idx) :
    (Rect.unit (s := S2048x2048) (k0_off4 (k3 j)) S512x2048.size (k0_off4_inb (k3 j))).emb x
      = (Rect.unit (s := S2048x2048) (k0_off3 (k2 j)) S512x2048.size (k0_off3_inb (k2 j))).emb x := by
  funext a
  refine Fin.ext ?_
  show k0_off4 (k3 j) a + 1 * (x a).val = k0_off3 (k2 j) a + 1 * (x a).val
  rw [k0_off4_eq, k0_off3_eq]
  rfl

/-- The tile of scores a trip of the second loop finds is the tile the first loop stored. -/
theorem tile2_G9r (j : Fin 4) : tile2 arg9 (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (k2 j) = scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 j := by
  funext x
  show arg9.view.read (Elt F) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) ((Rect.unit (s := S2048x2048) (k0_off3 (k2 j)) S512x2048.size (k0_off3_inb (k2 j))).emb x) = _
  rw [emb32]
  unfold G9r
  rw [P1_eq]
  exact scores_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) (k1 j) x

theorem P2_eq :
    P2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = pb2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16) 4 :=
  congrArg (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16)) trips2

theorem v66r_eq : v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = csC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  unfold v66r
  rw [View.writes_append, readAt_whole _ _ hz2, P2_eq]
  refine (csumAt_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16)).trans ?_
  rw [tile2_G9r, tile2_G9r, tile2_G9r, tile2_G9r, v64r_eq]
  rfl

/-- The tile of exponentials a trip of the third loop loads is the tile the second loop stored. -/
theorem tile3_X9r (j : Fin 4) :
    tile3 arg9 (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (k3 j) = k0_pay3 (cmC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) (scC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 j) := by
  funext x
  show arg9.view.read (Elt F) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) ((Rect.unit (s := S2048x2048) (k0_off4 (k3 j)) S512x2048.size (k0_off4_inb (k3 j))).emb x) = _
  rw [emb43]
  unfold X9r
  rw [View.writes_append, P2_eq]
  refine (exps_read Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (C16 arg16) (k2 j) x).trans ?_
  rw [tile2_G9r, v64r_eq]

theorem runL6_eq : runL6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = L6C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 := by
  unfold runL6
  refine (congrArg (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (V69 arg2 harg2 arg4 harg4 arg13 x1 x3) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9)) trips3).trans ?_
  refine (pb3_four Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (V69 arg2 harg2 arg4 harg4 arg13 x1 x3) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9)).trans ?_
  rw [tile3_X9r, tile3_X9r, tile3_X9r, tile3_X9r, v66r_eq]
  rfl

/-- The run's stores do not depend on what the score buffer held on entry. -/
theorem runL6_indep (g g' : BufTy.Contents (Elt F) arg9.view.ty) : runL6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g = runL6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g' :=
  (runL6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g).trans (runL6_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g').symm

theorem runL7_indep (g g' : BufTy.Contents (Elt F) arg9.view.ty) : runL7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g = runL7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g' :=
  (runL7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g).trans (runL7_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g').symm

/-! ## The run's stores through the loops' composed results -/

theorem v64r_std : v64r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = (cmaxAt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4) := by
  unfold v64r
  rw [View.writes_append, readAt_whole _ _ hz2, P1_eq]
  rfl

theorem G9r_std : G9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = (arg9.view.writes (Elt F) g9 (pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4).1) := by
  unfold G9r
  rw [P1_eq]

theorem v66r_std : v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = csumAt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (cmaxAt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4) (arg9.view.writes (Elt F) g9 (pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4).1) (C16 arg16) 4 := by
  unfold v66r
  rw [View.writes_append, readAt_whole _ _ hz2, P2_eq, v64r_std, G9r_std]
  rfl

theorem X9r_std : X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = arg9.view.writes (Elt F) (arg9.view.writes (Elt F) g9 (pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4).1) (pb2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (cmaxAt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4) (arg9.view.writes (Elt F) g9 (pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4).1) (C16 arg16) 4).1 := by
  unfold X9r
  rw [View.writes_append, P2_eq, v64r_std, G9r_std, P1_eq]

/-- The first output's stores: the third loop's, from the second loop's column sums and exponentials. -/
theorem runL6_std :
    runL6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9
      = pb3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (csumAt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (cmaxAt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4) (arg9.view.writes (Elt F) g9 (pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4).1) (C16 arg16) 4) (V69 arg2 harg2 arg4 harg4 arg13 x1 x3)
          (arg9.view.writes (Elt F) (arg9.view.writes (Elt F) g9 (pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4).1) (pb2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (cmaxAt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4) (arg9.view.writes (Elt F) g9 (pb1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4).1) (C16 arg16) 4).1) 4 := by
  unfold runL6
  refine (congrArg (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (v66r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9) (V69 arg2 harg2 arg4 harg4 arg13 x1 x3) (X9r c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9)) trips3).trans ?_
  rw [v66r_std, X9r_std]

/-- The second output's store: the projected aggregate after the first loop. -/
theorem runL7_std :
    runL7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 g9 = [⟨W3, k0_pay23 (R4 arg5 harg5 x4) (R5 arg6 harg6 x5) (aggAt Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (R4 arg5 harg5 x4) (R5 arg6 harg6 x5) (V32 arg2 harg2 arg4 harg4 x1 x3) (V44 arg2 harg2 arg3 harg3 arg11 x1 x2) (C10 arg1 harg1 arg3 harg3 arg10 x0 x2) (C12 arg1 harg1 arg4 harg4 arg12 x0 x3) g9 (C14 arg14) (C15 arg15) 4)⟩] := by
  unfold runL7
  rw [View.writes_append, readAt_whole _ _ hz2, P1_eq]
  rfl

end Proofs

end Cert.KernelIdeal.KerRun

end
-- ==== Proof.Forms.lean ====
/-
  Co-attention over one pair of node sets, as formulas on the extended reals.

  For one batch entry, with `x1, x2 : [2048, 128]` node features and `Wk, Wv, Wo : [128, 128]`, `bo : [128]`:
  keys `h = x · Wkᵀ`, values `v = x · Wvᵀ`, scores `e n m = ⟨h1 n, h2 m⟩`; each score matrix is normalised by a
  softmax over its FIRST index, the normalised scores aggregate the other side's values, and the aggregate goes
  through the output projection, the bias and a leaky ReLU.

  Two spellings of the same quantities are defined here. The DIRECT one takes each column's largest entry and
  each column's sum of exponentials over all 2048 rows at once and divides. The TILED one walks the rows in four
  tiles of 512: a running largest entry and a running sum, tile after tile, and a product with the reciprocal of
  the sum in place of the quotient; for the second output it normalises each ROW of the score matrix (which is the
  column normalisation of the transposed scores) and accumulates the aggregate tile by tile.
  That the two spellings agree — for real (finite) inputs — is proved elsewhere; this module only defines them.
-/
import Idealize.ShloMosaic.PureOps.Ideal
import Idealize.ShloMosaic.PureOps.Ideal.Laws
import Idealize.ShloMosaic.Lib.ValueIdx

noncomputable section

open scoped BigOperators

namespace Cert.CoAttn

open Idealize.ShloMosaic Idealize.ShloMosaic.ValueIdx

/-- An `R × C` matrix of extended reals, by coordinates. -/
abbrev Mat (R C : ℕ) := Fin R → Fin C → EReal

/-- `x · Wᵀ`: entry `(n, k)` pairs row `n` of `x` with row `k` of `W`. -/
def proj (x : Mat 2048 128) (W : Mat 128 128) : Mat 2048 128 := fun n k => ∑ d : Fin 128, x n d * W k d

/-- The score of row `n` of `p` against row `m` of `q`. -/
def score (p q : Mat 2048 128) : Mat 2048 2048 := fun n m => ∑ k : Fin 128, p n k * q m k

/-- The largest of finitely many extended reals, `⊥` for none. -/
def top {N : ℕ} (f : Fin N → EReal) : EReal := (Finset.univ : Finset (Fin N)).fold max ⊥ f

/-- The leaky ReLU's slope, the f32 nearest to 1/100 (the same word in both programs). -/
def slope : EReal := Ideal.ofBits .f32 0x3C23D70A#32

/-- Leaky ReLU. -/
def lrelu (z : EReal) : EReal := if (0 : EReal) ≤ z then z else slope * z

/-- Output projection, bias, leaky ReLU: entry `(r, o)` of `lrelu (n · Woᵀ + bo)`. -/
def outRow (n : Mat 2048 128) (Wo : Mat 128 128) (bo : Fin 128 → EReal) : Mat 2048 128 :=
  fun r o => lrelu ((∑ k : Fin 128, n r k * Wo o k) + bo o)

/-- `a · v`: entry `(i, k)` sums `a i j * v j k` over `j`. -/
def agg (a : Mat 2048 2048) (v : Mat 2048 128) : Mat 2048 128 := fun i k => ∑ j : Fin 2048, a i j * v j k

/-! ## The direct spelling -/

/-- Softmax over the FIRST index, directly: `exp (e i j - M j) / (0 + Σ_i' exp (e i' j - M j))` with
    `M j = max ⊥ (the largest e i' j)`. -/
def smDirect (e : Mat 2048 2048) : Mat 2048 2048 := fun i j =>
  Ideal.div (Ideal.exp (e i j - max ⊥ (top fun i' => e i' j)))
    (0 + ∑ i' : Fin 2048, Ideal.exp (e i' j - max ⊥ (top fun i'' => e i'' j)))

/-- First output, directly: scores of `x1`'s keys against `x2`'s, normalised over `x1`'s nodes, aggregating `x2`'s values. -/
def out1Direct (x1 x2 : Mat 2048 128) (Wk Wv Wo : Mat 128 128) (bo : Fin 128 → EReal) : Mat 2048 128 :=
  outRow (agg (smDirect (score (proj x1 Wk) (proj x2 Wk))) (proj x2 Wv)) Wo bo

/-- Second output, directly: scores of `x2`'s keys against `x1`'s, normalised over `x2`'s nodes, aggregating `x1`'s values. -/
def out2Direct (x1 x2 : Mat 2048 128) (Wk Wv Wo : Mat 128 128) (bo : Fin 128 → EReal) : Mat 2048 128 :=
  outRow (agg (smDirect (score (proj x2 Wk) (proj x1 Wk))) (proj x1 Wv)) Wo bo

/-! ## The tiled spelling -/

/-- Row `r` of tile `c` (four tiles of 512 rows). -/
def row (c : Fin 4) (r : Fin 512) : Fin 2048 := ⟨512 * c.val + r.val, by omega⟩

/-- A running sum over the four tiles, from zero. -/
def acc4 (f : Fin 4 → EReal) : EReal := (((0 + f 0) + f 1) + f 2) + f 3

/-- A running maximum over the four tiles, from `⊥`. -/
def max4 (f : Fin 4 → EReal) : EReal := max (max (max (max ⊥ (f 0)) (f 1)) (f 2)) (f 3)

/-- Column `m`'s largest score, tile by tile. -/
def colTopTiled (e : Mat 2048 2048) (m : Fin 2048) : EReal := max4 fun c => top fun r : Fin 512 => e (row c r) m

/-- Softmax over the first index, tile by tile, with the reciprocal of the running sum. -/
def smColTiled (e : Mat 2048 2048) : Mat 2048 2048 := fun n m =>
  Ideal.exp (e n m - colTopTiled e m)
    * Ideal.div 1 (acc4 fun c => ∑ r : Fin 512, Ideal.exp (e (row c r) m - colTopTiled e m))

/-- Softmax over the SECOND index (each row normalised), with the reciprocal of the row's sum. -/
def smRow (e : Mat 2048 2048) : Mat 2048 2048 := fun n m =>
  Ideal.exp (e n m - top fun m' => e n m')
    * Ideal.div 1 (∑ m' : Fin 2048, Ideal.exp (e n m' - top fun m'' => e n m''))

/-- `aᵀ · v` accumulated tile by tile over the rows: entry `(m, d)`. -/
def aggTiledT (a : Mat 2048 2048) (v : Mat 2048 128) : Mat 2048 128 := fun m d =>
  acc4 fun c => ∑ r : Fin 512, a (row c r) m * v (row c r) d

/-- First output, tiled. -/
def out1Tiled (x1 x2 : Mat 2048 128) (Wk Wv Wo : Mat 128 128) (bo : Fin 128 → EReal) : Mat 2048 128 :=
  outRow (agg (smColTiled (score (proj x1 Wk) (proj x2 Wk))) (proj x2 Wv)) Wo bo

/-- Second output, tiled: the SAME score matrix as the first output's, each row normalised, transposed into the aggregate. -/
def out2Tiled (x1 x2 : Mat 2048 128) (Wk Wv Wo : Mat 128 128) (bo : Fin 128 → EReal) : Mat 2048 128 :=
  outRow (aggTiledT (smRow (score (proj x1 Wk) (proj x2 Wk))) (proj x1 Wv)) Wo bo

/-! ## Arrays by coordinates -/

abbrev A3 : Shape := ⟨3, ![8, 2048, 128]⟩
abbrev A2 : Shape := ⟨2, ![128, 128]⟩
abbrev A1 : Shape := ⟨1, ![128]⟩

/-- Batch entry `b` of a `[8, 2048, 128]` array, as a matrix. -/
def slice (a : A3.Idx → EReal) (b : Fin 8) : Mat 2048 128 := fun n d => a (ix3 b n d)
/-- A `[128, 128]` array as a matrix. -/
def mat (a : A2.Idx → EReal) : Mat 128 128 := fun p q => a (ix2 p q)
/-- A `[128]` array as a vector. -/
def vec (a : A1.Idx → EReal) : Fin 128 → EReal := fun o => a (ix1 o)

/-- A `[8, 2048, 128]` array from a function of its coordinates. -/
def ofCoords (f : Fin 8 → Mat 2048 128) : A3.Idx → EReal := fun i => f (i 0) (i 1) (i 2)

theorem ofCoords_ix3 (f : Fin 8 → Mat 2048 128) (b : Fin 8) (n : Fin 2048) (o : Fin 128) :
    ofCoords f (ix3 b n o) = f b n o := rfl

/-- Every entry of the array is a real number. -/
def AllReal {s : Shape} (a : s.Idx → EReal) : Prop := ∀ i, ∃ r : ℝ, a i = (r : EReal)

/-- The two result arrays, directly. -/
def G1Direct (a0 a1 : A3.Idx → EReal) (a2 a3 a4 : A2.Idx → EReal) (a5 : A1.Idx → EReal) : A3.Idx → EReal :=
  ofCoords fun b => out1Direct (slice a0 b) (slice a1 b) (mat a2) (mat a3) (mat a4) (vec a5)
def G2Direct (a0 a1 : A3.Idx → EReal) (a2 a3 a4 : A2.Idx → EReal) (a5 : A1.Idx → EReal) : A3.Idx → EReal :=
  ofCoords fun b => out2Direct (slice a0 b) (slice a1 b) (mat a2) (mat a3) (mat a4) (vec a5)

/-- The two result arrays, tiled. -/
def G1Tiled (a0 a1 : A3.Idx → EReal) (a2 a3 a4 : A2.Idx → EReal) (a5 : A1.Idx → EReal) : A3.Idx → EReal :=
  ofCoords fun b => out1Tiled (slice a0 b) (slice a1 b) (mat a2) (mat a3) (mat a4) (vec a5)
def G2Tiled (a0 a1 : A3.Idx → EReal) (a2 a3 a4 : A2.Idx → EReal) (a5 : A1.Idx → EReal) : A3.Idx → EReal :=
  ofCoords fun b => out2Tiled (slice a0 b) (slice a1 b) (mat a2) (mat a3) (mat a4) (vec a5)

end Cert.CoAttn

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.LibColReduce.lean ====
/-
  Reductions down the rows of a matrix, read at one column on the extended reals. For an [R, C] matrix reduced along
  its first axis, the sum at column n is the sum over the rows of the entries of that column, and the maximum at
  column n is the fold of max, from the starting word's value, over the rows of the entries of that column. Both hold
  at any extents R and C; the indices are written by coordinates so that a caller meets no hidden index arithmetic.
-/
import Idealize.ShloMosaic.PureOps.Ideal.Laws
import Idealize.ShloMosaic.Lib.ValueIdx

noncomputable section

open scoped BigOperators

namespace Cert.Lib

open Idealize.ShloMosaic Idealize.ShloMosaic.ValueIdx

/-- A sum down the rows of an [R, C] matrix, at column n, is the sum over the rows of the entries of that column. -/
theorem colAdd_apply {R C : Nat} (src : FVec Ideal ⟨2, ![R, C]⟩ .f32)
    (h : Shape.Reduces (⟨2, ![R, C]⟩ : Shape) [0] ⟨1, ![C]⟩) (hφ : FKind.Formats .f32)
    (hacc : (0x00000000#32 : BitVec 32) = FKind.add.neutral .f32 hφ) (n : Fin C) :
    multiReduction .add [0] ⟨1, ![C]⟩ src 0x00000000#32 h hφ hacc (ix1 n) = ∑ a : Fin R, src (ix2 a n) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum down the rows of an [R, C] matrix, at column n, is the fold of max, from the starting word's value, over
    the rows of the entries of that column. -/
theorem colMax_apply {R C : Nat} (src : FVec Ideal ⟨2, ![R, C]⟩ .f32) (acc : BitVec 32)
    (h : Shape.Reduces (⟨2, ![R, C]⟩ : Shape) [0] ⟨1, ![C]⟩) (hφ : FKind.Formats .f32)
    (hacc : acc = FKind.maximumf.neutral .f32 hφ) (n : Fin C) :
    multiReduction .maximumf [0] ⟨1, ![C]⟩ src acc h hφ hacc (ix1 n)
      = (Finset.univ : Finset (Fin R)).fold max (Ideal.ofBits .f32 acc) (fun a => src (ix2 a n)) :=
  (Ideal.multiReduction_maximumf_single src acc h hφ hacc (ix1 n)).trans
    (congrArg (fun f => Finset.fold max (Ideal.ofBits .f32 acc) f (Finset.univ : Finset (Fin R)))
      (funext fun a => congrArg src (funext fun d => Fin.ext (by
        match d with
        | ⟨0, _⟩ => rfl
        | ⟨1, _⟩ => rfl))))

end Cert.Lib

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibMatmulTT.lean ====
/-
  A matrix product with BOTH operands read along their first axis, into the zero accumulator, read at one entry, at
  the ideal values.

  For ANY dimension numbers of a [K, R] × [K, C] → [R, C] product that contract the left operand's axis 0 with the
  right operand's axis 0 (one contracted axis, of extent K) and carry the left's axis 1 to the result's axis 0 and the
  right's axis 1 to the result's axis 1, any operand formats and any precision attribute: at the ideal values,
  `matmul` with the all-zero f32 accumulator has, at entry (p, q), the value
      Σ_{k < K} l(k, p) · r(k, q),
  the Gram product of the two operands' columns. The sum over the contraction shape's one-axis index type is
  re-indexed over `Fin K`, and the operand indices the dimension numbers read at result entry (p, q) and contracted
  position k are (k, p) and (k, q).

  The two hypotheses `hl1` and `hr1` say that the result's axis 0 is the left operand's axis 1 and the result's
  axis 1 the right operand's axis 1; for a printed record with no batch axes each is an unfolding of the record's
  index function on the literal axis lists. `hlc`, `hrc`, `hr`, `hs` are `rfl`. Imports only the library.
-/
import Idealize.ShloMosaic.PureOps.Ideal.Laws
import Idealize.ShloMosaic.Lib.ValueIdx

noncomputable section

namespace Cert.LibMatmulTT

open Idealize.ShloMosaic Idealize.ShloMosaic.ValueIdx

/-- `matmul D prec l r 0 (p, q) = Σ_k l(k, p) · r(k, q)` at the ideal values, for two-dimensional operands with one
    contracted axis: axis 0 of the left operand against axis 0 of the right. -/
theorem matmul_zero_tt_ix2 {R K C : Nat} {φ₁ φ₂ : FTy} (D : DotDims ⟨2, ![K, R]⟩ ⟨2, ![K, C]⟩ ⟨2, ![R, C]⟩)
    (hlc : D.lhsContracting = [0]) (hrc : D.rhsContracting = [0]) (hr : D.contr.rank = 1)
    (hs : D.contr.size ⟨0, by omega⟩ = K)
    (hl1 : ∀ (i : (⟨2, ![R, C]⟩ : Shape).Idx) (c : D.contr.Idx), (D.lhsIdx i c 1).val = (i 0).val)
    (hr1 : ∀ (i : (⟨2, ![R, C]⟩ : Shape).Idx) (c : D.contr.Idx), (D.rhsIdx i c 1).val = (i 1).val)
    (prec : Option ContractPrecision)
    (l : FVec Ideal ⟨2, ![K, R]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 k p) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 k p :=
    funext fun a => Fin.ext (by
      match a with
      | ⟨0, _⟩ => exact (D.lhsIdx_val_of_single hlc _ _).trans hk
      | ⟨1, _⟩ => exact hl1 _ _)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulTT

end
-- ==== Proof.LibMinFold.lean ====
/-
  Minimum-reductions and two keepdims layout forms, read at an index, for any extents.

  At the exact (extended-real) reading of floats, a `vector.multi_reduction <minimumf>` over ONE axis is, at each result
  index, the fold of `min` from the accumulator's value over that axis's coordinates; for an [R, C] matrix this is the
  fold down a column (axis 0) or along a row (axis 1) of the entries named by their two coordinates. The host's
  one-operand reduce with a minimum body over one axis of a rank-3 array reads the same way. Also: a vector [a] laid
  as a column [a, 1], and a column [a, 1] repeated along the lanes to [a, b], read at an entry.
-/
import Idealize.ShloMosaic.PureOps.Ideal.Laws
import Idealize.ShloMosaic.Lib.ValueIdx
import Idealize.ShloMosaic.Lib.Pipeline.Value

noncomputable section

namespace Cert.LibMinFold

open Idealize.ShloMosaic Idealize.ShloMosaic.ValueIdx

/-- A float `vector.multi_reduction <minimumf>` over one axis, read exactly: the fold of `min` from the accumulator's
    value over that axis's coordinates (the result index with the coordinate put back on the reduced axis). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Down the rows of an [R, C] matrix: at column `n`, the fold of `min` over the row coordinate. -/
theorem colMin_apply {R C : ℕ} (src : FVec Ideal ⟨2, ![R, C]⟩ .f32) (acc : BitVec 32)
    (h : (⟨2, ![R, C]⟩ : Shape).Reduces [0] ⟨1, ![C]⟩) (hφ : FKind.Formats .f32)
    (hacc : acc = FKind.minimumf.neutral .f32 hφ) (n : Fin C) :
    multiReduction .minimumf [0] ⟨1, ![C]⟩ src acc h hφ hacc (ix1 n)
      = (Finset.univ : Finset (Fin R)).fold min (Ideal.ofBits .f32 acc) (fun r => src (ix2 r n)) :=
  (multiReduction_minimumf_single src acc h hφ hacc (ix1 n)).trans (by
    show (Finset.univ : Finset (Fin R)).fold min _ _ = _
    congr 1
    funext r
    show src (h.lift (ix1 n) r) = src (ix2 r n)
    congr 1
    funext ax
    apply Fin.ext
    match ax with
    | ⟨0, _⟩ => rfl
    | ⟨1, _⟩ => rfl)

/-- Along the lanes of an [R, C] matrix: at row `p`, the fold of `min` over the column coordinate. -/
theorem rowMin_apply {R C : ℕ} (src : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ src acc h hφ hacc (ix1 p)
      = (Finset.univ : Finset (Fin C)).fold min (Ideal.ofBits .f32 acc) (fun k => src (ix2 p k)) :=
  (multiReduction_minimumf_single src acc h hφ hacc (ix1 p)).trans (by
    show (Finset.univ : Finset (Fin C)).fold min _ _ = _
    congr 1
    funext k
    show src (h.lift (ix1 p) k) = src (ix2 p k)
    congr 1
    funext ax
    apply Fin.ext
    match ax with
    | ⟨0, _⟩ => rfl
    | ⟨1, _⟩ => rfl)

/-- Down the rows of an [R, C] matrix, a `vector.multi_reduction <add>` at column `n`: the sum over the row coordinate. -/
theorem colAdd_apply {R C : ℕ} (src : FVec Ideal ⟨2, ![R, C]⟩ .f32) (acc : BitVec 32)
    (h : (⟨2, ![R, C]⟩ : Shape).Reduces [0] ⟨1, ![C]⟩) (hφ : FKind.Formats .f32)
    (hacc : acc = FKind.add.neutral .f32 hφ) (n : Fin C) :
    multiReduction .add [0] ⟨1, ![C]⟩ src acc h hφ hacc (ix1 n) = ∑ r : Fin R, src (ix2 r n) :=
  (Ideal.multiReduction_add_single src acc h hφ hacc (ix1 n)).trans (by
    show ∑ r : Fin R, src (h.lift (ix1 n) r) = _
    refine Finset.sum_congr rfl fun r _ => ?_
    congr 1
    funext ax
    apply Fin.ext
    match ax with
    | ⟨0, _⟩ => rfl
    | ⟨1, _⟩ => rfl)

/-- Along the lanes of an [R, C] matrix, a `vector.multi_reduction <add>` at row `p`: the sum over the column coordinate. -/
theorem rowAdd_apply {R C : ℕ} (src : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ src acc h hφ hacc (ix1 p) = ∑ k : Fin C, src (ix2 p k) :=
  (Ideal.multiReduction_add_single src acc h hφ hacc (ix1 p)).trans (by
    show ∑ k : Fin C, src (h.lift (ix1 p) k) = _
    refine Finset.sum_congr rfl fun k _ => ?_
    congr 1
    funext ax
    apply Fin.ext
    match ax with
    | ⟨0, _⟩ => rfl
    | ⟨1, _⟩ => rfl)

/-- A vector [a] laid as a column [a, 1] reads, at `(i, u)`, the vector at `i`. -/
theorem cast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] repeated along the lanes to [a, b] reads, at `(p, c)`, the column at row `p`. -/
theorem bcast_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibMinFold

end
-- ==== Proof.KerPay.lean ====
/-
  The body's arithmetic read at one entry, on the extended reals.

  Each store of the body writes a pure function of the values loaded before it. Here each such function is read at
  one entry by coordinates: a matrix product into the zero accumulator as a sum of products over the contracted
  axis, a reduction along an axis as a sum or a fold of max, a change of float format as the identity, a reshape
  that only adds or drops a unit axis as a renaming of coordinates.
-/
import proofs.«140224_j47897475285202_2_alg».proof.Proof.Gen.KernelIdeal.Skeleton
import proofs.«140224_j47897475285202_2_alg».proof.Proof.Forms
import proofs.«140224_j47897475285202_2_alg».proof.Proof.LibRowOps
import proofs.«140224_j47897475285202_2_alg».proof.Proof.LibColReduce
import proofs.«140224_j47897475285202_2_alg».proof.Proof.LibMatmulZero
import proofs.«140224_j47897475285202_2_alg».proof.Proof.LibMatmulTT
import proofs.«140224_j47897475285202_2_alg».proof.Proof.LibMinFold
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.CoAttn

/-! ## The five matrix products' dimension records -/

/-- `[2048,128] × [128,128]`: entry `(p, q)` is `Σ_k l (p, k) · r (k, q)`. -/
theorem mm_proj {φ₁ φ₂ : FTy} (l : FVec Ideal S2048x128 φ₁) (r : FVec Ideal S128x128 φ₂) (p : Fin 2048) (q : Fin 128) :
    matmul dot_S2048x128_S128x128_S2048x128_1_0_0_1_n_n none l r (constant S2048x128 .f32 0x00000000#32) (ix2 p q)
      = ∑ k : Fin 128, l (ix2 p k) * r (ix2 k q) :=
  Cert.LibMatmulZero.matmul_zero_ix2 dot_S2048x128_S128x128_S2048x128_1_0_0_1_n_n rfl rfl rfl rfl
    (fun i c => by
      unfold DotDims.lhsIdx
      rw [dif_neg (show ¬(0 : Fin _) ∈ dot_S2048x128_S128x128_S2048x128_1_0_0_1_n_n.lhsBatch by decide),
        dif_pos (show (0 : Fin _) ∈ dot_S2048x128_S128x128_S2048x128_1_0_0_1_n_n.lhsNonContracting by decide)]
      rfl)
    (fun i c => by
      unfold DotDims.rhsIdx
      rw [dif_neg (show ¬(1 : Fin _) ∈ dot_S2048x128_S128x128_S2048x128_1_0_0_1_n_n.rhsBatch by decide),
        dif_pos (show (1 : Fin _) ∈ dot_S2048x128_S128x128_S2048x128_1_0_0_1_n_n.rhsNonContracting by decide)]
      rfl)
    none l r p q

/-- The key (or value) projection of one batch entry: `x · Wᵀ`. -/
theorem pay12_apply (v0 : Vec Ideal S1x2048x128 .f32) (v6 : Vec Ideal S128x128 .f32) (n : Fin 2048) (k : Fin 128) :
    k0_pay12 v0 v6 (ix2 n k) = ∑ d : Fin 128, v0 (ix3 (0 : Fin 1) n d) * v6 (ix2 k d) := by
  unfold k0_pay12 k0_pay8 k0_pay6
  dsimp only
  rw [shapeCast_self]
  refine (mm_proj _ _ n k).trans ?_
  refine Finset.sum_congr rfl fun d _ => ?_
  rw [truncf_apply, shapeCast_1ab_ab_apply, transpose_ix2_apply, truncf_apply]

/-- The same product for the second node set's block. -/
theorem pay13_apply (v3 : Vec Ideal S1x2048x128 .f32) (v6 : Vec Ideal S128x128 .f32) (n : Fin 2048) (k : Fin 128) :
    k0_pay13 v3 v6 (ix2 n k) = ∑ d : Fin 128, v3 (ix3 (0 : Fin 1) n d) * v6 (ix2 k d) := by
  unfold k0_pay13 k0_pay8 k0_pay7
  dsimp only
  rw [shapeCast_self]
  refine (mm_proj _ _ n k).trans ?_
  refine Finset.sum_congr rfl fun d _ => ?_
  rw [truncf_apply, shapeCast_1ab_ab_apply, transpose_ix2_apply, truncf_apply]

/-- The value projection of the first node set's block. -/
theorem pay14_apply (v0 : Vec Ideal S1x2048x128 .f32) (v8 : Vec Ideal S128x128 .f32) (n : Fin 2048) (k : Fin 128) :
    k0_pay14 v0 v8 (ix2 n k) = ∑ d : Fin 128, v0 (ix3 (0 : Fin 1) n d) * v8 (ix2 k d) := by
  unfold k0_pay14 k0_pay9 k0_pay6
  dsimp only
  rw [shapeCast_self]
  refine (mm_proj _ _ n k).trans ?_
  refine Finset.sum_congr rfl fun d _ => ?_
  rw [truncf_apply, shapeCast_1ab_ab_apply, transpose_ix2_apply, truncf_apply]

/-- The value projection of the second node set's block. -/
theorem pay15_apply (v3 : Vec Ideal S1x2048x128 .f32) (v8 : Vec Ideal S128x128 .f32) (n : Fin 2048) (k : Fin 128) :
    k0_pay15 v3 v8 (ix2 n k) = ∑ d : Fin 128, v3 (ix3 (0 : Fin 1) n d) * v8 (ix2 k d) := by
  unfold k0_pay15 k0_pay9 k0_pay7
  dsimp only
  refine (mm_proj _ _ n k).trans ?_
  refine Finset.sum_congr rfl fun d _ => ?_
  rw [truncf_apply, shapeCast_1ab_ab_apply, transpose_ix2_apply, truncf_apply]

theorem pay16_eq (v32 : FVec Ideal S2048x128 .f32) : k0_pay16 v32 = v32 := by
  unfold k0_pay16; dsimp only; rw [shapeCast_self]

theorem pay1_eq (v60 : FVec Ideal S1x2048 .f32) : k0_pay1 v60 = v60 := by
  unfold k0_pay1; dsimp only; rw [shapeCast_self]

/-- The -inf word is the bottom of the extended reals. -/
theorem ofBits_neg_inf : Ideal.ofBits .f32 0xFF800000#32 = (⊥ : EReal) := by
  simp [Ideal.ofBits, Ideal.ieee]

/-- The word of 1.0 is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The running column maximum starts at bottom. -/
theorem pay17_apply (i : S1x2048.Idx) : k0_pay17 (F := Ideal) i = (⊥ : EReal) := by
  unfold k0_pay17; rw [shapeCast_self]; exact ofBits_neg_inf

/-- The aggregate's accumulator starts at zero. -/
theorem pay18_apply (i : S2048x128.Idx) : k0_pay18 (F := Ideal) i = (0 : EReal) := by
  unfold k0_pay18; rw [shapeCast_self]; exact Ideal.ofBits_zero_f32

/-- The running column sum starts at zero. -/
theorem pay24_apply (i : S1x2048.Idx) : k0_pay24 (F := Ideal) i = (0 : EReal) := by
  unfold k0_pay24; exact Ideal.ofBits_zero_f32

/-- `[512,128] × [2048,128]ᵀ`: entry `(p, q)` is `Σ_k l (p, k) · r (q, k)`. -/
theorem mm_score {φ₁ φ₂ : FTy} (l : FVec Ideal S512x128 φ₁) (r : FVec Ideal S2048x128 φ₂) (p : Fin 512) (q : Fin 2048) :
    matmul dot_S512x128_S2048x128_S512x2048_1_1_0_0_n_n none l r (constant S512x2048 .f32 0x00000000#32) (ix2 p q)
      = ∑ k : Fin 128, l (ix2 p k) * r (ix2 q k) :=
  Cert.LibRow.matmul_zero_nt_ix2 dot_S512x128_S2048x128_S512x2048_1_1_0_0_n_n rfl rfl rfl rfl
    (fun i c => by
      unfold DotDims.lhsIdx
      rw [dif_neg (show ¬(0 : Fin _) ∈ dot_S512x128_S2048x128_S512x2048_1_1_0_0_n_n.lhsBatch by decide),
        dif_pos (show (0 : Fin _) ∈ dot_S512x128_S2048x128_S512x2048_1_1_0_0_n_n.lhsNonContracting by decide)]
      rfl)
    (fun i c => by
      unfold DotDims.rhsIdx
      rw [dif_neg (show ¬(0 : Fin _) ∈ dot_S512x128_S2048x128_S512x2048_1_1_0_0_n_n.rhsBatch by decide),
        dif_pos (show (0 : Fin _) ∈ dot_S512x128_S2048x128_S512x2048_1_1_0_0_n_n.rhsNonContracting by decide)]
      rfl)
    none l r p q

/-- One tile of scores: rows of the tile's keys against all keys of the other node set. -/
theorem pay19_apply (v44 : Vec Ideal S2048x128 .bf16) (v75 : Vec Ideal S512x128 .bf16) (r : Fin 512) (m : Fin 2048) :
    k0_pay19 v44 v75 (ix2 r m) = ∑ d : Fin 128, v75 (ix2 r d) * v44 (ix2 m d) := by
  unfold k0_pay19
  exact mm_score _ _ r m

theorem pay20_eq (v44 : Vec Ideal S2048x128 .bf16) (v75 : Vec Ideal S512x128 .bf16) : k0_pay20 v44 v75 = k0_pay19 v44 v75 := by
  unfold k0_pay20; dsimp only; rw [shapeCast_self]

/-- One step of the running column maximum: the old value against the tile's column maximum. -/
theorem pay21_apply (v44 : Vec Ideal S2048x128 .bf16) (v75 : Vec Ideal S512x128 .bf16) (v83 : Vec Ideal S1x2048 .f32) (m : Fin 2048) :
    k0_pay21 v44 v75 v83 (ix2 (0 : Fin 1) m) = max (v83 (ix2 (0 : Fin 1) m)) (top fun r : Fin 512 => k0_pay19 v44 v75 (ix2 r m)) := by
  unfold k0_pay21
  dsimp only
  rw [shapeCast_self, maximumf_apply, shapeCast_a_1a_apply]
  refine congrArg (max (v83 (ix2 (0 : Fin 1) m))) ?_
  refine (Cert.Lib.colMax_apply (k0_pay19 v44 v75) 0xFF800000#32 reduces_S512x2048_S2048 _ _ m).trans ?_
  rw [ofBits_neg_inf]; rfl

/-! ## Leaky ReLU -/

/-- The select on `z ≥ 0` between `z` and `slope · z` is the leaky ReLU. -/
theorem lrelu_sel (z : EReal) :
    Scalar.select (FloatOps.cmpf (F := Ideal) (φ := .f32) .oge z (Ideal.ofBits .f32 0x00000000#32)) z
      (Ideal.ofBits .f32 0x3C23D70A#32 * z) = lrelu z := by
  unfold lrelu Cert.CoAttn.slope
  rw [Ideal.cmpf_def, Ideal.ofBits_zero_f32]
  unfold Ideal.cmp
  by_cases h : (0 : EReal) ≤ z
  · simp only [h, decide_true, if_true]; exact select_one _ _
  · simp only [h, decide_false, if_false]; exact select_zero _ _

/-! ## The output projections -/

/-- The second output's block from the finished aggregate: projection, bias, leaky ReLU. -/
theorem pay23_apply (v11 : FVec Ideal S128x128 .bf16) (v13 : FVec Ideal S1x128 .f32) (v46 : Vec Ideal S2048x128 .f32)
    (n : Fin 2048) (o : Fin 128) :
    k0_pay23 v11 v13 v46 (ix3 (0 : Fin 1) n o)
      = lrelu ((∑ d : Fin 128, v46 (ix2 n d) * v11 (ix2 o d)) + v13 (ix2 (0 : Fin 1) o)) := by
  unfold k0_pay23
  dsimp only
  rw [shapeCast_ab_1ab_apply, select_apply, cmpf_apply, mulf_apply, addf_apply, broadcast_apply, broadcast_apply,
    broadcastTo_1b_ab_apply]
  have e : matmul dot_S2048x128_S128x128_S2048x128_1_0_0_1_n_n none (truncf .bf16 v46 bitsLt_bf16_f32)
        (transpose S128x128 [1, 0] v11 transposes_S128x128_p1_0_S128x128) (constant S2048x128 .f32 0x00000000#32) (ix2 n o)
      = ∑ d : Fin 128, v46 (ix2 n d) * v11 (ix2 o d) :=
    (mm_proj _ _ n o).trans (Finset.sum_congr rfl fun d _ => by rw [truncf_apply, transpose_ix2_apply])
  rw [e]
  exact lrelu_sel _

end Cert.KernelIdeal.Pay

end
-- ==== Proof.KerCompose.lean ====
/-
  From the loops' trip-by-trip results to the tiled formulas.

  A tile load at trip `j` reads rows `512 j + r` of its buffer, so the tile of scores is the score matrix's rows of
  that tile, the running maximum after four trips is the four-fold maximum of the tiles' column maxima, and the
  accumulated aggregate is the running sum of the tiles' contributions.
-/
import proofs.«140224_j47897475285202_2_alg».proof.Proof.KerLoops
import proofs.«140224_j47897475285202_2_alg».proof.Proof.KerPay
import proofs.«140224_j47897475285202_2_alg».proof.Proof.Forms

set_option maxRecDepth 16384

noncomputable section

open scoped BigOperators

namespace Cert.KernelIdeal.KerCompose

open Cert.KernelIdeal Cert.KernelIdeal.Gen Cert.KernelIdeal.KerLoops Cert.KernelIdeal.Pay
open Idealize.ShloMosaic Idealize.ShloMosaic.ValueIdx Cert.CoAttn

/-! ## Where a tile's entries sit in the whole buffer -/

theorem idx1 (j : Fin 4) (r : Fin 512) (d : Fin 128) :
    (Rect.unit (s := S2048x128) (k0_off1 (k1 j)) S512x128.size (k0_off1_inb (k1 j))).emb (ix2 r d) = ix2 (row j r) d := by
  funext a
  refine Fin.ext ?_
  match a with
  | ⟨0, _⟩ =>
    show k0_off1 (k1 j) 0 + 1 * r.val = 512 * j.val + r.val
    rw [k0_off1_eq]; show 512 * j.val + 1 * r.val = _; omega
  | ⟨1, _⟩ =>
    show k0_off1 (k1 j) 1 + 1 * d.val = d.val
    rw [k0_off1_eq]; show 0 + 1 * d.val = _; omega

theorem idx2 (j : Fin 4) (r : Fin 512) (m : Fin 2048) :
    (Rect.unit (s := S2048x2048) (k0_off2 (k1 j)) S512x2048.size (k0_off2_inb (k1 j))).emb (ix2 r m) = ix2 (row j r) m := by
  funext a
  refine Fin.ext ?_
  match a with
  | ⟨0, _⟩ =>
    show k0_off2 (k1 j) 0 + 1 * r.val = 512 * j.val + r.val
    rw [k0_off2_eq]; show 512 * j.val + 1 * r.val = _; omega
  | ⟨1, _⟩ =>
    show k0_off2 (k1 j) 1 + 1 * m.val = m.val
    rw [k0_off2_eq]; show 0 + 1 * m.val = _; omega

theorem idx3 (j : Fin 4) (r : Fin 512) (m : Fin 2048) :
    (Rect.unit (s := S2048x2048) (k0_off3 (k2 j)) S512x2048.size (k0_off3_inb (k2 j))).emb (ix2 r m) = ix2 (row j r) m := by
  funext a
  refine Fin.ext ?_
  match a with
  | ⟨0, _⟩ =>
    show k0_off3 (k2 j) 0 + 1 * r.val = 512 * j.val + r.val
    rw [k0_off3_eq]; show 512 * j.val + 1 * r.val = _; omega
  | ⟨1, _⟩ =>
    show k0_off3 (k2 j) 1 + 1 * m.val = m.val
    rw [k0_off3_eq]; show 0 + 1 * m.val = _; omega

theorem idx4 (j : Fin 4) (r : Fin 512) (m : Fin 2048) :
    (Rect.unit (s := S2048x2048) (k0_off4 (k3 j)) S512x2048.size (k0_off4_inb (k3 j))).emb (ix2 r m) = ix2 (row j r) m := by
  funext a
  refine Fin.ext ?_
  match a with
  | ⟨0, _⟩ =>
    show k0_off4 (k3 j) 0 + 1 * r.val = 512 * j.val + r.val
    rw [k0_off4_eq]; show 512 * j.val + 1 * r.val = _; omega
  | ⟨1, _⟩ =>
    show k0_off4 (k3 j) 1 + 1 * m.val = m.val
    rw [k0_off4_eq]; show 0 + 1 * m.val = _; omega

theorem idx5 (j : Fin 4) (r : Fin 512) (o : Fin 128) :
    (Rect.unit (s := S1x2048x128) (k0_off5 (k3 j)) S1x512x128.size (k0_off5_inb (k3 j))).emb (ix3 (0 : Fin 1) r o)
      = ix3 (0 : Fin 1) (row j r) o := by
  funext a
  refine Fin.ext ?_
  match a with
  | ⟨0, _⟩ =>
    show k0_off5 (k3 j) 0 + 1 * 0 = 0
    rw [k0_off5_eq]; rfl
  | ⟨1, _⟩ =>
    show k0_off5 (k3 j) 1 + 1 * r.val = 512 * j.val + r.val
    rw [k0_off5_eq]; show 512 * j.val + 1 * r.val = _; omega
  | ⟨2, _⟩ =>
    show k0_off5 (k3 j) 2 + 1 * o.val = o.val
    rw [k0_off5_eq]; show 0 + 1 * o.val = _; omega

end Cert.KernelIdeal.KerCompose

end
-- ==== Proof.KerPay2.lean ====
/-
  The rest of the body's arithmetic read at one entry, on the extended reals: the exponentials of a tile of scores
  shifted by the finished column maxima, one step of the running column sum, one step of the transposed aggregate
  (each row of the tile normalised by its own largest entry and its own sum, then contracted over the tile's rows),
  and the first output's block (the normalised tile against the values, the output projection, the bias, the
  leaky ReLU).
-/
import proofs.«140224_j47897475285202_2_alg».proof.Proof.KerPay

noncomputable section

open scoped BigOperators

namespace Cert.KernelIdeal.Pay

open Cert.KernelIdeal Cert.KernelIdeal.Gen Idealize.ShloMosaic Idealize.ShloMosaic.ValueIdx Cert.CoAttn

/-! ## The three remaining matrix products' dimension records -/

/-- `[512,2048]ᵀ × [512,128]`: entry `(p, q)` is `Σ_k l (k, p) · r (k, q)`. -/
theorem mm_aggT {φ₁ φ₂ : FTy} (l : FVec Ideal S512x2048 φ₁) (r : FVec Ideal S512x128 φ₂) (p : Fin 2048) (q : Fin 128) :
    matmul dot_S512x2048_S512x128_S2048x128_0_0_1_1_n_n none l r (constant S2048x128 .f32 0x00000000#32) (ix2 p q)
      = ∑ k : Fin 512, l (ix2 k p) * r (ix2 k q) :=
  Cert.LibMatmulTT.matmul_zero_tt_ix2 dot_S512x2048_S512x128_S2048x128_0_0_1_1_n_n rfl rfl rfl rfl
    (fun i c => by
      unfold DotDims.lhsIdx
      rw [dif_neg (show ¬(1 : Fin _) ∈ dot_S512x2048_S512x128_S2048x128_0_0_1_1_n_n.lhsBatch by decide),
        dif_pos (show (1 : Fin _) ∈ dot_S512x2048_S512x128_S2048x128_0_0_1_1_n_n.lhsNonContracting by decide)]
      rfl)
    (fun i c => by
      unfold DotDims.rhsIdx
      rw [dif_neg (show ¬(1 : Fin _) ∈ dot_S512x2048_S512x128_S2048x128_0_0_1_1_n_n.rhsBatch by decide),
        dif_pos (show (1 : Fin _) ∈ dot_S512x2048_S512x128_S2048x128_0_0_1_1_n_n.rhsNonContracting by decide)]
      rfl)
    none l r p q

/-- `[512,2048] × [2048,128]`: entry `(p, q)` is `Σ_k l (p, k) · r (k, q)`. -/
theorem mm_agg {φ₁ φ₂ : FTy} (l : FVec Ideal S512x2048 φ₁) (r : FVec Ideal S2048x128 φ₂) (p : Fin 512) (q : Fin 128) :
    matmul dot_S512x2048_S2048x128_S512x128_1_0_0_1_n_n none l r (constant S512x128 .f32 0x00000000#32) (ix2 p q)
      = ∑ k : Fin 2048, l (ix2 p k) * r (ix2 k q) :=
  Cert.LibMatmulZero.matmul_zero_ix2 dot_S512x2048_S2048x128_S512x128_1_0_0_1_n_n rfl rfl rfl rfl
    (fun i c => by
      unfold DotDims.lhsIdx
      rw [dif_neg (show ¬(0 : Fin _) ∈ dot_S512x2048_S2048x128_S512x128_1_0_0_1_n_n.lhsBatch by decide),
        dif_pos (show (0 : Fin _) ∈ dot_S512x2048_S2048x128_S512x128_1_0_0_1_n_n.lhsNonContracting by decide)]
      rfl)
    (fun i c => by
      unfold DotDims.rhsIdx
      rw [dif_neg (show ¬(1 : Fin _) ∈ dot_S512x2048_S2048x128_S512x128_1_0_0_1_n_n.rhsBatch by decide),
        dif_pos (show (1 : Fin _) ∈ dot_S512x2048_S2048x128_S512x128_1_0_0_1_n_n.rhsNonContracting by decide)]
      rfl)
    none l r p q

/-- `[512,128] × [128,128]`: entry `(p, q)` is `Σ_k l (p, k) · r (k, q)`. -/
theorem mm_out {φ₁ φ₂ : FTy} (l : FVec Ideal S512x128 φ₁) (r : FVec Ideal S128x128 φ₂) (p : Fin 512) (q : Fin 128) :
    matmul dot_S512x128_S128x128_S512x128_1_0_0_1_n_n none l r (constant S512x128 .f32 0x00000000#32) (ix2 p q)
      = ∑ k : Fin 128, l (ix2 p k) * r (ix2 k q) :=
  Cert.LibMatmulZero.matmul_zero_ix2 dot_S512x128_S128x128_S512x128_1_0_0_1_n_n rfl rfl rfl rfl
    (fun i c => by
      unfold DotDims.lhsIdx
      rw [dif_neg (show ¬(0 : Fin _) ∈ dot_S512x128_S128x128_S512x128_1_0_0_1_n_n.lhsBatch by decide),
        dif_pos (show (0 : Fin _) ∈ dot_S512x128_S128x128_S512x128_1_0_0_1_n_n.lhsNonContracting by decide)]
      rfl)
    (fun i c => by
      unfold DotDims.rhsIdx
      rw [dif_neg (show ¬(1 : Fin _) ∈ dot_S512x128_S128x128_S512x128_1_0_0_1_n_n.rhsBatch by decide),
        dif_pos (show (1 : Fin _) ∈ dot_S512x128_S128x128_S512x128_1_0_0_1_n_n.rhsNonContracting by decide)]
      rfl)
    none l r p q

/-! ## The first output's tiles -/

/-- The exponential of a score shifted by its column's finished maximum. -/
theorem pay2_apply (v64 : Vec Ideal S1x2048 .f32) (v75 : Vec Ideal S512x2048 .f32) (r : Fin 512) (m : Fin 2048) :
    k0_pay2 v64 v75 (ix2 r m) = Ideal.exp (v75 (ix2 r m) - v64 (ix2 (0 : Fin 1) m)) := by
  unfold k0_pay2
  show Ideal.exp (subf (F := Ideal) (φ := .f32) v75 (broadcastTo S512x2048 v64 broadcasts_S1x2048_S512x2048) (ix2 r m)) = _
  rw [subf_apply, broadcastTo_1b_ab_apply]

/-- The stored tile of shifted exponentials. -/
theorem pay3_apply (v64 : Vec Ideal S1x2048 .f32) (v75 : Vec Ideal S512x2048 .f32) (r : Fin 512) (m : Fin 2048) :
    k0_pay3 v64 v75 (ix2 r m) = Ideal.exp (v75 (ix2 r m) - v64 (ix2 (0 : Fin 1) m)) := by
  unfold k0_pay3
  rw [shapeCast_self]
  exact pay2_apply v64 v75 r m

/-- One step of the running column sum: the old value plus the tile's column sum of shifted exponentials. -/
theorem pay4_apply (v64 : Vec Ideal S1x2048 .f32) (v75 : Vec Ideal S512x2048 .f32) (v83 : Vec Ideal S1x2048 .f32) (m : Fin 2048) :
    k0_pay4 v64 v75 v83 (ix2 (0 : Fin 1) m)
      = v83 (ix2 (0 : Fin 1) m) + ∑ r : Fin 512, Ideal.exp (v75 (ix2 r m) - v64 (ix2 (0 : Fin 1) m)) := by
  unfold k0_pay4
  dsimp only
  rw [shapeCast_self, addf_apply, shapeCast_a_1a_apply]
  refine congrArg (v83 (ix2 (0 : Fin 1) m) + ·) ?_
  refine (Cert.Lib.colAdd_apply (k0_pay2 v64 v75) reduces_S512x2048_S2048 _ _ m).trans ?_
  exact Finset.sum_congr rfl fun r _ => pay2_apply v64 v75 r m

/-! ## The second output's accumulation -/

/-- Row `r`'s largest score, over all the columns. -/
theorem rowTop_apply (P : FVec Ideal S512x2048 .f32) (r : Fin 512) :
    multiReduction .maximumf [1] S512 P 0xFF800000#32 reduces_S512x2048_S512 (.inl rfl) rfl (ix1 r)
      = top fun m' : Fin 2048 => P (ix2 r m') := by
  refine (Cert.LibRow.rowMax_apply P 0xFF800000#32 reduces_S512x2048_S512 _ _ r).trans ?_
  rw [ofBits_neg_inf]; rfl

/-- One step of the transposed aggregate: the old value plus, over the tile's rows, the row-normalised score
    (shifted exponential times the reciprocal of the row's sum) times the tile's value. -/
theorem pay22_apply (v44 : Vec Ideal S2048x128 .bf16) (v75 : Vec Ideal S512x128 .bf16) (v101 : Vec Ideal S512x128 .f32)
    (v104 : Vec Ideal S2048x128 .f32) (m : Fin 2048) (d : Fin 128) :
    k0_pay22 v44 v75 v101 v104 (ix2 m d) = v104 (ix2 m d) + ∑ r : Fin 512,
      (Ideal.exp (k0_pay19 v44 v75 (ix2 r m) - top fun m' : Fin 2048 => k0_pay19 v44 v75 (ix2 r m'))
         * Ideal.div 1 (∑ m' : Fin 2048, Ideal.exp (k0_pay19 v44 v75 (ix2 r m') - top fun m'' : Fin 2048 => k0_pay19 v44 v75 (ix2 r m''))))
        * v101 (ix2 r d) := by
  unfold k0_pay22
  dsimp only
  rw [shapeCast_self, addf_apply]
  refine congrArg (v104 (ix2 m d) + ·) ?_
  refine (mm_aggT _ _ m d).trans ?_
  refine Finset.sum_congr rfl fun r _ => ?_
  rw [truncf_apply, truncf_apply, mulf_apply]
  refine congrArg (· * v101 (ix2 r d)) ?_
  have hexp : ∀ c : Fin 2048,
      exp (subf (k0_pay19 v44 v75) (broadcastTo S512x2048 (shapeCast S512x1
          (multiReduction .maximumf [1] S512 (k0_pay19 v44 v75) 0xFF800000#32 reduces_S512x2048_S512 (.inl rfl) rfl)
          shapeCasts_S512_S512x1) broadcasts_S512x1_S512x2048)) (ix2 r c)
        = Ideal.exp (k0_pay19 v44 v75 (ix2 r c) - top fun m' : Fin 2048 => k0_pay19 v44 v75 (ix2 r m')) := fun c => by
    show Ideal.exp (subf (k0_pay19 v44 v75) _ (ix2 r c)) = _
    rw [subf_apply, Cert.LibRow.colBroadcast_apply]
    exact congrArg (fun t => Ideal.exp (k0_pay19 v44 v75 (ix2 r c) - t)) (rowTop_apply _ r)
  refine congrArg₂ (· * ·) (hexp m) ?_
  refine (Cert.LibMinFold.bcast_a1_ab_apply _ _ r m).trans ?_
  rw [divf_apply, broadcast_apply, Cert.LibMinFold.cast_a_a1_apply]
  refine congrArg₂ Ideal.div ofBits_one ?_
  refine (Cert.LibRow.rowAdd_apply _ reduces_S512x2048_S512 _ _ r).trans ?_
  exact Finset.sum_congr rfl fun c _ => hexp c

/-! ## The first output's block -/

/-- The first output's block from a stored tile of shifted exponentials, the finished column sums and the values:
    normalisation by the reciprocal of the column sum, aggregation, projection, bias, leaky ReLU. -/
theorem pay5_apply (v11 : FVec Ideal S128x128 .bf16) (v13 : FVec Ideal S1x128 .f32) (v66 : Vec Ideal S1x2048 .f32)
    (v69 : Vec Ideal S2048x128 .f32) (v75 : Vec Ideal S512x2048 .f32) (r : Fin 512) (o : Fin 128) :
    k0_pay5 v11 v13 v66 v69 v75 (ix3 (0 : Fin 1) r o)
      = lrelu ((∑ d : Fin 128, (∑ m : Fin 2048, (v75 (ix2 r m) * Ideal.div 1 (v66 (ix2 (0 : Fin 1) m))) * v69 (ix2 m d))
          * v11 (ix2 o d)) + v13 (ix2 (0 : Fin 1) o)) := by
  unfold k0_pay5
  dsimp only
  rw [shapeCast_ab_1ab_apply, select_apply, cmpf_apply, mulf_apply, addf_apply, broadcast_apply, broadcast_apply,
    broadcastTo_1b_ab_apply]
  have e : ∀ A : FVec Ideal S512x2048 .f32,
      matmul dot_S512x128_S128x128_S512x128_1_0_0_1_n_n none
          (truncf .bf16 (matmul dot_S512x2048_S2048x128_S512x128_1_0_0_1_n_n none (truncf .bf16 A bitsLt_bf16_f32)
            (truncf .bf16 v69 bitsLt_bf16_f32) (constant S512x128 .f32 0x00000000#32)) bitsLt_bf16_f32)
          (transpose S128x128 [1, 0] v11 transposes_S128x128_p1_0_S128x128) (constant S512x128 .f32 0x00000000#32) (ix2 r o)
        = ∑ d : Fin 128, (∑ m : Fin 2048, A (ix2 r m) * v69 (ix2 m d)) * v11 (ix2 o d) := fun A =>
    (mm_out _ _ r o).trans (Finset.sum_congr rfl fun d _ => by
      rw [truncf_apply, transpose_ix2_apply]
      refine congrArg (· * v11 (ix2 o d)) ?_
      exact (mm_agg _ _ r d).trans (Finset.sum_congr rfl fun m _ => by rw [truncf_apply, truncf_apply]))
  rw [e]
  have hA : ∀ m : Fin 2048,
      mulf v75 (broadcastTo S512x2048 (divf (broadcast S1x2048 (Scalar.ofBits (F := Ideal) .f32 0x3F800000#32)) v66)
          broadcasts_S1x2048_S512x2048) (ix2 r m)
        = v75 (ix2 r m) * Ideal.div 1 (v66 (ix2 (0 : Fin 1) m)) := fun m => by
    rw [mulf_apply, broadcastTo_1b_ab_apply, divf_apply, broadcast_apply]
    exact congrArg (fun t => v75 (ix2 r m) * Ideal.div t (v66 (ix2 (0 : Fin 1) m))) ofBits_one
  simp only [hA]
  exact lrelu_sel _

end Cert.KernelIdeal.Pay

end
-- ==== Proof.KerCompose7.lean ====
/-
  The second output's aggregate after the first loop: the running sum of the four tiles' contributions, each tile's
  rows of scores normalised along the row, is the tile-by-tile aggregate of the row-normalised score matrix.
-/
import proofs.«140224_j47897475285202_2_alg».proof.Proof.KerCompose
import proofs.«140224_j47897475285202_2_alg».proof.Proof.KerPay2

set_option maxRecDepth 16384

noncomputable section

open scoped BigOperators

namespace Cert.KernelIdeal.KerCompose

open Cert.KernelIdeal Cert.KernelIdeal.Gen Cert.KernelIdeal.KerLoops Cert.KernelIdeal.Pay
open Idealize.ShloMosaic Idealize.ShloMosaic.ValueIdx Cert.CoAttn

variable (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)

variable (v11 : FVec Ideal S128x128 .bf16) (v13 : FVec Ideal S1x128 .f32) (v32 : FVec Ideal S2048x128 .f32) (H2 : Vec Ideal S2048x128 .bf16)
  (X10 : BufTy.Contents (Elt Ideal) arg10.view.ty) (X12 : BufTy.Contents (Elt Ideal) arg12.view.ty)
  (G9 : BufTy.Contents (Elt Ideal) arg9.view.ty) (G14 : BufTy.Contents (Elt Ideal) arg14.view.ty) (G15 : BufTy.Contents (Elt Ideal) arg15.view.ty)

/-- After the four trips the aggregate's buffer holds the tile-by-tile aggregate of the row-normalised scores. -/
theorem agg_final (E : Mat 2048 2048) (V1 : Mat 2048 128)
    (hE : ∀ (j : Fin 4) (r : Fin 512) (m : Fin 2048), k0_pay19 H2 (keys1 arg10 X10 (k1 j)) (ix2 r m) = E (row j r) m)
    (hV : ∀ (j : Fin 4) (r : Fin 512) (d : Fin 128), vals1 arg12 X12 (k1 j) (ix2 r d) = V1 (row j r) d)
    (h14 : ∀ (m : Fin 2048) (d : Fin 128), arg14.view.read (Elt Ideal) G14 (ix2 m d) = 0) (m : Fin 2048) (d : Fin 128) :
    aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 4 (ix2 m d) = aggTiledT (smRow E) V1 m d := by
  show aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 ((k1 3).val + 1) (ix2 m d) = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 (k1 3), pay22_apply]
  show aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 ((k1 2).val + 1) (ix2 m d) + _ = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 (k1 2), pay22_apply]
  show aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 ((k1 1).val + 1) (ix2 m d) + _ + _ = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 (k1 1), pay22_apply]
  show aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 ((k1 0).val + 1) (ix2 m d) + _ + _ + _ = _
  rw [aggAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 (k1 0), pay22_apply]
  show aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 0 (ix2 m d) + _ + _ + _ + _ = _
  rw [aggAt_zero, h14]
  simp only [hE, hV]
  rfl

/-- So the second output block, from the finished aggregate. -/
theorem out7_final (E : Mat 2048 2048) (V1 : Mat 2048 128)
    (hE : ∀ (j : Fin 4) (r : Fin 512) (m : Fin 2048), k0_pay19 H2 (keys1 arg10 X10 (k1 j)) (ix2 r m) = E (row j r) m)
    (hV : ∀ (j : Fin 4) (r : Fin 512) (d : Fin 128), vals1 arg12 X12 (k1 j) (ix2 r d) = V1 (row j r) d)
    (h14 : ∀ (m : Fin 2048) (d : Fin 128), arg14.view.read (Elt Ideal) G14 (ix2 m d) = 0) (n : Fin 2048) (o : Fin 128) :
    k0_pay23 v11 v13 (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 4) (ix3 (0 : Fin 1) n o)
      = lrelu ((∑ d : Fin 128, aggTiledT (smRow E) V1 n d * v11 (ix2 o d)) + v13 (ix2 (0 : Fin 1) o)) := by
  rw [pay23_apply]
  simp only [agg_final 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 E V1 hE hV h14]

end Cert.KernelIdeal.KerCompose

end
-- ==== Proof.KerIdent.lean ====
/-
  The buffers' contents as functions of the point's input blocks: the key and value projections are `x · Wᵀ`, a tile
  of keys against all the other keys is the score matrix's rows of that tile, and the second output block is the tiled
  spelling of the second message.
-/
import proofs.«140224_j47897475285202_2_alg».proof.Proof.KerCompose7

set_option maxRecDepth 16384

noncomputable section

open scoped BigOperators

namespace Cert.KernelIdeal.KerOut

open Cert.KernelIdeal Idealize.ShloMosaic Idealize.ShloMosaic.ValueIdx Cert.CoAttn

/-- A `[1, 2048, 128]` block as a matrix. -/
def blk (x : Vec Ideal S1x2048x128 .f32) : Mat 2048 128 := fun p d => x (ix3 (0 : Fin 1) p d)
/-- A `[128, 128]` block as a matrix. -/
def wt (x : Vec Ideal S128x128 .f32) : Mat 128 128 := fun p q => x (ix2 p q)
/-- A `[128]` block as a vector. -/
def bias (x : Vec Ideal S128 .f32) : Fin 128 → EReal := fun q => x (ix1 q)

end Cert.KernelIdeal.KerOut

namespace Cert.KernelIdeal.KerCompose

open Cert.KernelIdeal Cert.KernelIdeal.Gen Cert.KernelIdeal.KerLoops Cert.KernelIdeal.Pay Cert.KernelIdeal.KerOut
open Idealize.ShloMosaic Idealize.ShloMosaic.ValueIdx Cert.CoAttn

variable (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)

/-! ## Tile loads as rows of the whole buffer -/

theorem keys1_at (X10 : BufTy.Contents (Elt Ideal) arg10.view.ty) (j : Fin 4) (r : Fin 512) (d : Fin 128) :
    keys1 arg10 X10 (k1 j) (ix2 r d) = arg10.view.read (Elt Ideal) X10 (ix2 (row j r) d) := by
  rw [← idx1]; rfl

theorem vals1_at (X12 : BufTy.Contents (Elt Ideal) arg12.view.ty) (j : Fin 4) (r : Fin 512) (d : Fin 128) :
    vals1 arg12 X12 (k1 j) (ix2 r d) = arg12.view.read (Elt Ideal) X12 (ix2 (row j r) d) := by
  rw [← idx1]; rfl

theorem tile2_at (G9 : BufTy.Contents (Elt Ideal) arg9.view.ty) (j : Fin 4) (r : Fin 512) (m : Fin 2048) :
    tile2 arg9 G9 (k2 j) (ix2 r m) = arg9.view.read (Elt Ideal) G9 (ix2 (row j r) m) := by
  rw [← idx3]; rfl

theorem tile3_at (X9 : BufTy.Contents (Elt Ideal) arg9.view.ty) (j : Fin 4) (r : Fin 512) (m : Fin 2048) :
    tile3 arg9 X9 (k3 j) (ix2 r m) = arg9.view.read (Elt Ideal) X9 (ix2 (row j r) m) := by
  rw [← idx4]; rfl

/-! ## The projections and the scores -/

variable (x0 x1 : Vec Ideal S1x2048x128 .f32) (x2 x3 x4 : Vec Ideal S128x128 .f32) (x5 : Vec Ideal S128 .f32)

theorem pay12_proj (n : Fin 2048) (k : Fin 128) : k0_pay12 x0 x2 (ix2 n k) = proj (blk x0) (wt x2) n k := pay12_apply x0 x2 n k
theorem pay13_proj (n : Fin 2048) (k : Fin 128) : k0_pay13 x1 x2 (ix2 n k) = proj (blk x1) (wt x2) n k := pay13_apply x1 x2 n k
theorem pay14_proj (n : Fin 2048) (k : Fin 128) : k0_pay14 x0 x3 (ix2 n k) = proj (blk x0) (wt x3) n k := pay14_apply x0 x3 n k
theorem pay15_proj (n : Fin 2048) (k : Fin 128) : k0_pay15 x1 x3 (ix2 n k) = proj (blk x1) (wt x3) n k := pay15_apply x1 x3 n k

theorem pay10_at (o d : Fin 128) : k0_pay10 x4 (ix2 o d) = wt x4 o d := by
  unfold k0_pay10; rfl

theorem pay11_at (o : Fin 128) : k0_pay11 x5 (ix2 (0 : Fin 1) o) = bias x5 o := by
  unfold k0_pay11
  exact shapeCast_a_1a_apply _ _ _ _

/-- A tile of the kernel's scores is the score matrix's rows of that tile. -/
theorem scores_of (X10 : BufTy.Contents (Elt Ideal) arg10.view.ty)
    (h10 : arg10.view.read (Elt Ideal) X10 = k0_pay12 x0 x2) (j : Fin 4) (r : Fin 512) (m : Fin 2048) :
    k0_pay19 (k0_pay13 x1 x2) (keys1 arg10 X10 (k1 j)) (ix2 r m)
      = score (proj (blk x0) (wt x2)) (proj (blk x1) (wt x2)) (row j r) m := by
  rw [pay19_apply]
  unfold score
  refine Finset.sum_congr rfl fun d _ => ?_
  rw [keys1_at, h10, pay12_proj, pay13_proj]

/-- A tile of values is the value projection's rows of that tile. -/
theorem vals_of (X12 : BufTy.Contents (Elt Ideal) arg12.view.ty)
    (h12 : arg12.view.read (Elt Ideal) X12 = k0_pay14 x0 x3) (j : Fin 4) (r : Fin 512) (d : Fin 128) :
    vals1 arg12 X12 (k1 j) (ix2 r d) = proj (blk x0) (wt x3) (row j r) d := by
  rw [vals1_at, h12, pay14_proj]

/-! ## The second output block -/

/-- The second output block, from buffers holding the projections and a zeroed accumulator, is the tiled second message. -/
theorem out7_of (X10 : BufTy.Contents (Elt Ideal) arg10.view.ty) (X12 : BufTy.Contents (Elt Ideal) arg12.view.ty)
    (G9 : BufTy.Contents (Elt Ideal) arg9.view.ty) (G14 : BufTy.Contents (Elt Ideal) arg14.view.ty) (G15 : BufTy.Contents (Elt Ideal) arg15.view.ty)
    (h10 : arg10.view.read (Elt Ideal) X10 = k0_pay12 x0 x2) (h12 : arg12.view.read (Elt Ideal) X12 = k0_pay14 x0 x3)
    (h14 : ∀ (m : Fin 2048) (d : Fin 128), arg14.view.read (Elt Ideal) G14 (ix2 m d) = 0) (n : Fin 2048) (o : Fin 128) :
    k0_pay23 (k0_pay10 x4) (k0_pay11 x5) (aggAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) (k0_pay15 x1 x3) (k0_pay13 x1 x2) X10 X12 G9 G14 G15 4) (ix3 (0 : Fin 1) n o)
      = out2Tiled (blk x0) (blk x1) (wt x2) (wt x3) (wt x4) (bias x5) n o := by
  rw [out7_final 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) (k0_pay15 x1 x3) (k0_pay13 x1 x2) X10 X12 G9 G14 G15
    (score (proj (blk x0) (wt x2)) (proj (blk x1) (wt x2))) (proj (blk x0) (wt x3))
    (scores_of arg10 x0 x1 x2 X10 h10) (vals_of arg12 x0 x3 X12 h12) h14]
  unfold out2Tiled outRow
  simp only [pay10_at, pay11_at]

end Cert.KernelIdeal.KerCompose

end
-- ==== Proof.BridgeSums.lean ====
/-
  Re-indexing a sum over 2048 rows as four tiles of 512 rows.

  The map  (c, r) ↦ 512·c + r  is a bijection from  Fin 4 × Fin 512  onto  Fin 2048  (quotient and remainder by 512
  invert it).  Hence a sum over all 2048 rows is the sum over the four tiles of each tile's sum, in any additive
  commutative monoid, and the running sum  (((0 + s₀) + s₁) + s₂) + s₃  of the four tile sums is that sum.
  No finiteness is involved.
-/
import proofs.«140224_j47897475285202_2_alg».proof.Proof.Forms

open scoped BigOperators

namespace Cert.CoAttn

/-- Tile and row within the tile, against the row among all 2048. -/
def tileEquiv : Fin 4 × Fin 512 ≃ Fin 2048 where
  toFun p := row p.1 p.2
  invFun i := (⟨i.val / 512, by omega⟩, ⟨i.val % 512, by omega⟩)
  left_inv := by
    rintro ⟨c, r⟩
    refine Prod.ext (Fin.ext ?_) (Fin.ext ?_)
    · show (512 * c.val + r.val) / 512 = c.val
      omega
    · show (512 * c.val + r.val) % 512 = r.val
      omega
  right_inv := by
    intro i
    refine Fin.ext ?_
    show 512 * (i.val / 512) + i.val % 512 = i.val
    omega

@[simp] theorem tileEquiv_apply (c : Fin 4) (r : Fin 512) : tileEquiv (c, r) = row c r := rfl

/-- Every row is some row of some tile. -/
theorem exists_row (i : Fin 2048) : ∃ c r, row c r = i :=
  ⟨(tileEquiv.symm i).1, (tileEquiv.symm i).2, tileEquiv.apply_symm_apply i⟩

/-- A sum over the 2048 rows, tile by tile. -/
theorem sum_rows {M : Type*} [AddCommMonoid M] (f : Fin 2048 → M) :
    ∑ c : Fin 4, ∑ r : Fin 512, f (row c r) = ∑ i : Fin 2048, f i := by
  rw [← Fintype.sum_prod_type' (f := fun c r => f (row c r))]
  exact Fintype.sum_equiv tileEquiv _ _ fun _ => rfl

/-- The running sum of four terms from zero is their sum. -/
theorem acc4_eq_sum (g : Fin 4 → EReal) : acc4 g = ∑ c : Fin 4, g c := by
  rw [acc4, zero_add, Fin.sum_univ_four]

/-- The running sum of the four tile sums is the sum over all 2048 rows. -/
theorem acc4_rows (f : Fin 2048 → EReal) :
    acc4 (fun c => ∑ r : Fin 512, f (row c r)) = ∑ i : Fin 2048, f i := by
  rw [acc4_eq_sum, sum_rows]

end Cert.CoAttn
-- ==== Proof.KerCompose6.lean ====
/-
  The first output, from the loops' trip-by-trip results to the tiled formula.

  After its four trips the first loop's running column maximum is the four-fold maximum of the tiles' column
  maxima; the second loop leaves in the score buffer the exponentials of the scores shifted by those maxima and in
  its running sum the four-fold running sum of the tiles' column sums of exponentials; the third loop writes, tile
  by tile, the rows of the first output: the stored exponentials times the reciprocal of the column sums, against
  the values, through the output projection, the bias and the leaky ReLU. Every row of the 2048 is a row of a tile.
-/
import proofs.«140224_j47897475285202_2_alg».proof.Proof.KerCompose
import proofs.«140224_j47897475285202_2_alg».proof.Proof.KerLoops
import proofs.«140224_j47897475285202_2_alg».proof.Proof.KerPay2
import proofs.«140224_j47897475285202_2_alg».proof.Proof.Forms
import proofs.«140224_j47897475285202_2_alg».proof.Proof.BridgeSums

set_option maxRecDepth 16384

noncomputable section

open scoped BigOperators

namespace Cert.KernelIdeal.KerCompose

open Cert.KernelIdeal Cert.KernelIdeal.Gen Cert.KernelIdeal.KerLoops Cert.KernelIdeal.Pay
open Idealize.ShloMosaic Idealize.ShloMosaic.ValueIdx Cert.CoAttn

variable (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)

/-! ## A tile load at an entry is the buffer's read at the tile's row -/

/-- The tile of keys the first loop's trip `j` loads, at `(r, d)`: the key buffer at row `512 j + r`. -/
theorem keys1_apply (X10 : BufTy.Contents (Elt Ideal) arg10.view.ty) (j : Fin 4) (r : Fin 512) (d : Fin 128) :
    keys1 arg10 X10 (k1 j) (ix2 r d) = arg10.view.read (Elt Ideal) X10 (ix2 (row j r) d) :=
  congrArg (arg10.view.read (Elt Ideal) X10) (idx1 j r d)

/-- The tile of the score buffer the second loop's trip `j` finds, at `(r, m)`: the buffer at row `512 j + r`. -/
theorem tile2_apply (G9 : BufTy.Contents (Elt Ideal) arg9.view.ty) (j : Fin 4) (r : Fin 512) (m : Fin 2048) :
    tile2 arg9 G9 (k2 j) (ix2 r m) = arg9.view.read (Elt Ideal) G9 (ix2 (row j r) m) :=
  congrArg (arg9.view.read (Elt Ideal) G9) (idx3 j r m)

/-- The tile of the score buffer the third loop's trip `j` loads, at `(r, m)`: the buffer at row `512 j + r`. -/
theorem tile3_apply (X9 : BufTy.Contents (Elt Ideal) arg9.view.ty) (j : Fin 4) (r : Fin 512) (m : Fin 2048) :
    tile3 arg9 X9 (k3 j) (ix2 r m) = arg9.view.read (Elt Ideal) X9 (ix2 (row j r) m) :=
  congrArg (arg9.view.read (Elt Ideal) X9) (idx4 j r m)

/-! ## The first loop: the finished column maximum -/

/-- After the four trips the running column maximum, started at `⊥`, is the tile-by-tile column maximum. -/
theorem cmax_final (v11 : FVec Ideal S128x128 .bf16) (v13 : FVec Ideal S1x128 .f32) (v32 : FVec Ideal S2048x128 .f32)
    (H2 : Vec Ideal S2048x128 .bf16)
    (X10 : BufTy.Contents (Elt Ideal) arg10.view.ty) (X12 : BufTy.Contents (Elt Ideal) arg12.view.ty)
    (G9 : BufTy.Contents (Elt Ideal) arg9.view.ty) (G14 : BufTy.Contents (Elt Ideal) arg14.view.ty)
    (G15 : BufTy.Contents (Elt Ideal) arg15.view.ty) (E : Mat 2048 2048)
    (hE : ∀ (j : Fin 4) (r : Fin 512) (m : Fin 2048), k0_pay19 H2 (keys1 arg10 X10 (k1 j)) (ix2 r m) = E (row j r) m)
    (h15 : ∀ m : Fin 2048, arg15.view.read (Elt Ideal) G15 (ix2 (0 : Fin 1) m) = ⊥) (m : Fin 2048) :
    cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 4 (ix2 (0 : Fin 1) m) = colTopTiled E m := by
  have hstep : ∀ j : Fin 4,
      cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 (j.val + 1) (ix2 (0 : Fin 1) m)
        = max (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 j.val (ix2 (0 : Fin 1) m)) (top fun r : Fin 512 => E (row j r) m) := fun j => by
    have hs := cmaxAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 (k1 j)
    refine (congrFun hs (ix2 (0 : Fin 1) m)).trans ?_
    refine (pay21_apply H2 (keys1 arg10 X10 (k1 j)) _ m).trans ?_
    exact congrArg (max _) (congrArg top (funext fun r => hE j r m))
  have h4 : cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 4 (ix2 (0 : Fin 1) m) = max (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 3 (ix2 (0 : Fin 1) m)) (top fun r : Fin 512 => E (row 3 r) m) := hstep 3
  have h3 : cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 3 (ix2 (0 : Fin 1) m) = max (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 2 (ix2 (0 : Fin 1) m)) (top fun r : Fin 512 => E (row 2 r) m) := hstep 2
  have h2 : cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 2 (ix2 (0 : Fin 1) m) = max (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 1 (ix2 (0 : Fin 1) m)) (top fun r : Fin 512 => E (row 1 r) m) := hstep 1
  have h1 : cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 1 (ix2 (0 : Fin 1) m) = max (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 0 (ix2 (0 : Fin 1) m)) (top fun r : Fin 512 => E (row 0 r) m) := hstep 0
  have h0 : cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v32 H2 X10 X12 G9 G14 G15 0 (ix2 (0 : Fin 1) m) = ⊥ := h15 m
  rw [h4, h3, h2, h1, h0]
  rfl

/-! ## The second loop: the finished column sum and the stored exponentials -/

/-- After the four trips the running column sum, started at zero, is the tile-by-tile sum of the exponentials of the
    scores shifted by `T`. -/
theorem csum_final (v64 : Vec Ideal S1x2048 .f32)
    (G9 : BufTy.Contents (Elt Ideal) arg9.view.ty) (G16 : BufTy.Contents (Elt Ideal) arg16.view.ty)
    (E : Mat 2048 2048) (T : Fin 2048 → EReal)
    (h9 : ∀ (j : Fin 4) (r : Fin 512) (m : Fin 2048), arg9.view.read (Elt Ideal) G9 (ix2 (row j r) m) = E (row j r) m)
    (h64 : ∀ m, v64 (ix2 (0 : Fin 1) m) = T m)
    (h16 : ∀ m, arg16.view.read (Elt Ideal) G16 (ix2 (0 : Fin 1) m) = 0) (m : Fin 2048) :
    csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4 (ix2 (0 : Fin 1) m) = acc4 fun c' => ∑ r : Fin 512, Ideal.exp (E (row c' r) m - T m) := by
  have hstep : ∀ j : Fin 4,
      csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (j.val + 1) (ix2 (0 : Fin 1) m)
        = csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 j.val (ix2 (0 : Fin 1) m) + ∑ r : Fin 512, Ideal.exp (E (row j r) m - T m) := fun j => by
    have hs := csumAt_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 j)
    refine (congrFun hs (ix2 (0 : Fin 1) m)).trans ?_
    refine (pay4_apply v64 (tile2 arg9 G9 (k2 j)) _ m).trans ?_
    refine congrArg (_ + ·) (Finset.sum_congr rfl fun r _ => ?_)
    rw [tile2_apply, h9, h64]
  have h4 : csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4 (ix2 (0 : Fin 1) m) = csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 3 (ix2 (0 : Fin 1) m) + ∑ r : Fin 512, Ideal.exp (E (row 3 r) m - T m) := hstep 3
  have h3 : csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 3 (ix2 (0 : Fin 1) m) = csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 2 (ix2 (0 : Fin 1) m) + ∑ r : Fin 512, Ideal.exp (E (row 2 r) m - T m) := hstep 2
  have h2 : csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 2 (ix2 (0 : Fin 1) m) = csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 1 (ix2 (0 : Fin 1) m) + ∑ r : Fin 512, Ideal.exp (E (row 1 r) m - T m) := hstep 1
  have h1 : csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 1 (ix2 (0 : Fin 1) m) = csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 0 (ix2 (0 : Fin 1) m) + ∑ r : Fin 512, Ideal.exp (E (row 0 r) m - T m) := hstep 0
  have h0 : csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 0 (ix2 (0 : Fin 1) m) = 0 := h16 m
  rw [h4, h3, h2, h1, h0]
  rfl

/-- After the four trips the score buffer holds, at every row of every tile, the exponential of the score shifted by `T`. -/
theorem exps_final (v64 : Vec Ideal S1x2048 .f32)
    (G9 : BufTy.Contents (Elt Ideal) arg9.view.ty) (G16 : BufTy.Contents (Elt Ideal) arg16.view.ty)
    (E : Mat 2048 2048) (T : Fin 2048 → EReal)
    (h9 : ∀ (j : Fin 4) (r : Fin 512) (m : Fin 2048), arg9.view.read (Elt Ideal) G9 (ix2 (row j r) m) = E (row j r) m)
    (h64 : ∀ m, v64 (ix2 (0 : Fin 1) m) = T m) (j : Fin 4) (r : Fin 512) (m : Fin 2048) :
    arg9.view.read (Elt Ideal) (arg9.view.writes (Elt Ideal) G9 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4).1) (ix2 (row j r) m)
      = Ideal.exp (E (row j r) m - T m) := by
  refine (congrArg (arg9.view.read (Elt Ideal) (arg9.view.writes (Elt Ideal) G9 (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 4).1)) (idx3 j r m).symm).trans ?_
  refine (exps_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v64 G9 G16 (k2 j) (ix2 r m)).trans ?_
  rw [pay3_apply, tile2_apply, h9, h64]

/-! ## The third loop: the first output's rows -/

/-- After the four trips, through any view of the output block, row `512 j + r` holds the first output's entry: the
    stored tile `P` times the reciprocal of `S`, against the values, the output projection, the bias, the leaky ReLU. -/
theorem out6_final (v11 : FVec Ideal S128x128 .bf16) (v13 : FVec Ideal S1x128 .f32) (v66 : Vec Ideal S1x2048 .f32)
    (v69 : Vec Ideal S2048x128 .f32) (X9 : BufTy.Contents (Elt Ideal) arg9.view.ty)
    (P : Mat 2048 2048) (S : Fin 2048 → EReal)
    (h9 : ∀ (j : Fin 4) (r : Fin 512) (m : Fin 2048), arg9.view.read (Elt Ideal) X9 (ix2 (row j r) m) = P (row j r) m)
    (h66 : ∀ m, v66 (ix2 (0 : Fin 1) m) = S m)
    {sig' : RefSig} {κ' : Kind} {sp' : Space} (v : View sig' κ' sp' S1x2048x128 .f32) (G : v.ty.Contents (Elt Ideal))
    (j : Fin 4) (r : Fin 512) (o : Fin 128) :
    v.read (Elt Ideal) (v.writes (Elt Ideal) G (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 4)) (ix3 (0 : Fin 1) (row j r) o)
      = lrelu ((∑ d : Fin 128, (∑ m : Fin 2048, (P (row j r) m * Ideal.div 1 (S m)) * v69 (ix2 m d)) * v11 (ix2 o d))
          + v13 (ix2 (0 : Fin 1) o)) := by
  refine (congrArg (v.read (Elt Ideal) (v.writes (Elt Ideal) G (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 4))) (idx5 j r o).symm).trans ?_
  refine (out_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v11 v13 v66 v69 X9 v G (k3 j) (ix3 (0 : Fin 1) r o)).trans ?_
  refine (pay5_apply v11 v13 v66 v69 (tile3 arg9 X9 (k3 j)) r o).trans ?_
  refine congrArg lrelu (congrArg (· + v13 (ix2 (0 : Fin 1) o)) ?_)
  refine Finset.sum_congr rfl fun d _ => congrArg (· * v11 (ix2 o d)) ?_
  refine Finset.sum_congr rfl fun m _ => ?_
  rw [tile3_apply, h9, h66]

/-! ## Every row is a row of a tile -/

/-- Every row of the 2048 is row `r` of tile `j` for some `j` and `r`. -/
theorem exists_tile_row (n : Fin 2048) : ∃ (j : Fin 4) (r : Fin 512), n = row j r := by
  obtain ⟨j, r, h⟩ := Cert.CoAttn.exists_row n
  exact ⟨j, r, h.symm⟩

end Cert.KernelIdeal.KerCompose

end
-- ==== Proof.KerIdent6.lean ====
/-
  The first output block as the tiled spelling of the first message: the score buffer after the first loop holds the
  scores, the running maximum their column maxima tile by tile, the second loop leaves the exponentials and their
  running column sums, and the third loop normalises, aggregates, projects and applies the leaky ReLU tile by tile.
-/
import proofs.«140224_j47897475285202_2_alg».proof.Proof.KerIdent
import proofs.«140224_j47897475285202_2_alg».proof.Proof.KerCompose6

set_option maxRecDepth 16384

noncomputable section

open scoped BigOperators

namespace Cert.KernelIdeal.KerCompose

open Cert.KernelIdeal Cert.KernelIdeal.Gen Cert.KernelIdeal.KerLoops Cert.KernelIdeal.Pay Cert.KernelIdeal.KerOut
open Idealize.ShloMosaic Idealize.ShloMosaic.ValueIdx Cert.CoAttn

variable (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)

variable (x0 x1 : Vec Ideal S1x2048x128 .f32) (x2 x3 x4 : Vec Ideal S128x128 .f32) (x5 : Vec Ideal S128 .f32)
  (X10 : BufTy.Contents (Elt Ideal) arg10.view.ty) (X12 : BufTy.Contents (Elt Ideal) arg12.view.ty)
  (G9 : BufTy.Contents (Elt Ideal) arg9.view.ty) (G14 : BufTy.Contents (Elt Ideal) arg14.view.ty) (G15 : BufTy.Contents (Elt Ideal) arg15.view.ty)
  (G16 : BufTy.Contents (Elt Ideal) arg16.view.ty)

/-- The score matrix of the point's blocks. -/
abbrev EE : Mat 2048 2048 := score (proj (blk x0) (wt x2)) (proj (blk x1) (wt x2))

/-- The score buffer after the first loop. -/
abbrev G9' : BufTy.Contents (Elt Ideal) arg9.view.ty := arg9.view.writes (Elt Ideal) G9 (pb1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) (k0_pay15 x1 x3) (k0_pay13 x1 x2) X10 X12 G9 G14 G15 4).1

/-- After the first loop the score buffer holds the scores. -/
theorem scores_final (h10 : arg10.view.read (Elt Ideal) X10 = k0_pay12 x0 x2) (j : Fin 4) (r : Fin 512) (m : Fin 2048) :
    arg9.view.read (Elt Ideal) (G9' 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 X10 X12 G9 G14 G15) (ix2 (row j r) m) = EE x0 x1 x2 (row j r) m := by
  rw [← idx2]
  unfold G9'
  rw [scores_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) (k0_pay15 x1 x3) (k0_pay13 x1 x2) X10 X12 G9 G14 G15 (k1 j) (ix2 r m),
    pay20_eq, scores_of arg10 x0 x1 x2 X10 h10]

/-- The first output block, through any view and over any prior contents, is the tiled first message. -/
theorem out6_of (h10 : arg10.view.read (Elt Ideal) X10 = k0_pay12 x0 x2)
    (h15 : ∀ m : Fin 2048, arg15.view.read (Elt Ideal) G15 (ix2 (0 : Fin 1) m) = ⊥)
    (h16 : ∀ m : Fin 2048, arg16.view.read (Elt Ideal) G16 (ix2 (0 : Fin 1) m) = 0)
    {sig' : RefSig} {κ' : Kind} {sp' : Space} (v : View sig' κ' sp' S1x2048x128 .f32) (G : v.ty.Contents (Elt Ideal))
    (n : Fin 2048) (o : Fin 128) :
    v.read (Elt Ideal) (v.writes (Elt Ideal) G
        (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5)
          (csumAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) (k0_pay15 x1 x3) (k0_pay13 x1 x2) X10 X12 G9 G14 G15 4) (G9' 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 X10 X12 G9 G14 G15) G16 4)
          (k0_pay15 x1 x3)
          (arg9.view.writes (Elt Ideal) (G9' 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 X10 X12 G9 G14 G15)
            (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) (k0_pay15 x1 x3) (k0_pay13 x1 x2) X10 X12 G9 G14 G15 4) (G9' 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 x3 x4 x5 X10 X12 G9 G14 G15) G16 4).1) 4))
        (ix3 (0 : Fin 1) n o)
      = out1Tiled (blk x0) (blk x1) (wt x2) (wt x3) (wt x4) (bias x5) n o := by
  obtain ⟨j, r, rfl⟩ := exists_tile_row n
  have hT : ∀ m : Fin 2048, (cmaxAt 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) (k0_pay15 x1 x3) (k0_pay13 x1 x2) X10 X12 G9 G14 G15 4) (ix2 (0 : Fin 1) m) = colTopTiled (EE x0 x1 x2) m := fun m =>
    cmax_final 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) (k0_pay15 x1 x3) (k0_pay13 x1 x2) X10 X12 G9 G14 G15 (EE x0 x1 x2)
      (scores_of arg10 x0 x1 x2 X10 h10) h15 m
  have h9 := scores_final 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 X10 X12 G9 G14 G15 h10
  rw [out6_final 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay10 x4) (k0_pay11 x5) _ (k0_pay15 x1 x3) _
    (fun n m => Ideal.exp (EE x0 x1 x2 n m - colTopTiled (EE x0 x1 x2) m))
    (fun m => acc4 fun c' => ∑ r : Fin 512, Ideal.exp (EE x0 x1 x2 (row c' r) m - colTopTiled (EE x0 x1 x2) m))
    (fun j r m => exps_final 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ G16 (EE x0 x1 x2) (colTopTiled (EE x0 x1 x2)) h9 hT j r m)
    (fun m => csum_final 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ G16 (EE x0 x1 x2) (colTopTiled (EE x0 x1 x2)) h9 hT h16 m)
    v G j r o]
  unfold out1Tiled outRow agg smColTiled
  simp only [pay10_at, pay11_at, pay15_proj]

end Cert.KernelIdeal.KerCompose

end
-- ==== Proof.KerOut.lean ====
/-
  What the body leaves in its two output blocks, entry by entry.

  With `x0, x1` the two node sets' feature blocks of one batch entry and `x2, x3, x4, x5` the key, value and output
  weights and the bias, the first output block at row `n`, column `o` is the tiled spelling of the first co-attention
  message (scores normalised down each column with a running maximum and a running sum over four tiles of rows, then
  aggregated, projected, biased and passed through the leaky ReLU), and the second output block the tiled spelling
  of the second message (each row of the same scores normalised, the aggregate accumulated tile by tile).
  The body's stores are those of its three loops (the run's piece lists, at any entry contents of the score buffer);
  the values they load before the loops are the blocks themselves, and the buffers the body fills before its loops
  hold the projections, the bottom element and zeros.
-/
import proofs.«140224_j47897475285202_2_alg».proof.Proof.KernelIdealFrame
import proofs.«140224_j47897475285202_2_alg».proof.Proof.KerIdent6
import proofs.«140224_j47897475285202_2_alg».proof.Proof.KerRun

set_option maxRecDepth 16384

noncomputable section

namespace Cert.KernelIdeal.KerOut

open Cert.KernelIdeal Cert.KernelIdeal.Gen Cert.KernelIdeal.KerLoops Cert.KernelIdeal.KerRun Cert.KernelIdeal.KerCompose
open Cert.KernelIdeal.Pay Idealize.ShloMosaic Idealize.ShloMosaic.ValueIdx Cert.CoAttn

theorem hz3 : (![0, 0, 0] : Fin 3 → Nat) = fun _ => 0 := by
  funext a; match a with | ⟨0, _⟩ => rfl | ⟨1, _⟩ => rfl | ⟨2, _⟩ => rfl
theorem hz1 : (![0] : Fin 1 → Nat) = fun _ => 0 := by
  funext a; match a with | ⟨0, _⟩ => rfl

section
variable (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S2048x2048 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x2048 .f32) (harg15 : arg15.IsWhole) (arg16 : Memref sig .tc .vmem S1x2048 .f32) (harg16 : arg16.IsWhole)
  (x0 x1 : Vec Ideal S1x2048x128 .f32) (x2 x3 x4 : Vec Ideal S128x128 .f32) (x5 : Vec Ideal S128 .f32)

/-! ## The values loaded before the loops are the blocks -/

theorem X0_eq : X0 arg1 harg1 x0 = x0 := by
  show View.readAt (Elt Ideal) arg1.view W3.toLoadRect (harg1.unread x0) = x0
  rw [readAt_whole _ _ hz3, harg1.read_unread]
theorem X1_eq : X1 arg2 harg2 x1 = x1 := by
  show View.readAt (Elt Ideal) arg2.view W3.toLoadRect (harg2.unread x1) = x1
  rw [readAt_whole _ _ hz3, harg2.read_unread]
theorem X2_eq : X2 arg3 harg3 x2 = x2 := by
  show View.readAt (Elt Ideal) arg3.view Ww.toLoadRect (harg3.unread x2) = x2
  rw [readAt_whole _ _ hz2, harg3.read_unread]
theorem X3_eq : X3 arg4 harg4 x3 = x3 := by
  show View.readAt (Elt Ideal) arg4.view Ww.toLoadRect (harg4.unread x3) = x3
  rw [readAt_whole _ _ hz2, harg4.read_unread]
theorem R4_eq : R4 arg5 harg5 x4 = k0_pay10 x4 := by
  show k0_pay10 (View.readAt (Elt Ideal) arg5.view Ww.toLoadRect (harg5.unread x4)) = _
  rw [readAt_whole _ _ hz2, harg5.read_unread]
theorem R5_eq : R5 arg6 harg6 x5 = k0_pay11 x5 := by
  show k0_pay11 (View.readAt (Elt Ideal) arg6.view Wb.toLoadRect (harg6.unread x5)) = _
  rw [readAt_whole _ _ hz1, harg6.read_unread]
theorem V32_eq : V32 arg2 harg2 arg4 harg4 x1 x3 = k0_pay15 x1 x3 := by
  show k0_pay15 (X1 arg2 harg2 x1) (X3 arg4 harg4 x3) = _
  rw [X1_eq, X3_eq]
theorem V44_eq : V44 arg2 harg2 arg3 harg3 arg11 x1 x2 = k0_pay13 x1 x2 := by
  unfold V44
  rw [View.readCov_unit_zero (S := S2048x128) _ hz2, X1_eq, X2_eq]
theorem V69_eq : V69 arg2 harg2 arg4 harg4 arg13 x1 x3 = k0_pay15 x1 x3 := by
  unfold V69
  rw [View.readCov_unit_zero (S := S2048x128) _ hz2, pay16_eq, V32_eq]
theorem C10_eq : C10 arg1 harg1 arg3 harg3 arg10 x0 x2 = (arg10.view.writes (Elt Ideal) arg10.view.junk [⟨W2, k0_pay12 x0 x2⟩]) := by
  show arg10.view.writes (Elt Ideal) arg10.view.junk [⟨W2, k0_pay12 (X0 arg1 harg1 x0) (X2 arg3 harg3 x2)⟩] = _
  rw [X0_eq, X2_eq]
theorem C12_eq : C12 arg1 harg1 arg4 harg4 arg12 x0 x3 = (arg12.view.writes (Elt Ideal) arg12.view.junk [⟨W2, k0_pay14 x0 x3⟩]) := by
  show arg12.view.writes (Elt Ideal) arg12.view.junk [⟨W2, k0_pay14 (X0 arg1 harg1 x0) (X3 arg4 harg4 x3)⟩] = _
  rw [X0_eq, X3_eq]

/-! ## The two output blocks -/

theorem out6_apply (n : Fin 2048) (o : Fin 128) :
    out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (ix3 (0 : Fin 1) n o)
      = out1Tiled (blk x0) (blk x1) (wt x2) (wt x3) (wt x4) (bias x5) n o := by
  unfold out0_A_6
  have hL : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).1
      = runL6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 arg9.view.junk := by
    unfold kernelRun0_A; rfl
  rw [hL, runL6_std, R4_eq, R5_eq, V32_eq, V44_eq, V69_eq, C10_eq, C12_eq]
  exact out6_of Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (arg10.view.writes (Elt Ideal) arg10.view.junk [⟨W2, k0_pay12 x0 x2⟩]) (arg12.view.writes (Elt Ideal) arg12.view.junk [⟨W2, k0_pay14 x0 x3⟩]) arg9.view.junk (C14 arg14) (C15 arg15) (C16 arg16)
    (read_writes_whole _ _ hz2 _ _ _)
    (fun m => by rw [read_writes_whole _ _ hz2]; exact pay17_apply _)
    (fun m => by rw [read_writes_whole _ _ hz2, pay1_eq]; exact pay24_apply _)
    VO0_6 VO0_6.junk n o

theorem out7_apply (n : Fin 2048) (o : Fin 128) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (ix3 (0 : Fin 1) n o)
      = out2Tiled (blk x0) (blk x1) (wt x2) (wt x3) (wt x4) (bias x5) n o := by
  unfold out0_A_7
  have hL : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.1
      = runL7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 arg9.view.junk := by
    unfold kernelRun0_A; rfl
  rw [hL, runL7_std, read_writes_whole _ _ hz3, R4_eq, R5_eq, V32_eq, V44_eq, C10_eq, C12_eq]
  exact out7_of Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (arg10.view.writes (Elt Ideal) arg10.view.junk [⟨W2, k0_pay12 x0 x2⟩]) (arg12.view.writes (Elt Ideal) arg12.view.junk [⟨W2, k0_pay14 x0 x3⟩]) arg9.view.junk (C14 arg14) (C15 arg15)
    (read_writes_whole _ _ hz2 _ _ _) (read_writes_whole _ _ hz2 _ _ _)
    (fun m d => by rw [read_writes_whole _ _ hz2]; exact pay18_apply _) n o

end

end Cert.KernelIdeal.KerOut

end
-- ==== Proof.KerArray.lean ====
/-
  From the blocks the kernel writes back to its two result arrays.

  The grid has eight points, one per batch entry.  At point `t` the two node-feature windows hold batch entry `t` of
  the first two arguments, the three weight windows and the bias window hold the whole of the other four, and the two
  output windows' blocks are batch entry `t` of the two result arrays (a block's coordinate on an axis is always the
  block index times the block size plus the coordinate inside the block; the block indices are decided over the eight
  points).  What the body leaves in an output block is the tiled spelling of a co-attention message of the point's
  input blocks; read at batch entry `t` that is the tiled result array's block.  The eight blocks cover each result
  array, so after the run each result array IS the tiled result array of the arguments.
-/
import proofs.«140224_j47897475285202_2_alg».proof.Proof.KernelIdealValue
import proofs.«140224_j47897475285202_2_alg».proof.Proof.KerOut
import proofs.«140224_j47897475285202_2_alg».proof.Proof.Forms
import Idealize.ShloMosaic.Lib.Pipeline.Value

set_option maxRecDepth 16384

noncomputable section

namespace Cert.KernelIdeal.KerArray

open Cert.KernelIdeal Cert.KernelIdeal.Gen Idealize.ShloMosaic Idealize.ShloMosaic.TcCoe Idealize.SL.Sem
open Idealize.ShloMosaic.ValueIdx Cert.CoAttn
open Idealize.ShloMosaic.Pipeline (Dat)

variable (m : (ℓ : Loc nD τ sig) → Buf (Elt Ideal) ℓ) (ρ : Dev nD → PrngReg)

/-- The batch entry a grid point works on: the grid has 8 points, one per batch entry. -/
def batch (t : Fin cfg0.N) : Fin 8 := ⟨t.val, lt_of_lt_of_eq t.isLt N_0⟩

/-- The block index of every window at every point, decided over the 8 points: the two node-feature inputs and the
    two outputs move along the batch axis with the point; the weights and the bias are the whole array at every point. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- The first node set's block at point `t` is batch entry `t` of the first argument. -/
theorem iblk0_apply (c : Dev nD) (t : Fin cfg0.N) (p : Fin 2048) (d : Fin 128) :
    (iblk m c 0 t : Vec Ideal S1x2048x128 .f32) (ix3 (0 : Fin 1) p d)
      = (m ((c : Thread nD τ).loc main_arg0) : S8x2048x128.Idx → EReal) (ix3 (batch t) p d) := by
  obtain ⟨⟨e0, e1, e2⟩, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (0 : Fin 1).val = t.val; rw [e0]; simp
  | ⟨1, _⟩ => show win0_0.index t (1 : Fin 3) * 2048 + 1 * p.val = p.val; rw [e1]; omega
  | ⟨2, _⟩ => show win0_0.index t (2 : Fin 3) * 128 + 1 * d.val = d.val; rw [e2]; omega

/-- The second node set's block at point `t` is batch entry `t` of the second argument. -/
theorem iblk1_apply (c : Dev nD) (t : Fin cfg0.N) (p : Fin 2048) (d : Fin 128) :
    (iblk m c 1 t : Vec Ideal S1x2048x128 .f32) (ix3 (0 : Fin 1) p d)
      = (m ((c : Thread nD τ).loc main_arg1) : S8x2048x128.Idx → EReal) (ix3 (batch t) p d) := by
  obtain ⟨-, ⟨e0, e1, e2⟩, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (0 : Fin 1).val = t.val; rw [e0]; simp
  | ⟨1, _⟩ => show win0_1.index t (1 : Fin 3) * 2048 + 1 * p.val = p.val; rw [e1]; omega
  | ⟨2, _⟩ => show win0_1.index t (2 : Fin 3) * 128 + 1 * d.val = d.val; rw [e2]; omega

/-- Weight window 2's block at every point is the whole argument. -/
theorem iblk2_apply (c : Dev nD) (t : Fin cfg0.N) (p q : Fin 128) :
    (iblk m c 2 t : Vec Ideal S128x128 .f32) (ix2 p q)
      = (m ((c : Thread nD τ).loc main_arg2) : S128x128.Idx → EReal) (ix2 p q) := by
  obtain ⟨-, -, ⟨e0, e1⟩, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 2) * 128 + 1 * p.val = p.val; rw [e0]; omega
  | ⟨1, _⟩ => show win0_2.index t (1 : Fin 2) * 128 + 1 * q.val = q.val; rw [e1]; omega

/-- Weight window 3's block at every point is the whole argument. -/
theorem iblk3_apply (c : Dev nD) (t : Fin cfg0.N) (p q : Fin 128) :
    (iblk m c 3 t : Vec Ideal S128x128 .f32) (ix2 p q)
      = (m ((c : Thread nD τ).loc main_arg3) : S128x128.Idx → EReal) (ix2 p q) := by
  obtain ⟨-, -, -, ⟨e0, e1⟩, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 2) * 128 + 1 * p.val = p.val; rw [e0]; omega
  | ⟨1, _⟩ => show win0_3.index t (1 : Fin 2) * 128 + 1 * q.val = q.val; rw [e1]; omega

/-- Weight window 4's block at every point is the whole argument. -/
theorem iblk4_apply (c : Dev nD) (t : Fin cfg0.N) (p q : Fin 128) :
    (iblk m c 4 t : Vec Ideal S128x128 .f32) (ix2 p q)
      = (m ((c : Thread nD τ).loc main_arg4) : S128x128.Idx → EReal) (ix2 p q) := by
  obtain ⟨-, -, -, -, ⟨e0, e1⟩, -⟩ := idx_facts t
  unfold iblk
  rw [View.read_apply]
  show V m c main_arg4 _ = m (c.tc.loc main_arg4) _
  unfold V
  congr 1
  funext a
  apply Fin.ext
  match a with
  | ⟨0, _⟩ => show win0_4.index t (0 : Fin 2) * 128 + 1 * p.val = p.val; rw [e0]; omega
  | ⟨1, _⟩ => show win0_4.index t (1 : Fin 2) * 128 + 1 * q.val = q.val; rw [e1]; omega

/-- The bias window's block at every point is the whole argument. -/
theorem iblk5_apply (c : Dev nD) (t : Fin cfg0.N) (q : Fin 128) :
    (iblk m c 5 t : Vec Ideal S128 .f32) (ix1 q)
      = (m ((c : Thread nD τ).loc main_arg5) : S128.Idx → EReal) (ix1 q) := by
  obtain ⟨-, -, -, -, -, e0, -⟩ := idx_facts t
  unfold iblk
  rw [View.read_apply]
  show V m c main_arg5 _ = m (c.tc.loc main_arg5) _
  unfold V
  congr 1
  funext a
  apply Fin.ext
  match a with
  | ⟨0, _⟩ => show win0_5.index t (0 : Fin 1) * 128 + 1 * q.val = q.val; rw [e0]; omega

/-- An index of output array 0 is in point `t`'s block iff each coordinate is in the block's range on its axis. -/
theorem mem_blk6 (t : Fin cfg0.N) (i : S8x2048x128.Idx) :
    i ∈ ((cfg0.win 6).blk t).view.set ↔ ∀ a : Fin 3, win0_6.index t a * S1x2048x128.size a ≤ (i a).val ∧ (i a).val < win0_6.index t a * S1x2048x128.size a + S1x2048x128.size a := by
  show i ∈ ((View.whole main_v0_0).slice (win0_6.rect t)).set ↔ _
  rw [View.set_slice_whole, Rect.mem_set_unit]
  exact Iff.rfl

/-- Every index of output array 0 is in the block of the point of its batch entry. -/
theorem cover6 (i : S8x2048x128.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 128 := (i 2).isLt
  have hN : cfg0.N = 8 := N_0
  refine ⟨⟨(i 0).val, by rw [hN]; exact hi0⟩, flush0_6 _, ?_⟩
  rw [mem_blk6]
  obtain ⟨-, -, -, -, -, -, ⟨e0, e1, e2⟩, -⟩ := idx_facts ⟨(i 0).val, by rw [hN]; exact hi0⟩
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 2048 ≤ (i 1).val ∧ (i 1).val < win0_6.index _ (1 : Fin 3) * 2048 + 2048; rw [e1]; omega
  | ⟨2, _⟩ => show win0_6.index _ (2 : Fin 3) * 128 ≤ (i 2).val ∧ (i 2).val < win0_6.index _ (2 : Fin 3) * 128 + 128; rw [e2]; omega

/-- An index of output array 1 is in point `t`'s block iff each coordinate is in the block's range on its axis. -/
theorem mem_blk7 (t : Fin cfg0.N) (i : S8x2048x128.Idx) :
    i ∈ ((cfg0.win 7).blk t).view.set ↔ ∀ a : Fin 3, win0_7.index t a * S1x2048x128.size a ≤ (i a).val ∧ (i a).val < win0_7.index t a * S1x2048x128.size a + S1x2048x128.size a := by
  show i ∈ ((View.whole main_v0_1).slice (win0_7.rect t)).set ↔ _
  rw [View.set_slice_whole, Rect.mem_set_unit]
  exact Iff.rfl

/-- Every index of output array 1 is in the block of the point of its batch entry. -/
theorem cover7 (i : S8x2048x128.Idx) :
    ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 128 := (i 2).isLt
  have hN : cfg0.N = 8 := N_0
  refine ⟨⟨(i 0).val, by rw [hN]; exact hi0⟩, flush0_7 _, ?_⟩
  rw [mem_blk7]
  obtain ⟨-, -, -, -, -, -, -, ⟨e0, e1, e2⟩⟩ := idx_facts ⟨(i 0).val, by rw [hN]; exact hi0⟩
  intro a
  match a with
  | ⟨0, _⟩ => show win0_7.index _ (0 : Fin 3) * 1 ≤ (i 0).val ∧ (i 0).val < win0_7.index _ (0 : Fin 3) * 1 + 1; rw [e0]; show (i 0).val * 1 ≤ (i 0).val ∧ (i 0).val < (i 0).val * 1 + 1; omega
  | ⟨1, _⟩ => show win0_7.index _ (1 : Fin 3) * 2048 ≤ (i 1).val ∧ (i 1).val < win0_7.index _ (1 : Fin 3) * 2048 + 2048; rw [e1]; omega
  | ⟨2, _⟩ => show win0_7.index _ (2 : Fin 3) * 128 ≤ (i 2).val ∧ (i 2).val < win0_7.index _ (2 : Fin 3) * 128 + 128; rw [e2]; omega

/-- What a point writes back to output array 0 is its block of `A`, as soon as the body's block agrees with batch
    entry `t` of `A` entry by entry: the window is not cut (its blocks end inside the array), so the part written back
    is the whole block, and the block's rows and columns are the array's at batch entry `t`. -/
theorem cut_eq_read6 (t : Fin cfg0.N) (X : Vec Ideal S1x2048x128 .f32) (A : S8x2048x128.Idx → EReal)
    (h : ∀ (n : Fin 2048) (o : Fin 128), X (ix3 (0 : Fin 1) n o) = A (ix3 (batch t) n o)) :
    (cfg0.win 6).cut (grid0.coords t) X = ((cfg0.win 6).blk t).view.read (Elt Ideal) A := by
  obtain ⟨-, -, -, -, -, -, ⟨e0, e1, e2⟩, -⟩ := idx_facts t
  funext y
  rw [View.read_apply]
  have hy0 : (y 0).val < 1 := (y 0).isLt
  have hy1 : (y 1).val < 2048 := (y 1).isLt
  have hy2 : (y 2).val < 128 := (y 2).isLt
  refine (congrArg X (?_ : _ = ix3 (0 : Fin 1) (⟨(y 1).val, hy1⟩ : Fin 2048) (⟨(y 2).val, hy2⟩ : Fin 128))).trans
    ((h ⟨(y 1).val, hy1⟩ ⟨(y 2).val, hy2⟩).trans (congrArg A ?_))
  · funext a
    apply Fin.ext
    match a with
    | ⟨0, _⟩ => show (y 0).val = 0; omega
    | ⟨1, _⟩ => rfl
    | ⟨2, _⟩ => rfl
  · funext a
    apply Fin.ext
    match a with
    | ⟨0, _⟩ => show t.val = win0_6.index t (0 : Fin 3) * 1 + 1 * (y 0).val; rw [e0]; omega
    | ⟨1, _⟩ => show (y 1).val = win0_6.index t (1 : Fin 3) * 2048 + 1 * (y 1).val; rw [e1]; omega
    | ⟨2, _⟩ => show (y 2).val = win0_6.index t (2 : Fin 3) * 128 + 1 * (y 2).val; rw [e2]; omega

/-- What a point writes back to output array 1 is its block of `A`, as soon as the body's block agrees with batch
    entry `t` of `A` entry by entry: the window is not cut (its blocks end inside the array), so the part written back
    is the whole block, and the block's rows and columns are the array's at batch entry `t`. -/
theorem cut_eq_read7 (t : Fin cfg0.N) (X : Vec Ideal S1x2048x128 .f32) (A : S8x2048x128.Idx → EReal)
    (h : ∀ (n : Fin 2048) (o : Fin 128), X (ix3 (0 : Fin 1) n o) = A (ix3 (batch t) n o)) :
    (cfg0.win 7).cut (grid0.coords t) X = ((cfg0.win 7).blk t).view.read (Elt Ideal) A := by
  obtain ⟨-, -, -, -, -, -, -, ⟨e0, e1, e2⟩⟩ := idx_facts t
  funext y
  rw [View.read_apply]
  have hy0 : (y 0).val < 1 := (y 0).isLt
  have hy1 : (y 1).val < 2048 := (y 1).isLt
  have hy2 : (y 2).val < 128 := (y 2).isLt
  refine (congrArg X (?_ : _ = ix3 (0 : Fin 1) (⟨(y 1).val, hy1⟩ : Fin 2048) (⟨(y 2).val, hy2⟩ : Fin 128))).trans
    ((h ⟨(y 1).val, hy1⟩ ⟨(y 2).val, hy2⟩).trans (congrArg A ?_))
  · funext a
    apply Fin.ext
    match a with
    | ⟨0, _⟩ => show (y 0).val = 0; omega
    | ⟨1, _⟩ => rfl
    | ⟨2, _⟩ => rfl
  · funext a
    apply Fin.ext
    match a with
    | ⟨0, _⟩ => show t.val = win0_7.index t (0 : Fin 3) * 1 + 1 * (y 0).val; rw [e0]; omega
    | ⟨1, _⟩ => show (y 1).val = win0_7.index t (1 : Fin 3) * 2048 + 1 * (y 1).val; rw [e1]; omega
    | ⟨2, _⟩ => show (y 2).val = win0_7.index t (2 : Fin 3) * 128 + 1 * (y 2).val; rw [e2]; omega

/-- The first node set's block at point `t`, as a matrix, is batch entry `t` of the first argument. -/
theorem blk_iblk0 (c : Dev nD) (t : Fin cfg0.N) :
    KerOut.blk (iblk m c 0 t) = slice (m ((c : Thread nD τ).loc main_arg0)) (batch t) :=
  funext fun p => funext fun d => iblk0_apply m c t p d

/-- The second node set's block at point `t`, as a matrix, is batch entry `t` of the second argument. -/
theorem blk_iblk1 (c : Dev nD) (t : Fin cfg0.N) :
    KerOut.blk (iblk m c 1 t) = slice (m ((c : Thread nD τ).loc main_arg1)) (batch t) :=
  funext fun p => funext fun d => iblk1_apply m c t p d

/-- Weight window 2's block, as a matrix, is the argument. -/
theorem wt_iblk2 (c : Dev nD) (t : Fin cfg0.N) :
    KerOut.wt (iblk m c 2 t) = mat (m ((c : Thread nD τ).loc main_arg2)) :=
  funext fun p => funext fun q => iblk2_apply m c t p q

/-- Weight window 3's block, as a matrix, is the argument. -/
theorem wt_iblk3 (c : Dev nD) (t : Fin cfg0.N) :
    KerOut.wt (iblk m c 3 t) = mat (m ((c : Thread nD τ).loc main_arg3)) :=
  funext fun p => funext fun q => iblk3_apply m c t p q

/-- Weight window 4's block, as a matrix, is the argument. -/
theorem wt_iblk4 (c : Dev nD) (t : Fin cfg0.N) :
    KerOut.wt (iblk m c 4 t) = mat (m ((c : Thread nD τ).loc main_arg4)) :=
  funext fun p => funext fun q => iblk4_apply m c t p q

/-- The bias window's block, as a vector, is the argument. -/
theorem bias_iblk5 (c : Dev nD) (t : Fin cfg0.N) :
    KerOut.bias (iblk m c 5 t) = vec (m ((c : Thread nD τ).loc main_arg5)) :=
  funext fun q => iblk5_apply m c t q

/-- The tiled first message of point `t`'s blocks is batch entry `t` of the tiled first result array. -/
theorem point_eq1 (c : Dev nD) (t : Fin cfg0.N) (n : Fin 2048) (o : Fin 128) :
    out1Tiled (KerOut.blk (iblk m c 0 t)) (KerOut.blk (iblk m c 1 t)) (KerOut.wt (iblk m c 2 t)) (KerOut.wt (iblk m c 3 t)) (KerOut.wt (iblk m c 4 t)) (KerOut.bias (iblk m c 5 t)) n o
      = G1Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (batch t) n o) := by
  rw [blk_iblk0 m c t, blk_iblk1 m c t, wt_iblk2 m c t, wt_iblk3 m c t, wt_iblk4 m c t, bias_iblk5 m c t]
  rfl

/-- The tiled second message of point `t`'s blocks is batch entry `t` of the tiled second result array. -/
theorem point_eq2 (c : Dev nD) (t : Fin cfg0.N) (n : Fin 2048) (o : Fin 128) :
    out2Tiled (KerOut.blk (iblk m c 0 t)) (KerOut.blk (iblk m c 1 t)) (KerOut.wt (iblk m c 2 t)) (KerOut.wt (iblk m c 3 t)) (KerOut.wt (iblk m c 4 t)) (KerOut.bias (iblk m c 5 t)) n o
      = G2Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (batch t) n o) := by
  rw [blk_iblk0 m c t, blk_iblk1 m c t, wt_iblk2 m c t, wt_iblk3 m c t, wt_iblk4 m c t, bias_iblk5 m c t]
  rfl

/-- WHAT POINT `t` WRITES BACK to the first output array is block `t` of the tiled first result array. -/
theorem flushed6_eq (c : Dev nD) (t : Fin cfg0.N) :
    (dats m 0 c).flushed 6 t = ((cfg0.win 6).blk t).view.read (Elt Ideal) (G1Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (Value.flushed6_A m c t).trans (cut_eq_read6 t
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t))
    (G1Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) fun n o =>
      (KerOut.out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) n o).trans (point_eq1 m c t n o))

/-- WHAT POINT `t` WRITES BACK to the second output array is block `t` of the tiled second result array. -/
theorem flushed7_eq (c : Dev nD) (t : Fin cfg0.N) :
    (dats m 0 c).flushed 7 t = ((cfg0.win 7).blk t).view.read (Elt Ideal) (G2Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (Value.flushed7_A m c t).trans (cut_eq_read7 t
    (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t))
    (G2Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) fun n o =>
      (KerOut.out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) n o).trans (point_eq2 m c t n o))

/-- THE FIRST OUTPUT ARRAY after the run: the eight points' blocks cover it, so it is the tiled first result array. -/
theorem final6 (c : Dev nD) : (dats m 0 c).arrAt 6 cfg0.N = G1Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (G1Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed6_eq m c t) cover6

/-- THE SECOND OUTPUT ARRAY after the run: the tiled second result array. -/
theorem final7 (c : Dev nD) : (dats m 0 c).arrAt 7 cfg0.N = G2Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 (G2Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed7_eq m c t) cover7

/-- The kernel's run, read: the two result arrays at the tiled spelling of the two messages, the arguments unchanged. -/
theorem run_tiled : θ_run defs (onTc (τ := τ) (main (F := Ideal))) ⟨m, fun _ => 0, ρ⟩ fun r => ∀ c : Dev nD,
      r.2.mem ((c : Thread nD τ).loc main_v0_0) = G1Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G2Tiled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.KerArray

end
-- ==== Proof.RefRun.lean ====
/-
  The reference program's run. Its @main is a straight line of sixty host operations once the two calls of the
  leaky ReLU (and, inside each, the call of the select helper) are written out at their call sites; every weakly
  fair execution of it terminates, and each of its two results then holds the composition of the operations'
  functions applied to the six argument arrays, the arguments themselves unchanged.

  The composition is stated through named stages, so that no statement carries the sixty-operation term:
  the projection `x · Wᵀ`, the score product, the softmax over the score's middle axis (largest entry, shifted
  exponentials, their sum, the quotient), the aggregation, and the output layer (projection, bias, leaky ReLU).
-/
import proofs.«140224_j47897475285202_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-! ## The stages -/

/-- `x · Wᵀ` for every batch entry: the last axis of `x` against the last axis of `W`. -/
def stProj (x : (⟨S8x2048x128, .f32⟩ : BufTy).Contents (Elt F)) (W : (⟨S128x128, .f32⟩ : BufTy).Contents (Elt F)) : (⟨S8x2048x128, .f32⟩ : BufTy).Contents (Elt F) :=
  Host.dotGeneral dot_S8x2048x128_S128x128_S8x2048x128_2_1_01_0_n_n none x W

/-- The scores: for every batch entry, rows of `p` against rows of `q` over the feature axis. -/
def stScore (p q : (⟨S8x2048x128, .f32⟩ : BufTy).Contents (Elt F)) : (⟨S8x2048x2048, .f32⟩ : BufTy).Contents (Elt F) :=
  Host.dotGeneral dot_S8x2048x128_S8x2048x128_S8x2048x2048_2_2_1_1_0_0 none p q

/-- The largest entry along the middle axis, from `-∞`, then the maximum with a `-∞` array. -/
def stColMax (e : (⟨S8x2048x2048, .f32⟩ : BufTy).Contents (Elt F)) : (⟨S8x2048, .f32⟩ : BufTy).Contents (Elt F) :=
  maximumf (broadcastInDim S8x2048 ![] bcast_S_S8x2048 (constant S_ .f32 0xFF800000#32))
    (Host.reduce FloatOps.maximumf e (constant S_ .f32 0xFF800000#32) reducesTo_S8x2048x2048_S8x2048_d1 h_S_)

/-- A `[8, 2048]` array repeated along a new middle axis. -/
def stSpread (v : (⟨S8x2048, .f32⟩ : BufTy).Contents (Elt F)) : (⟨S8x2048x2048, .f32⟩ : BufTy).Contents (Elt F) :=
  broadcastInDim S8x2048x2048 ![0, 1, 2] bcast_S8x1x2048_S8x2048x2048_0_1_2
    (broadcastInDim S8x1x2048 ![0, 2] bcast_S8x2048_S8x1x2048_0_2 v)

/-- The exponentials of the scores shifted by the largest entry along the middle axis. -/
def stExp (e : (⟨S8x2048x2048, .f32⟩ : BufTy).Contents (Elt F)) : (⟨S8x2048x2048, .f32⟩ : BufTy).Contents (Elt F) :=
  Host.exp (subf e (stSpread (stColMax e)))

/-- The softmax over the middle axis: the shifted exponentials over their sum along that axis (from zero). -/
def stSoftmax (e : (⟨S8x2048x2048, .f32⟩ : BufTy).Contents (Elt F)) : (⟨S8x2048x2048, .f32⟩ : BufTy).Contents (Elt F) :=
  Host.divf (stExp e)
    (stSpread (Host.reduceAdd (stExp e) (constant S_ .f32 0x00000000#32) reducesTo_S8x2048x2048_S8x2048_d1 h_S_))

/-- The aggregation: for every batch entry, `a · v` over `a`'s last axis and `v`'s middle axis. -/
def stAgg (a : (⟨S8x2048x2048, .f32⟩ : BufTy).Contents (Elt F)) (v : (⟨S8x2048x128, .f32⟩ : BufTy).Contents (Elt F)) : (⟨S8x2048x128, .f32⟩ : BufTy).Contents (Elt F) :=
  Host.dotGeneral dot_S8x2048x2048_S8x2048x128_S8x2048x128_2_1_1_2_0_0 none a v

/-- The output layer before the activation: `n · Woᵀ` plus the bias repeated over batch and node. -/
def stPre (n : (⟨S8x2048x128, .f32⟩ : BufTy).Contents (Elt F)) (Wo : (⟨S128x128, .f32⟩ : BufTy).Contents (Elt F)) (bo : (⟨S128, .f32⟩ : BufTy).Contents (Elt F)) : (⟨S8x2048x128, .f32⟩ : BufTy).Contents (Elt F) :=
  addf (stProj n Wo)
    (broadcastInDim S8x2048x128 ![0, 1, 2] bcast_S1x1x128_S8x2048x128_0_1_2
      (broadcastInDim S1x1x128 ![2] bcast_S128_S1x1x128_2 bo))

/-- The leaky ReLU as the program spells it: where `z ≥ 0` the entry, elsewhere the slope times the entry. -/
def stLrelu (z : (⟨S8x2048x128, .f32⟩ : BufTy).Contents (Elt F)) : (⟨S8x2048x128, .f32⟩ : BufTy).Contents (Elt F) :=
  select (cmpf .oge z (broadcastInDim S8x2048x128 ![] bcast_S_S8x2048x128 (constant S_ .f32 0x00000000#32))) z
    (mulf (broadcastInDim S8x2048x128 ![] bcast_S_S8x2048x128 (id (constant S_ .f32 0x3C23D70A#32))) z)

/-- The first result as a function of the six argument arrays. -/
def res1 (a0 a1 : (⟨S8x2048x128, .f32⟩ : BufTy).Contents (Elt F)) (a2 a3 a4 : (⟨S128x128, .f32⟩ : BufTy).Contents (Elt F)) (a5 : (⟨S128, .f32⟩ : BufTy).Contents (Elt F)) : (⟨S8x2048x128, .f32⟩ : BufTy).Contents (Elt F) :=
  stLrelu (stPre (stAgg (stSoftmax (stScore (stProj a0 a2) (stProj a1 a2))) (stProj a1 a3)) a4 a5)

/-- The second result as a function of the six argument arrays. -/
def res2 (a0 a1 : (⟨S8x2048x128, .f32⟩ : BufTy).Contents (Elt F)) (a2 a3 a4 : (⟨S128x128, .f32⟩ : BufTy).Contents (Elt F)) (a5 : (⟨S128, .f32⟩ : BufTy).Contents (Elt F)) : (⟨S8x2048x128, .f32⟩ : BufTy).Contents (Elt F) :=
  stLrelu (stPre (stAgg (stSoftmax (stScore (stProj a1 a2) (stProj a0 a2))) (stProj a0 a3)) a4 a5)

/-! ## The operations -/

/-- @main's sixty operations in order, the calls written out: each leaky ReLU is seven (the zero, its broadcast,
    the comparison, the slope converted to its own type, its broadcast, the product, and the select helper's one
    operation) over that call's own buffers. -/
abbrev ops : List (HloOp τ sig (Elt F)) :=
  [ binary main_arg0 main_arg2 main_v0 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    binary main_arg1 main_arg2 main_v1 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    binary main_v0 main_v1 main_v2 ((fun l r => Host.dotGeneral dot_S8x2048x128_S8x2048x128_S8x2048x2048_2_2_1_1_0_0 none l r) : (⟨S8x2048x128, .f32⟩ : BufTy).Contents (Elt F) → (⟨S8x2048x128, .f32⟩ : BufTy).Contents (Elt F) → (⟨S8x2048x2048, .f32⟩ : BufTy).Contents (Elt F)),
    binary main_v1 main_v0 main_v3 ((fun l r => Host.dotGeneral dot_S8x2048x128_S8x2048x128_S8x2048x2048_2_2_1_1_0_0 none l r) : (⟨S8x2048x128, .f32⟩ : BufTy).Contents (Elt F) → (⟨S8x2048x128, .f32⟩ : BufTy).Contents (Elt F) → (⟨S8x2048x2048, .f32⟩ : BufTy).Contents (Elt F)),
    nullary main_cst (constant S_ .f32 0xFF800000#32),
    binary main_v2 main_cst main_v4 ((fun x v => Host.reduce FloatOps.maximumf x v reducesTo_S8x2048x2048_S8x2048_d1 h_S_) : (⟨S8x2048x2048, .f32⟩ : BufTy).Contents (Elt F) → (⟨S_, .f32⟩ : BufTy).Contents (Elt F) → (⟨S8x2048, .f32⟩ : BufTy).Contents (Elt F)),
    nullary main_cst_0 (constant S_ .f32 0xFF800000#32),
    unary main_cst_0 main_v5 (broadcastInDim S8x2048 ![] bcast_S_S8x2048 : (⟨S_, .f32⟩ : BufTy).Contents (Elt F) → (⟨S8x2048, .f32⟩ : BufTy).Contents (Elt F)),
    binary main_v5 main_v4 main_v6 (maximumf : (⟨S8x2048, .f32⟩ : BufTy).Contents (Elt F) → (⟨S8x2048, .f32⟩ : BufTy).Contents (Elt F) → (⟨S8x2048, .f32⟩ : BufTy).Contents (Elt F)),
    unary main_v6 main_v7 (broadcastInDim S8x1x2048 ![0, 2] bcast_S8x2048_S8x1x2048_0_2 : (⟨S8x2048, .f32⟩ : BufTy).Contents (Elt F) → (⟨S8x1x2048, .f32⟩ : BufTy).Contents (Elt F)),
    unary main_v7 main_v8 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v2 main_v8 main_v9 (subf : (⟨S8x2048x2048, .f32⟩ : BufTy).Contents (Elt F) → (⟨S8x2048x2048, .f32⟩ : BufTy).Contents (Elt F) → (⟨S8x2048x2048, .f32⟩ : BufTy).Contents (Elt F)),
    unary main_v9 main_v10 (Host.exp : (⟨S8x2048x2048, .f32⟩ : BufTy).Contents (Elt F) → (⟨S8x2048x2048, .f32⟩ : BufTy).Contents (Elt F)),
    nullary main_cst_1 (constant S_ .f32 0x00000000#32),
    binary main_v10 main_cst_1 main_v11 ((fun x v => Host.reduceAdd x v reducesTo_S8x2048x2048_S8x2048_d1 h_S_) : (⟨S8x2048x2048, .f32⟩ : BufTy).Contents (Elt F) → (⟨S_, .f32⟩ : BufTy).Contents (Elt F) → (⟨S8x2048, .f32⟩ : BufTy).Contents (Elt F)),
    unary main_v11 main_v12 (broadcastInDim S8x1x2048 ![0, 2] bcast_S8x2048_S8x1x2048_0_2 : (⟨S8x2048, .f32⟩ : BufTy).Contents (Elt F) → (⟨S8x1x2048, .f32⟩ : BufTy).Contents (Elt F)),
    unary main_v12 main_v13 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v10 main_v13 main_v14 (Host.divf : (⟨S8x2048x2048, .f32⟩ : BufTy).Contents (Elt F) → (⟨S8x2048x2048, .f32⟩ : BufTy).Contents (Elt F) → (⟨S8x2048x2048, .f32⟩ : BufTy).Contents (Elt F)),
    nullary main_cst_2 (constant S_ .f32 0xFF800000#32),
    binary main_v3 main_cst_2 main_v15 ((fun x v => Host.reduce FloatOps.maximumf x v reducesTo_S8x2048x2048_S8x2048_d1 h_S_) : (⟨S8x2048x2048, .f32⟩ : BufTy).Contents (Elt F) → (⟨S_, .f32⟩ : BufTy).Contents (Elt F) → (⟨S8x2048, .f32⟩ : BufTy).Contents (Elt F)),
    nullary main_cst_3 (constant S_ .f32 0xFF800000#32),
    unary main_cst_3 main_v16 (broadcastInDim S8x2048 ![] bcast_S_S8x2048 : (⟨S_, .f32⟩ : BufTy).Contents (Elt F) → (⟨S8x2048, .f32⟩ : BufTy).Contents (Elt F)),
    binary main_v16 main_v15 main_v17 (maximumf : (⟨S8x2048, .f32⟩ : BufTy).Contents (Elt F) → (⟨S8x2048, .f32⟩ : BufTy).Contents (Elt F) → (⟨S8x2048, .f32⟩ : BufTy).Contents (Elt F)),
    unary main_v17 main_v18 (broadcastInDim S8x1x2048 ![0, 2] bcast_S8x2048_S8x1x2048_0_2 : (⟨S8x2048, .f32⟩ : BufTy).Contents (Elt F) → (⟨S8x1x2048, .f32⟩ : BufTy).Contents (Elt F)),
    unary main_v18 main_v19 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v3 main_v19 main_v20 (subf : (⟨S8x2048x2048, .f32⟩ : BufTy).Contents (Elt F) → (⟨S8x2048x2048, .f32⟩ : BufTy).Contents (Elt F) → (⟨S8x2048x2048, .f32⟩ : BufTy).Contents (Elt F)),
    unary main_v20 main_v21 (Host.exp : (⟨S8x2048x2048, .f32⟩ : BufTy).Contents (Elt F) → (⟨S8x2048x2048, .f32⟩ : BufTy).Contents (Elt F)),
    nullary main_cst_4 (constant S_ .f32 0x00000000#32),
    binary main_v21 main_cst_4 main_v22 ((fun x v => Host.reduceAdd x v reducesTo_S8x2048x2048_S8x2048_d1 h_S_) : (⟨S8x2048x2048, .f32⟩ : BufTy).Contents (Elt F) → (⟨S_, .f32⟩ : BufTy).Contents (Elt F) → (⟨S8x2048, .f32⟩ : BufTy).Contents (Elt F)),
    unary main_v22 main_v23 (broadcastInDim S8x1x2048 ![0, 2] bcast_S8x2048_S8x1x2048_0_2 : (⟨S8x2048, .f32⟩ : BufTy).Contents (Elt F) → (⟨S8x1x2048, .f32⟩ : BufTy).Contents (Elt F)),
    unary main_v23 main_v24 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v21 main_v24 main_v25 (Host.divf : (⟨S8x2048x2048, .f32⟩ : BufTy).Contents (Elt F) → (⟨S8x2048x2048, .f32⟩ : BufTy).Contents (Elt F) → (⟨S8x2048x2048, .f32⟩ : BufTy).Contents (Elt F)),
    binary main_arg1 main_arg3 main_v26 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    binary main_arg0 main_arg3 main_v27 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    binary main_v14 main_v26 main_v28 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)),
    binary main_v25 main_v27 main_v29 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)),
    binary main_v28 main_arg4 main_v30 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    unary main_arg5 main_v31 (broadcastInDim S1x1x128 ![2] bcast_S128_S1x1x128_2 : (⟨S128, .f32⟩ : BufTy).Contents (Elt F) → (⟨S1x1x128, .f32⟩ : BufTy).Contents (Elt F)),
    unary main_v31 main_v32 (broadcastInDim S8x2048x128 ![0, 1, 2] bcast_S1x1x128_S8x2048x128_0_1_2 : (⟨S1x1x128, .f32⟩ : BufTy).Contents (Elt F) → (⟨S8x2048x128, .f32⟩ : BufTy).Contents (Elt F)),
    binary main_v30 main_v32 main_v33 (addf : (⟨S8x2048x128, .f32⟩ : BufTy).Contents (Elt F) → (⟨S8x2048x128, .f32⟩ : BufTy).Contents (Elt F) → (⟨S8x2048x128, .f32⟩ : BufTy).Contents (Elt F)),
    nullary main_cst_5 (constant S_ .f32 0x3C23D70A#32),
    TRef.nullary main_call0.cst (constant S_ .f32 0x00000000#32),
    TRef.unary main_call0.cst main_call0.v0 (broadcastInDim S8x2048x128 ![] bcast_S_S8x2048x128),
    TRef.binary (.of main_v33) main_call0.v0 main_call0.v1 (cmpf .oge),
    TRef.unary (.of main_cst_5) main_call0.v2 id,
    TRef.unary main_call0.v2 main_call0.v3 (broadcastInDim S8x2048x128 ![] bcast_S_S8x2048x128),
    TRef.binary main_call0.v3 (.of main_v33) main_call0.v4 mulf,
    TRef.ternary main_call0.v1 (.of main_v33) main_call0.v4 main_call0.call0.v0 select,
    binary main_v29 main_arg4 main_v35 ((fun l r => Host.dotGeneral dot_S8x2048x128_S128x128_S8x2048x128_2_1_01_0_n_n none l r) : (⟨S8x2048x128, .f32⟩ : BufTy).Contents (Elt F) → (⟨S128x128, .f32⟩ : BufTy).Contents (Elt F) → (⟨S8x2048x128, .f32⟩ : BufTy).Contents (Elt F)),
    unary main_arg5 main_v36 (broadcastInDim S1x1x128 ![2] bcast_S128_S1x1x128_2 : (⟨S128, .f32⟩ : BufTy).Contents (Elt F) → (⟨S1x1x128, .f32⟩ : BufTy).Contents (Elt F)),
    unary main_v36 main_v37 (broadcastInDim S8x2048x128 ![0, 1, 2] bcast_S1x1x128_S8x2048x128_0_1_2 : (⟨S1x1x128, .f32⟩ : BufTy).Contents (Elt F) → (⟨S8x2048x128, .f32⟩ : BufTy).Contents (Elt F)),
    binary main_v35 main_v37 main_v38 (addf : (⟨S8x2048x128, .f32⟩ : BufTy).Contents (Elt F) → (⟨S8x2048x128, .f32⟩ : BufTy).Contents (Elt F) → (⟨S8x2048x128, .f32⟩ : BufTy).Contents (Elt F)),
    nullary main_cst_6 (constant S_ .f32 0x3C23D70A#32),
    TRef.nullary main_call1.cst (constant S_ .f32 0x00000000#32),
    TRef.unary main_call1.cst main_call1.v0 (broadcastInDim S8x2048x128 ![] bcast_S_S8x2048x128),
    TRef.binary (.of main_v38) main_call1.v0 main_call1.v1 (cmpf .oge),
    TRef.unary (.of main_cst_6) main_call1.v2 id,
    TRef.unary main_call1.v2 main_call1.v3 (broadcastInDim S8x2048x128 ![] bcast_S_S8x2048x128),
    TRef.binary main_call1.v3 (.of main_v38) main_call1.v4 mulf,
    TRef.ternary main_call1.v1 (.of main_v38) main_call1.v4 main_call1.call0.v0 select ]

-- sixty binds re-associated: the rewrite under the chain recurses once per statement
set_option maxRecDepth 2048 in
/-- @main is that straight line: the two functions' bodies unfolded at their calls, both sides are one chain of
    host steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-! ## The fold at the result buffers -/

/-- The first result buffer after the sixty operations holds `res1` of the arguments' contents. -/
theorem out1_eq (V : Valuation τ sig (Elt F)) :
    after ops V (main_v34 : DevRef τ sig) = res1 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

/-- The second result buffer after the sixty operations holds `res2` of the arguments' contents. -/
theorem out2_eq (V : Valuation τ sig (Elt F)) :
    after ops V (main_v39 : DevRef τ sig) = res2 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  rfl

/-! No operation writes an argument buffer. -/

theorem arg0_eq (V : Valuation τ sig (Elt F)) :
    after ops V (main_arg0 : DevRef τ sig) = (V (main_arg0 : DevRef τ sig)) := by
  after_results_simp

theorem arg1_eq (V : Valuation τ sig (Elt F)) :
    after ops V (main_arg1 : DevRef τ sig) = (V (main_arg1 : DevRef τ sig)) := by
  after_results_simp

theorem arg2_eq (V : Valuation τ sig (Elt F)) :
    after ops V (main_arg2 : DevRef τ sig) = (V (main_arg2 : DevRef τ sig)) := by
  after_results_simp

theorem arg3_eq (V : Valuation τ sig (Elt F)) :
    after ops V (main_arg3 : DevRef τ sig) = (V (main_arg3 : DevRef τ sig)) := by
  after_results_simp

theorem arg4_eq (V : Valuation τ sig (Elt F)) :
    after ops V (main_arg4 : DevRef τ sig) = (V (main_arg4 : DevRef τ sig)) := by
  after_results_simp

theorem arg5_eq (V : Valuation τ sig (Elt F)) :
    after ops V (main_arg5 : DevRef τ sig) = (V (main_arg5 : DevRef τ sig)) := by
  after_results_simp

/-! ## The run -/

/-- On every device, for any float values, from any memory with zero counters: every weakly fair execution of
    @main terminates with the first result at `res1` and the second at `res2` of the argument arrays' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v39) = res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v34).trans (out1_eq _), (h c main_v39).trans (out2_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue

end
-- ==== Proof.RefReadStages.lean ====
/-
  The stages of the reference program read at an index, at the ideal values (a float an extended real, every
  operation its textbook one): each of the three products is a `Fin`-indexed sum of products of entries; the
  largest entry along the middle axis is a fold of `max` over that axis's coordinates; the host's sum along it is
  zero plus the `Fin`-indexed sum; the two broadcasts back read the `[8, 2048]` array at the outer coordinates;
  the bias is read at the last coordinate; and the select on the comparison with zero is an `if`.
  Every lemma is stated over variables for the operand arrays and at an index given by its coordinates.
-/
import proofs.«140224_j47897475285202_2_alg».proof.Proof.RefRun
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic.ValueIdx
open Cert.ReferenceIdeal Idealize.ShloMosaic Idealize.ShloMosaic.TcCoe Idealize.SL.Sem Idealize.ShloMosaic.StableHlo

variable [Facts]
open Facts₀ Facts

/-! ## Words -/

/-- The pattern `0xFF800000` (sign set, exponent all ones, fraction zero) denotes `-∞`. -/
theorem ofBits_negInf_f32 : Ideal.ofBits .f32 0xFF800000#32 = ⊥ := by
  simp [Ideal.ofBits, Ideal.ieee]

/-! ## The three products, read at an index -/

/-- `x · Wᵀ` at `(b, n, k)`: the sum over the feature `d` of `x[b, n, d] · W[k, d]`. -/
theorem stProj_apply (x : S8x2048x128.Idx → EReal) (W : S128x128.Idx → EReal) (b : Fin 8) (n : Fin 2048) (k : Fin 128) :
    stProj (F := Ideal) x W (ix3 b n k) = ∑ d : Fin 128, x (ix3 b n d) * W (ix2 k d) := by
  unfold stProj
  simp only [Host.dotGeneral]
  rw [Ideal.dotGeneral_apply,
    ← Equiv.sum_comp (contrEquiv1 dot_S8x2048x128_S128x128_S8x2048x128_2_1_01_0_n_n 128 rfl rfl).symm]
  refine Finset.sum_congr rfl fun d _ => ?_
  congr 2
  · funext a
    match a with
    | ⟨0, _⟩ => exact Fin.ext rfl
    | ⟨1, _⟩ => exact Fin.ext rfl
    | ⟨2, _⟩ =>
      refine Fin.ext ?_
      exact (DotDims.lhsIdx_val_of_single dot_S8x2048x128_S128x128_S8x2048x128_2_1_01_0_n_n (cl := ⟨2, by decide⟩) rfl _ _).trans (contrEquiv1_symm_val dot_S8x2048x128_S128x128_S8x2048x128_2_1_01_0_n_n 128 rfl rfl d)
  · funext a
    match a with
    | ⟨0, _⟩ => exact Fin.ext rfl
    | ⟨1, _⟩ =>
      refine Fin.ext ?_
      exact (DotDims.rhsIdx_val_of_single dot_S8x2048x128_S128x128_S8x2048x128_2_1_01_0_n_n (cr := ⟨1, by decide⟩) rfl _ _).trans (contrEquiv1_symm_val dot_S8x2048x128_S128x128_S8x2048x128_2_1_01_0_n_n 128 rfl rfl d)

/-- The score at `(b, n, m)`: the sum over the feature `k` of `p[b, n, k] · q[b, m, k]`. -/
theorem stScore_apply (p q : S8x2048x128.Idx → EReal) (b : Fin 8) (n m : Fin 2048) :
    stScore (F := Ideal) p q (ix3 b n m) = ∑ k : Fin 128, p (ix3 b n k) * q (ix3 b m k) := by
  unfold stScore
  simp only [Host.dotGeneral]
  rw [Ideal.dotGeneral_apply,
    ← Equiv.sum_comp (contrEquiv1 dot_S8x2048x128_S8x2048x128_S8x2048x2048_2_2_1_1_0_0 128 rfl rfl).symm]
  refine Finset.sum_congr rfl fun d _ => ?_
  congr 2
  · funext a
    match a with
    | ⟨0, _⟩ => exact Fin.ext rfl
    | ⟨1, _⟩ => exact Fin.ext rfl
    | ⟨2, _⟩ =>
      refine Fin.ext ?_
      exact (DotDims.lhsIdx_val_of_single dot_S8x2048x128_S8x2048x128_S8x2048x2048_2_2_1_1_0_0 (cl := ⟨2, by decide⟩) rfl _ _).trans (contrEquiv1_symm_val dot_S8x2048x128_S8x2048x128_S8x2048x2048_2_2_1_1_0_0 128 rfl rfl d)
  · funext a
    match a with
    | ⟨0, _⟩ => exact Fin.ext rfl
    | ⟨1, _⟩ => exact Fin.ext rfl
    | ⟨2, _⟩ =>
      refine Fin.ext ?_
      exact (DotDims.rhsIdx_val_of_single dot_S8x2048x128_S8x2048x128_S8x2048x2048_2_2_1_1_0_0 (cr := ⟨2, by decide⟩) rfl _ _).trans (contrEquiv1_symm_val dot_S8x2048x128_S8x2048x128_S8x2048x2048_2_2_1_1_0_0 128 rfl rfl d)

/-- The aggregate at `(b, n, k)`: the sum over the node `m` of `a[b, n, m] · v[b, m, k]`. -/
theorem stAgg_apply (a : S8x2048x2048.Idx → EReal) (v : S8x2048x128.Idx → EReal) (b : Fin 8) (n : Fin 2048) (k : Fin 128) :
    stAgg (F := Ideal) a v (ix3 b n k) = ∑ m : Fin 2048, a (ix3 b n m) * v (ix3 b m k) := by
  unfold stAgg
  simp only [Host.dotGeneral]
  rw [Ideal.dotGeneral_apply,
    ← Equiv.sum_comp (contrEquiv1 dot_S8x2048x2048_S8x2048x128_S8x2048x128_2_1_1_2_0_0 2048 rfl rfl).symm]
  refine Finset.sum_congr rfl fun d _ => ?_
  congr 2
  · funext c
    match c with
    | ⟨0, _⟩ => exact Fin.ext rfl
    | ⟨1, _⟩ => exact Fin.ext rfl
    | ⟨2, _⟩ =>
      refine Fin.ext ?_
      exact (DotDims.lhsIdx_val_of_single dot_S8x2048x2048_S8x2048x128_S8x2048x128_2_1_1_2_0_0 (cl := ⟨2, by decide⟩) rfl _ _).trans (contrEquiv1_symm_val dot_S8x2048x2048_S8x2048x128_S8x2048x128_2_1_1_2_0_0 2048 rfl rfl d)
  · funext c
    match c with
    | ⟨0, _⟩ => exact Fin.ext rfl
    | ⟨1, _⟩ =>
      refine Fin.ext ?_
      exact (DotDims.rhsIdx_val_of_single dot_S8x2048x2048_S8x2048x128_S8x2048x128_2_1_1_2_0_0 (cr := ⟨1, by decide⟩) rfl _ _).trans (contrEquiv1_symm_val dot_S8x2048x2048_S8x2048x128_S8x2048x128_2_1_1_2_0_0 2048 rfl rfl d)
    | ⟨2, _⟩ => exact Fin.ext rfl

/-! ## The softmax, read at an index -/

/-- The repeat along a new middle axis reads the `[8, 2048]` array at the outer coordinates. -/
theorem stSpread_apply (v : S8x2048.Idx → EReal) (b : Fin 8) (n m : Fin 2048) :
    stSpread (F := Ideal) v (ix3 b n m) = v (ix2 b m) := by
  unfold stSpread
  rw [broadcastInDim_apply _ _ _ (ix3 b n m) (ix3 b (0 : Fin 1) m) (by intro a; match a with | ⟨0, _⟩ => rfl | ⟨1, _⟩ => rfl | ⟨2, _⟩ => rfl),
    broadcastInDim_apply _ _ _ (ix3 b (0 : Fin 1) m) (ix2 b m) (by intro a; match a with | ⟨0, _⟩ => rfl | ⟨1, _⟩ => rfl)]

/-- The largest entry of column `m` of batch entry `b`, as the fold of `max` from `⊥` over the rows, then
    the maximum with `⊥`. -/
theorem stColMax_apply (e : S8x2048x2048.Idx → EReal) (b : Fin 8) (m : Fin 2048) :
    stColMax (F := Ideal) e (ix2 b m)
      = max ⊥ ((Finset.univ : Finset (Fin 2048)).fold max ⊥ fun n => e (ix3 b n m)) := by
  unfold stColMax
  rw [maximumf_apply]
  have hred : S8x2048x2048.Reduces [1] S8x2048 := by decide
  rw [Host.reduce_eq_fold_single (FloatOps.maximumf (F := Ideal) (φ := .f32)) e _ _ hred]
  have hb : ∀ i, broadcastInDim S8x2048 ![] bcast_S_S8x2048 (constant (F := Ideal) S_ .f32 0xFF800000#32) i = (⊥ : EReal) :=
    fun _ => ofBits_negInf_f32
  rw [hb]
  have hc : constant (F := Ideal) S_ .f32 0xFF800000#32 (Shape.Idx.first h_S_) = (⊥ : EReal) := ofBits_negInf_f32
  rw [hc]
  have hl : (e ∘ hred.lift (ix2 b m)) = fun n : Fin 2048 => e (ix3 b n m) := by
    funext n
    refine congrArg e (funext fun a => ?_)
    match a with
    | ⟨0, _⟩ => exact Fin.ext rfl
    | ⟨1, _⟩ => exact Fin.ext rfl
    | ⟨2, _⟩ => exact Fin.ext rfl
  rw [hl]
  rfl

/-- The shifted exponential at `(b, n, m)`. -/
theorem stExp_apply (e : S8x2048x2048.Idx → EReal) (b : Fin 8) (n m : Fin 2048) :
    stExp (F := Ideal) e (ix3 b n m)
      = Ideal.exp (e (ix3 b n m) - max ⊥ ((Finset.univ : Finset (Fin 2048)).fold max ⊥ fun n' => e (ix3 b n' m))) := by
  unfold stExp
  show Ideal.exp (subf (F := Ideal) e (stSpread (F := Ideal) (stColMax (F := Ideal) e)) (ix3 b n m)) = _
  rw [subf_apply, stSpread_apply, stColMax_apply]

/-- The softmax at `(b, n, m)`: the shifted exponential over zero plus the sum of column `m`'s shifted exponentials. -/
theorem stSoftmax_apply (e : S8x2048x2048.Idx → EReal) (b : Fin 8) (n m : Fin 2048) :
    stSoftmax (F := Ideal) e (ix3 b n m)
      = Ideal.div (stExp (F := Ideal) e (ix3 b n m)) (0 + ∑ n' : Fin 2048, stExp (F := Ideal) e (ix3 b n' m)) := by
  unfold stSoftmax
  show Ideal.div (stExp (F := Ideal) e (ix3 b n m)) (stSpread (F := Ideal) (Host.reduceAdd (F := Ideal) (stExp (F := Ideal) e) (constant (F := Ideal) S_ .f32 0x00000000#32) reducesTo_S8x2048x2048_S8x2048_d1 h_S_) (ix3 b n m)) = _
  rw [stSpread_apply]
  have hred : S8x2048x2048.Reduces [1] S8x2048 := by decide
  show Ideal.div _ (Ideal.hostReduceAdd reducesTo_S8x2048x2048_S8x2048_d1 (stExp (F := Ideal) e) (Ideal.ofBits .f32 0x00000000#32) (ix2 b m)) = _
  rw [Ideal.hostReduceAdd_single _ hred, Ideal.ofBits_zero_f32]
  congr 2
  refine Finset.sum_congr rfl fun n' _ => congrArg (stExp (F := Ideal) e) (funext fun a => ?_)
  match a with
  | ⟨0, _⟩ => exact Fin.ext rfl
  | ⟨1, _⟩ => exact Fin.ext rfl
  | ⟨2, _⟩ => exact Fin.ext rfl

/-! ## The output layer, read at an index -/

/-- The output layer before the activation at `(b, r, o)`. -/
theorem stPre_apply (n : S8x2048x128.Idx → EReal) (Wo : S128x128.Idx → EReal) (bo : S128.Idx → EReal)
    (b : Fin 8) (r : Fin 2048) (o : Fin 128) :
    stPre (F := Ideal) n Wo bo (ix3 b r o) = (∑ k : Fin 128, n (ix3 b r k) * Wo (ix2 o k)) + bo (ix1 o) := by
  unfold stPre
  rw [addf_apply, stProj_apply,
    broadcastInDim_apply _ _ _ (ix3 b r o) (ix3 (0 : Fin 1) (0 : Fin 1) o) (by intro a; match a with | ⟨0, _⟩ => rfl | ⟨1, _⟩ => rfl | ⟨2, _⟩ => rfl),
    broadcastInDim_apply _ _ _ (ix3 (0 : Fin 1) (0 : Fin 1) o) (ix1 o) (by intro a; match a with | ⟨0, _⟩ => rfl)]

/-- The leaky ReLU at an index: the entry where it is at least zero, the slope word times the entry elsewhere. -/
theorem stLrelu_apply (z : S8x2048x128.Idx → EReal) (i : S8x2048x128.Idx) :
    stLrelu (F := Ideal) z i = if (0 : EReal) ≤ z i then z i else Ideal.ofBits .f32 0x3C23D70A#32 * z i := by
  unfold stLrelu
  rw [select_apply, cmpf_apply, Ideal.cmpf_def, mulf_apply]
  show Scalar.select (Ideal.cmp .oge (z i) (Ideal.ofBits .f32 0x00000000#32)) (z i) (Ideal.ofBits .f32 0x3C23D70A#32 * z i) = _
  rw [Ideal.ofBits_zero_f32]
  unfold Ideal.cmp
  by_cases h : (0 : EReal) ≤ z i
  · simp [h, Scalar.select]
  · simp [h, Scalar.select]

end Cert.ReferenceIdeal.RefValue

end
-- ==== Proof.RefRead.lean ====
/-
  The reference program's two results as functions of the argument arrays, in the shared vocabulary: at every
  index the composition of the stages is, entry by entry, the direct spelling of co-attention — keys and values by
  `x · Wᵀ`, scores, the softmax over the score matrix's first index (largest entry of the column, shifted
  exponentials, zero plus their sum, the quotient), the aggregation, the output projection, the bias and the leaky
  ReLU. With the run of the program this gives its two result arrays after every weakly fair execution.
-/
import proofs.«140224_j47897475285202_2_alg».proof.Proof.RefReadStages
import proofs.«140224_j47897475285202_2_alg».proof.Proof.Forms

noncomputable section

open scoped BigOperators

namespace Cert.ReferenceIdeal.RefValue

open Idealize.ShloMosaic.ValueIdx
open Cert.ReferenceIdeal Idealize.ShloMosaic Idealize.ShloMosaic.TcCoe Idealize.SL.Sem Idealize.ShloMosaic.StableHlo
open Cert.CoAttn (G1Direct G2Direct)

variable [Facts]
open Facts₀ Facts

/-- The first result is the direct spelling's first output, batch entry by batch entry. -/
theorem res1_eq (a0 a1 : S8x2048x128.Idx → EReal) (a2 a3 a4 : S128x128.Idx → EReal) (a5 : S128.Idx → EReal) :
    res1 (F := Ideal) a0 a1 a2 a3 a4 a5 = G1Direct a0 a1 a2 a3 a4 a5 := by
  funext i
  obtain ⟨b, n, o, rfl⟩ : ∃ (b : Fin 8) (n : Fin 2048) (o : Fin 128), i = ix3 b n o := ⟨i 0, i 1, i 2, eq_ix3 i⟩
  unfold res1
  rw [stLrelu_apply, stPre_apply]
  simp only [stAgg_apply, stSoftmax_apply, stExp_apply, stScore_apply, stProj_apply]
  rfl

/-- The second result is the direct spelling's second output, batch entry by batch entry. -/
theorem res2_eq (a0 a1 : S8x2048x128.Idx → EReal) (a2 a3 a4 : S128x128.Idx → EReal) (a5 : S128.Idx → EReal) :
    res2 (F := Ideal) a0 a1 a2 a3 a4 a5 = G2Direct a0 a1 a2 a3 a4 a5 := by
  funext i
  obtain ⟨b, n, o, rfl⟩ : ∃ (b : Fin 8) (n : Fin 2048) (o : Fin 128), i = ix3 b n o := ⟨i 0, i 1, i 2, eq_ix3 i⟩
  unfold res2
  rw [stLrelu_apply, stPre_apply]
  simp only [stAgg_apply, stSoftmax_apply, stExp_apply, stScore_apply, stProj_apply]
  rfl

/-- At the ideal values, on every device, from any memory with zero counters: every weakly fair execution of the
    reference's @main terminates with its two results at the direct spelling of co-attention over the argument
    arrays' launch contents, and the arguments unchanged. -/
theorem run_direct (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34) = G1Direct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v39) = G2Direct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨(h c).1.trans (res1_eq _ _ _ _ _ _), (h c).2.1.trans (res2_eq _ _ _ _ _ _), (h c).2.2⟩)
    (run m ρ)

end Cert.ReferenceIdeal.RefValue

end
-- ==== Proof.LibRealSum.lean ====
/-
  Extended reals that are real numbers: closure facts, for any index types.

  `IsReal x` says the extended real `x` is the coercion of a real number (neither +∞ nor −∞).
  * The coercion from the reals commutes with finite sums (`coe_sum`).
  * Sums, products and finite sums of real extended reals are real (`IsReal.add`, `IsReal.mul`,
    `IsReal.sum`).
  * The fold of `max` from −∞ over real values is −∞ on the empty set and real on any other finite
    set (`fold_max_real`): a row maximum started at −∞ is a real number as soon as the row is not empty.
  These are what is needed to use distributivity, which the extended reals have only away from the
  infinities.  Imports Mathlib only.
-/
import Mathlib.Data.EReal.Operations
import Mathlib.Algebra.BigOperators.Group.Finset.Basic

namespace Cert.LibRealSum

/-- The coercion of reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is the coercion of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (t : Finset ι) (f : ι → EReal) (h : ∀ k, IsReal (f k)) : IsReal (∑ k ∈ t, f k) := by
  choose g hg using h
  exact ⟨∑ k ∈ t, g k, by rw [coe_sum]; exact Finset.sum_congr rfl fun k _ => hg k⟩

/-- The fold of `max` from −∞ over real values is −∞ on the empty set and real otherwise. -/
theorem fold_max_real {ι : Type*} (t : Finset ι) (f : ι → EReal) (hf : ∀ k, IsReal (f k)) :
    (t = ∅ ∧ t.fold max ⊥ f = ⊥) ∨ IsReal (t.fold max ⊥ f) := by
  classical
  induction t using Finset.induction_on with
  | empty => exact Or.inl ⟨rfl, Finset.fold_empty⟩
  | insert a t ha ih =>
    refine Or.inr ?_
    rw [Finset.fold_insert ha]
    obtain ⟨r, hr⟩ := hf a
    rcases ih with ⟨_, h0⟩ | ⟨M, hM⟩
    · rw [h0, hr]; exact ⟨r, max_eq_left bot_le⟩
    · rw [hM, hr]; exact ⟨max r M, (EReal.coe_strictMono.monotone.map_max).symm⟩

end Cert.LibRealSum
-- ==== Proof.BridgeTop.lean ====
/-
  The largest entry of 2048 rows, taken at once and taken tile by tile.

  `top f` is the least upper bound of the values of `f`:  top f ≤ a  exactly when every  f i ≤ a.  The running maximum
  of four values from −∞ is likewise their least upper bound.  Since every row is a row of one of the four tiles, the
  two least upper bounds coincide.  Starting a maximum at −∞ changes nothing:  max ⊥ x = x.  Order facts only; no
  finiteness is involved.
-/
import proofs.«140224_j47897475285202_2_alg».proof.Proof.Forms
import proofs.«140224_j47897475285202_2_alg».proof.Proof.BridgeSums

namespace Cert.CoAttn

/-- Every value is at most the largest. -/
theorem entry_le_top {N : ℕ} (f : Fin N → EReal) (i : Fin N) : f i ≤ top f :=
  Finset.le_sup (f := f) (Finset.mem_univ i)

/-- The largest value is the LEAST upper bound. -/
theorem top_le_of_forall {N : ℕ} (f : Fin N → EReal) (a : EReal) (h : ∀ i, f i ≤ a) : top f ≤ a :=
  Finset.sup_le (f := f) fun i _ => h i

/-- The running maximum of four values is an upper bound of each. -/
theorem le_max4 (g : Fin 4 → EReal) (c : Fin 4) : g c ≤ max4 g := by
  unfold max4
  fin_cases c
  · exact le_trans (le_trans (le_trans (le_max_right _ _) (le_max_left _ _)) (le_max_left _ _)) (le_max_left _ _)
  · exact le_trans (le_trans (le_max_right _ _) (le_max_left _ _)) (le_max_left _ _)
  · exact le_trans (le_max_right _ _) (le_max_left _ _)
  · exact le_max_right _ _

/-- The running maximum of four values is their least upper bound. -/
theorem max4_le (g : Fin 4 → EReal) (a : EReal) (h : ∀ c, g c ≤ a) : max4 g ≤ a := by
  unfold max4
  exact max_le (max_le (max_le (max_le bot_le (h 0)) (h 1)) (h 2)) (h 3)

/-- The largest of 2048 rows is the running maximum of the four tiles' largest. -/
theorem max4_rows (f : Fin 2048 → EReal) : max4 (fun c => top fun r : Fin 512 => f (row c r)) = top f := by
  apply le_antisymm
  · exact max4_le _ _ fun c => top_le_of_forall _ _ fun r => entry_le_top f (row c r)
  · refine top_le_of_forall _ _ fun i => ?_
    obtain ⟨c, r, rfl⟩ := exists_row i
    exact le_trans (entry_le_top (fun r : Fin 512 => f (row c r)) r)
      (le_max4 (fun c => top fun r : Fin 512 => f (row c r)) c)

/-- A maximum started at −∞. -/
theorem max_bot_left (x : EReal) : max ⊥ x = x := max_eq_right bot_le

end Cert.CoAttn
-- ==== Proof.BridgeSoftmax.lean ====
/-
  The softmax with the reciprocal of the sum against the softmax with the quotient.

  `Ideal.div x y` is  x · y⁻¹  when  y ≠ 0  and a signed infinity when  y = 0 ; so  x · div 1 S = div x (0 + S)  as
  soon as  S ≠ 0  — and not at  S = 0.  For REAL scores the sum of exponentials is not zero: the largest of finitely
  many values is one of them, the term there is  exp 0 = 1, and no term is negative, so the sum is at least 1.
  With the two re-indexing facts (sum and maximum over four tiles of 512 rows) the tiled column softmax is the direct
  one; and the direct column softmax of the transposed scores is the row softmax, transposed.
-/
import proofs.«140224_j47897475285202_2_alg».proof.Proof.Forms
import proofs.«140224_j47897475285202_2_alg».proof.Proof.LibRealSum
import proofs.«140224_j47897475285202_2_alg».proof.Proof.BridgeSums
import proofs.«140224_j47897475285202_2_alg».proof.Proof.BridgeTop

open scoped BigOperators

namespace Cert.CoAttn

open Idealize.ShloMosaic Cert.LibRealSum

/-- The exponential is nowhere negative. -/
theorem exp_nonneg (x : EReal) : 0 ≤ Ideal.exp x := by
  induction x using EReal.rec with
  | bot => exact le_of_eq rfl
  | coe r => rw [Ideal.exp_coe]; exact_mod_cast (Real.exp_pos r).le
  | top => exact le_top

/-- The largest of finitely many values, at least one, is one of them. -/
theorem top_attained {N : ℕ} (hN : 0 < N) (f : Fin N → EReal) : ∃ i, top f = f i := by
  haveI : Nonempty (Fin N) := ⟨⟨0, hN⟩⟩
  obtain ⟨i, -, hi⟩ := Finset.exists_max_image Finset.univ f Finset.univ_nonempty
  exact ⟨i, le_antisymm (top_le_of_forall f _ fun j => hi j (Finset.mem_univ j)) (entry_le_top f i)⟩

/-- For real values the sum of the exponentials of the differences to the largest value is at least 1:
    the term at a largest value is `exp 0 = 1` and no term is negative. -/
theorem one_le_sum_exp {N : ℕ} (hN : 0 < N) (f : Fin N → EReal) (hf : ∀ i, IsReal (f i)) :
    1 ≤ ∑ i, Ideal.exp (f i - top f) := by
  obtain ⟨i, hi⟩ := top_attained hN f
  obtain ⟨r, hr⟩ := hf i
  have h1 : Ideal.exp (f i - top f) = 1 := by
    rw [hi, hr, ← EReal.coe_sub, sub_self, Ideal.exp_coe, Real.exp_zero, EReal.coe_one]
  calc (1 : EReal) = Ideal.exp (f i - top f) := h1.symm
    _ ≤ ∑ j, Ideal.exp (f j - top f) :=
      Finset.single_le_sum (f := fun j => Ideal.exp (f j - top f)) (fun j _ => exp_nonneg _) (Finset.mem_univ i)

/-- … hence it is not zero. -/
theorem sum_exp_ne_zero {N : ℕ} (hN : 0 < N) (f : Fin N → EReal) (hf : ∀ i, IsReal (f i)) :
    (∑ i, Ideal.exp (f i - top f)) ≠ 0 :=
  (lt_of_lt_of_le zero_lt_one (one_le_sum_exp hN f hf)).ne'

/-- Off a zero denominator, the product with the reciprocal is the quotient. -/
theorem mul_div_one (x S : EReal) (hS : S ≠ 0) : x * Ideal.div 1 S = Ideal.div x (0 + S) := by
  rw [zero_add]
  unfold Ideal.div
  rw [if_neg hS, if_neg hS, one_mul]

/-- Column `m`'s largest score, tile by tile, is the column's largest score. -/
theorem colTopTiled_eq (e : Mat 2048 2048) (m : Fin 2048) : colTopTiled e m = top fun n => e n m :=
  max4_rows fun n => e n m

/-- The column softmax, tile by tile with the reciprocal, is the direct one on real scores. -/
theorem smColTiled_eq_smDirect (e : Mat 2048 2048) (he : ∀ n m, IsReal (e n m)) : smColTiled e = smDirect e := by
  funext n m
  unfold smColTiled smDirect
  rw [colTopTiled_eq, max_bot_left, acc4_rows fun i => Ideal.exp (e i m - top fun n => e n m)]
  exact mul_div_one _ _ (sum_exp_ne_zero (by norm_num) (fun n => e n m) fun n => he n m)

/-- The direct column softmax of the transposed scores is the row softmax, transposed. -/
theorem smDirect_transpose (e : Mat 2048 2048) (he : ∀ n m, IsReal (e n m)) (n m : Fin 2048) :
    smDirect (fun a b => e b a) m n = smRow e n m := by
  unfold smDirect smRow
  rw [max_bot_left]
  exact (mul_div_one _ _ (sum_exp_ne_zero (by norm_num) (fun m' => e n m') fun m' => he n m')).symm

end Cert.CoAttn
-- ==== Proof.Bridge.lean ====
/-
  The tiled spelling of the two outputs is the direct spelling, for real inputs.

  Real entries stay real through the projections and the scores (sums of products of reals).  First output: the tiled
  column softmax is the direct one.  Second output: exchanging the two sides transposes the score matrix
  (multiplication commutes), the direct column softmax of the transposed scores is the row softmax transposed, and the
  aggregate accumulated over four tiles of 512 rows is the aggregate summed over all 2048 rows.
-/
import proofs.«140224_j47897475285202_2_alg».proof.Proof.Forms
import proofs.«140224_j47897475285202_2_alg».proof.Proof.LibRealSum
import proofs.«140224_j47897475285202_2_alg».proof.Proof.BridgeSums
import proofs.«140224_j47897475285202_2_alg».proof.Proof.BridgeSoftmax

open scoped BigOperators

namespace Cert.CoAttn

open Idealize.ShloMosaic Idealize.ShloMosaic.ValueIdx Cert.LibRealSum

/-- Real entries stay real through a projection. -/
theorem proj_real (x : Mat 2048 128) (W : Mat 128 128) (hx : ∀ n d, IsReal (x n d)) (hW : ∀ k d, IsReal (W k d))
    (n : Fin 2048) (k : Fin 128) : IsReal (proj x W n k) :=
  IsReal.sum _ _ fun d => (hx n d).mul (hW k d)

/-- Real entries stay real through the scores. -/
theorem score_real (p q : Mat 2048 128) (hp : ∀ n k, IsReal (p n k)) (hq : ∀ m k, IsReal (q m k))
    (n m : Fin 2048) : IsReal (score p q n m) :=
  IsReal.sum _ _ fun k => (hp n k).mul (hq m k)

/-- Exchanging the two sides transposes the scores. -/
theorem score_comm (p q : Mat 2048 128) : score q p = fun m n => score p q n m := by
  funext m n
  exact Finset.sum_congr rfl fun k _ => mul_comm _ _

/-- First output: the two spellings agree on real inputs. -/
theorem out1Tiled_eq_out1Direct (x1 x2 : Mat 2048 128) (Wk Wv Wo : Mat 128 128) (bo : Fin 128 → EReal)
    (h1 : ∀ n d, IsReal (x1 n d)) (h2 : ∀ n d, IsReal (x2 n d)) (hk : ∀ k d, IsReal (Wk k d)) :
    out1Tiled x1 x2 Wk Wv Wo bo = out1Direct x1 x2 Wk Wv Wo bo := by
  unfold out1Tiled out1Direct
  rw [smColTiled_eq_smDirect _ (score_real _ _ (proj_real x1 Wk h1 hk) (proj_real x2 Wk h2 hk))]

/-- Second output: the two spellings agree on real inputs. -/
theorem out2Tiled_eq_out2Direct (x1 x2 : Mat 2048 128) (Wk Wv Wo : Mat 128 128) (bo : Fin 128 → EReal)
    (h1 : ∀ n d, IsReal (x1 n d)) (h2 : ∀ n d, IsReal (x2 n d)) (hk : ∀ k d, IsReal (Wk k d)) :
    out2Tiled x1 x2 Wk Wv Wo bo = out2Direct x1 x2 Wk Wv Wo bo := by
  have he := score_real _ _ (proj_real x1 Wk h1 hk) (proj_real x2 Wk h2 hk)
  have hagg : aggTiledT (smRow (score (proj x1 Wk) (proj x2 Wk))) (proj x1 Wv)
      = agg (smDirect (score (proj x2 Wk) (proj x1 Wk))) (proj x1 Wv) := by
    funext m d
    unfold aggTiledT agg
    rw [acc4_rows fun j => smRow (score (proj x1 Wk) (proj x2 Wk)) j m * proj x1 Wv j d]
    refine Finset.sum_congr rfl fun j _ => ?_
    rw [score_comm (proj x1 Wk) (proj x2 Wk), smDirect_transpose _ he]
  unfold out2Tiled out2Direct
  rw [hagg]

theorem G1_tiled_eq_direct (a0 a1 : A3.Idx → EReal) (a2 a3 a4 : A2.Idx → EReal) (a5 : A1.Idx → EReal)
    (h0 : AllReal a0) (h1 : AllReal a1) (h2 : AllReal a2) (h3 : AllReal a3) (h4 : AllReal a4) (h5 : AllReal a5) :
    G1Tiled a0 a1 a2 a3 a4 a5 = G1Direct a0 a1 a2 a3 a4 a5 := by
  unfold G1Tiled G1Direct
  congr 1
  funext b
  exact out1Tiled_eq_out1Direct _ _ _ _ _ _ (fun n d => h0 (ix3 b n d)) (fun n d => h1 (ix3 b n d))
    (fun k d => h2 (ix2 k d))

theorem G2_tiled_eq_direct (a0 a1 : A3.Idx → EReal) (a2 a3 a4 : A2.Idx → EReal) (a5 : A1.Idx → EReal)
    (h0 : AllReal a0) (h1 : AllReal a1) (h2 : AllReal a2) (h3 : AllReal a3) (h4 : AllReal a4) (h5 : AllReal a5) :
    G2Tiled a0 a1 a2 a3 a4 a5 = G2Direct a0 a1 a2 a3 a4 a5 := by
  unfold G2Tiled G2Direct
  congr 1
  funext b
  exact out2Tiled_eq_out2Direct _ _ _ _ _ _ (fun n d => h0 (ix3 b n d)) (fun n d => h1 (ix3 b n d))
    (fun k d => h2 (ix2 k d))

end Cert.CoAttn
-- ==== Proof.LibFiniteInput.lean ====
/-
  From "all entries have absolute value below +∞" to "every entry is a real number", at ANY shape.

  A finiteness precondition on a float array x is the array-language expression  all (|x| < +∞) : a reduction by
  "and", from the constant 1, of the entrywise comparison of |x| with the +∞ pattern broadcast from a scalar, over
  all axes into a single result.  If that result is 1 then the comparison is 1 at every entry (`all_real`); and on the
  extended reals  max x (−x) < +∞  fails at both infinities, so the entry is the coercion of a real number
  (`real_of_abs_lt_top`).  The +∞ pattern of f32 is `0x7F800000` (`inf_eq`).  Stated for any shape `s`, any list of
  reduced axes, and the shape and reduction facts as variables, so that it applies to a printed predicate's terms as
  they stand.  Imports only the library.
-/
import Idealize.ShloMosaic.Lib.ReduceAll
import Idealize.ShloMosaic.Lib.ValueIdx
import Idealize.ShloMosaic.PureOps.Ideal

noncomputable section

namespace Cert.LibFiniteInput

open Idealize.ShloMosaic Idealize.ShloMosaic.ValueIdx

/-- The scalar shape has one index. -/
instance : Subsingleton (⟨0, ![]⟩ : Shape).Idx := ⟨fun a b => funext fun d => d.elim0⟩

/-- The f32 pattern `0x7F800000` denotes `+∞`. -/
theorem inf_eq : Ideal.ofBits .f32 0x7F800000#32 = (⊤ : EReal) := by
  simp [Ideal.ofBits, Ideal.ieee]

/-- An extended real whose absolute value is below `+∞` is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One array: if `all (|x| < +∞)` is 1, every entry of `x` is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ix0 = 1#1) (i : s.Idx) : ∃ r : ℝ, x i = (r : EReal) := by
  have h1 := Host.reduce_andi_all _ _ hr hu ix0 e i
  have h2 : BitVec.ofBool (decide (max (x i) (-(x i)) < Ideal.ofBits .f32 0x7F800000#32)) = 1#1 := h1
  rw [inf_eq] at h2
  refine real_of_abs_lt_top (x i) ?_
  by_contra hn
  rw [decide_eq_false hn] at h2
  exact absurd h2 (by decide)

end Cert.LibFiniteInput

end
-- ==== Proof.Finite.lean ====
/-
  From the finiteness precondition, as generated, to: every entry of every argument array is a real number.

  The precondition says that the conjunction, over the six argument arrays, of  all (|x| < +∞)  is 1 on every device.
  A conjunction of bits is 1 exactly when both are; so each array's  all (|x| < +∞)  is 1, and then every entry of that
  array is the coercion of a real number (an entry at +∞ or −∞ has |x| = +∞).
-/
import proofs.«140224_j47897475285202_2_alg».proof.Defs
import proofs.«140224_j47897475285202_2_alg».proof.Proof.Forms
import proofs.«140224_j47897475285202_2_alg».proof.Proof.LibFiniteInput

noncomputable section

namespace Cert.CoAttn

open Idealize.ShloMosaic Idealize.SL.Sem Idealize.ShloMosaic.ValueIdx

/-- Under the precondition every argument array of the kernel has real entries, on every device. -/
theorem args_real [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5)) := by
  have h := congrFun (hpre c) ValueIdx.ix0
  dsimp only [Cert.Pre_finite_inputs.fn, Cert.Pre_finite_inputs.fn_part1] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => Cert.LibFiniteInput.all_real _ _ _ _ h0 i, fun i => Cert.LibFiniteInput.all_real _ _ _ _ h1 i,
    fun i => Cert.LibFiniteInput.all_real _ _ _ _ h2 i, fun i => Cert.LibFiniteInput.all_real _ _ _ _ h3 i,
    fun i => Cert.LibFiniteInput.all_real _ _ _ _ h4 i, fun i => Cert.LibFiniteInput.all_real _ _ _ _ h5 i⟩

end Cert.CoAttn

end
-- ==== Proof.Claims.lean ====
/-
  The certificate's four conjuncts that need an argument.

  Both programs compute, per batch entry, the two co-attention messages between two node sets: keys and values by
  a projection, the scores of every pair of nodes, the scores normalised by a softmax over one side, the other side's
  values aggregated with the normalised scores, then an output projection, a bias and a leaky ReLU.  The kernel walks
  the rows in four tiles of 512 with a running largest score and a running sum and multiplies by the reciprocal of the
  sum (the tiled spelling); the reference takes each column's largest score and sum at once and divides (the direct
  spelling).  For arguments that are real numbers — which the precondition says — the two spellings are equal: the sum
  of the shifted exponentials is at least 1, hence not zero, so the product with the reciprocal is the quotient, and
  sums and maxima over 2048 rows are those over four tiles of 512.
-/
import proofs.«140224_j47897475285202_2_alg».proof.Defs
import proofs.«140224_j47897475285202_2_alg».proof.Proof.Gen.Kernel
import proofs.«140224_j47897475285202_2_alg».proof.Proof.Gen.KernelIdeal
import proofs.«140224_j47897475285202_2_alg».proof.Proof.Gen.ReferenceIdeal
import proofs.«140224_j47897475285202_2_alg».proof.Proof.Gen.Pre_finite_inputs
import proofs.«140224_j47897475285202_2_alg».proof.Proof.KernelFrame
import proofs.«140224_j47897475285202_2_alg».proof.Proof.KernelIdealValue
import proofs.«140224_j47897475285202_2_alg».proof.Proof.KerArray
import proofs.«140224_j47897475285202_2_alg».proof.Proof.RefRead
import proofs.«140224_j47897475285202_2_alg».proof.Proof.Forms
import proofs.«140224_j47897475285202_2_alg».proof.Proof.Bridge
import proofs.«140224_j47897475285202_2_alg».proof.Proof.Finite

noncomputable section

namespace Cert.Proof.Claims

open Idealize.ShloMosaic Idealize.ShloMosaic.TcCoe Idealize.SL.Sem Cert.CoAttn

/-- The kernel, at bit patterns, runs and leaves its arguments unchanged. -/
theorem frame_kernel : Cert.frame_Kernel := fun m ρ _ => Cert.Kernel.Gen.frame m ρ

/-- The kernel, at the extended reals, runs and leaves its arguments unchanged. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.RefValue.run_direct m ρ)

/-- At the extended reals, from memories that agree on the arguments, the kernel's two result arrays are the tiled
    spelling of the two co-attention messages and the reference's are the direct spelling; the arguments are real
    numbers by the precondition, and on real arguments the two spellings are equal. -/
theorem algebraic : Cert.algebraic_KernelIdeal_ReferenceIdeal := by
  intro m ρ m' ρ' hpre hagree
  refine ⟨fun c => G1Tiled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => G2Tiled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KerArray.run_tiled m ρ, ?_⟩
  refine (θ_run Cert.ReferenceIdeal.defs _ _).mono (fun _ h c => ?_) (Cert.ReferenceIdeal.RefValue.run_direct m' ρ')
  obtain ⟨e0, e1, e2, e3, e4, e5⟩ := hagree c
  obtain ⟨r0, r1, r2, r3, r4, r5⟩ := Cert.CoAttn.args_real m hpre c
  refine ⟨(h c).1.trans ?_, (h c).2.1.trans ?_, (h c).2.2⟩
  · rw [e0, e1, e2, e3, e4, e5]
    exact (G1_tiled_eq_direct _ _ _ _ _ _ r0 r1 r2 r3 r4 r5).symm
  · rw [e0, e1, e2, e3, e4, e5]
    exact (G2_tiled_eq_direct _ _ _ _ _ _ r0 r1 r2 r3 r4 r5).symm

end Cert.Proof.Claims

end
-- ==== Proof.lean ====
/-
  The proof of `Cert.Claim`: the kernel (at bit patterns and at the extended reals) and the reference run and leave
  their arguments unchanged, and at the extended reals, from memories that agree on the arguments and satisfy the
  finiteness precondition, the kernel's two result arrays equal the reference's.

  The mathematics: per batch entry both programs compute the two co-attention messages between two node sets.  The
  kernel's result arrays are the TILED spelling (rows walked in four tiles of 512 with a running maximum and a running
  sum, the reciprocal of the sum in place of the quotient); the reference's are the DIRECT spelling; on real arguments
  the two are equal (Proof/Claims.lean and the modules it imports).
-/
import proofs.«140224_j47897475285202_2_alg».proof.Defs
import proofs.«140224_j47897475285202_2_alg».proof.Proof.Gen.Kernel
import proofs.«140224_j47897475285202_2_alg».proof.Proof.Gen.Kernel.Skeleton
import proofs.«140224_j47897475285202_2_alg».proof.Proof.Gen.Kernel.Loops
import proofs.«140224_j47897475285202_2_alg».proof.Proof.Gen.Kernel.Launch
import proofs.«140224_j47897475285202_2_alg».proof.Proof.Gen.Kernel.Points
import proofs.«140224_j47897475285202_2_alg».proof.Proof.KernelFrame
import proofs.«140224_j47897475285202_2_alg».proof.Proof.Gen.KernelIdeal
import proofs.«140224_j47897475285202_2_alg».proof.Proof.Gen.KernelIdeal.Skeleton
import proofs.«140224_j47897475285202_2_alg».proof.Proof.Gen.KernelIdeal.Loops
import proofs.«140224_j47897475285202_2_alg».proof.Proof.Gen.KernelIdeal.Launch
import proofs.«140224_j47897475285202_2_alg».proof.Proof.Gen.KernelIdeal.Points
import proofs.«140224_j47897475285202_2_alg».proof.Proof.KernelIdealValue
import proofs.«140224_j47897475285202_2_alg».proof.Proof.Gen.ReferenceIdeal
import proofs.«140224_j47897475285202_2_alg».proof.Proof.Gen.Pre_finite_inputs
import proofs.«140224_j47897475285202_2_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernelIdeal, Cert.Proof.Claims.frame_referenceIdeal, trivial,
  Cert.Proof.Claims.algebraic⟩

end Cert.Proof

end
